-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩
abbrev S8192 : Shape := ⟨1, ![8192]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_cst_6 : FVec F S_ .f32 := constant S_ .f32 0x00000000#32
  let main_v19 : FVec F S8192 .f32 := (fun x v => Host.reduceAdd x v reducesTo_S8192x8192_S8192_d1 h_S_) main_arg1 main_cst_6
  let main_cst_7 : FVec F S_ .f32 := constant S_ .f32 0x40000000#32
  let main_v20 : FVec F S8192 .f32 := broadcastInDim S8192 ![] bcast_S_S8192 main_cst_7
  let main_v21 : FVec F S8192 .f32 := addf main_v19 main_v20
  let main_cst_8 : FVec F S_ .f32 := constant S_ .f32 0x00000000#32
  let main_v22 : FVec F S8192 .f32 := broadcastInDim S8192 ![] bcast_S_S8192 main_cst_8
  let main_v23 : IVec S8192 1 := cmpf .ogt main_v21 main_v22
  let main_c_9 : IVec S_ 1 := constantI S_ 1 1#1
  let main_v24 : IVec S_ 1 := (fun x v => Host.reduce IntOp.andi x v reducesTo_S8192_S_d0 h_S_) main_v23 main_c_9
  let main_v25 : IVec S_ 1 := andi main_v18 main_v24
  main_v25

def fn {F : FTy → Type} [FloatOps F] (main_arg0 : FVec F S8192x256 .f32) (main_arg1 : FVec F S8192x8192 .f32) (main_arg2 : FVec F S256x256 .f32) (main_arg3 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S8192x1 : Shape := ⟨2, ![8192, 1]⟩
abbrev S1024x4096 : Shape := ⟨2, ![1024, 4096]⟩
abbrev S1024x1 : Shape := ⟨2, ![1024, 1]⟩
abbrev S1024 : Shape := ⟨1, ![1024]⟩
abbrev S1x256 : Shape := ⟨2, ![1, 256]⟩
abbrev S1024x2048 : Shape := ⟨2, ![1024, 2048]⟩
abbrev S2048x256 : Shape := ⟨2, ![2048, 256]⟩
abbrev S1024x256 : Shape := ⟨2, ![1024, 256]⟩
abbrev S2048x1 : Shape := ⟨2, ![2048, 1]⟩

abbrev nBuf : Space → Nat
  | .hbm => 8
  | .vmem => 20
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S8192x1, .f32⟩
  | .hbm, ⟨5, _⟩ => ⟨S256x256, .f32⟩
  | .hbm, ⟨6, _⟩ => ⟨S1x256, .f32⟩
  | .hbm, ⟨7, _⟩ => ⟨S8192x256, .f32⟩
  | .local _ .vmem, ⟨0, _⟩ => ⟨S1024x4096, .f32⟩
  | .local _ .vmem, ⟨1, _⟩ => ⟨S1024x4096, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x2048, .f32⟩
  | .local _ .vmem, ⟨6, _⟩ => ⟨S1024x2048, .f32⟩
  | .local _ .vmem, ⟨7, _⟩ => ⟨S2048x256, .f32⟩
  | .local _ .vmem, ⟨8, _⟩ => ⟨S2048x256, .f32⟩
  | .local _ .vmem, ⟨9, _⟩ => ⟨S1024x256, .f32⟩
  | .local _ .vmem, ⟨10, _⟩ => ⟨S1024x256, .f32⟩
  | .local _ .vmem, ⟨11, _⟩ => ⟨S2048x1, .f32⟩
  | .local _ .vmem, ⟨12, _⟩ => ⟨S2048x1, .f32⟩
  | .local _ .vmem, ⟨13, _⟩ => ⟨S1024x1, .f32⟩
  | .local _ .vmem, ⟨14, _⟩ => ⟨S1024x1, .f32⟩
  | .local _ .vmem, ⟨15, _⟩ => ⟨S256x256, .f32⟩
  | .local _ .vmem, ⟨16, _⟩ => ⟨S1x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_10 : BitVec 32 := 0#32
  let v19 : BitVec 1 := Scalar.cmpi .ne v18 c0_i32_10
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1024x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x4096_S1024x4096_0_0 : ∀ a, (![0, 0] : Fin 2 → Nat) a + S1024x4096.size a ≤ S1024x4096.size a
  h_S1024x4096 : 0 < S1024x4096.numel
  reduces_S1024x4096_S1024 : S1024x4096.Reduces [1] S1024
  shapeCasts_S1024_S1024x1 : S1024.ShapeCasts S1024x1
  transposes_S256x256_S256x256_1_0 : S256x256.Transposes [1, 0] S256x256
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  broadcasts_S1024x1_S1024x256 : S1024x1.Broadcasts S1024x256
  shapeCasts_S1024x256_S1024x256 : S1024x256.ShapeCasts S1024x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  broadcasts_S2048x1_S2048x256 : S2048x1.Broadcasts S2048x256
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x2048_S2048x256_S1024x256_1_0_0_1_n_n_wf : DotDims.WF S1024x2048 S2048x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x8192.size a
  hwx0_0 : ∀ i : grid0.Coords, EltTy.bits .f32 = 32 ∨ (Rect.block (s := S8192x8192) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .f32 = 32 ∨ (Rect.block (s := S8192x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S8192x1.size a
  hwx1_3 : ∀ i : grid1.Coords, EltTy.bits .f32 = 32 ∨ (Rect.block (s := S8192x1) S2048x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x256.size a ≤ S8192x256.size a
  hwx1_7 : ∀ i : grid1.Coords, EltTy.bits .f32 = 32 ∨ (Rect.block (s := S8192x256) S1024x256.size (cc1_transform_7 i) (hinb1_7 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S1024x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x256 : Shape := ⟨2, ![1, 256]⟩

abbrev nBuf : Space → Nat
  | .hbm => 33
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192x1, .f32⟩
  | .hbm, ⟨19, _⟩ => ⟨S8192x8192, .f32⟩
  | .hbm, ⟨20, _⟩ => ⟨S8192x8192, .f32⟩
  | .hbm, ⟨21, _⟩ => ⟨S1x8192, .f32⟩
  | .hbm, ⟨22, _⟩ => ⟨S8192x8192, .f32⟩
  | .hbm, ⟨23, _⟩ => ⟨S8192x8192, .f32⟩
  | .hbm, ⟨24, _⟩ => ⟨S8192x256, .f32⟩
  | .hbm, ⟨25, _⟩ => ⟨S256x256, .f32⟩
  | .hbm, ⟨26, _⟩ => ⟨S8192x256, .f32⟩
  | .hbm, ⟨27, _⟩ => ⟨S1x256, .f32⟩
  | .hbm, ⟨28, _⟩ => ⟨S8192x256, .f32⟩
  | .hbm, ⟨29, _⟩ => ⟨S8192x256, .f32⟩
  | .hbm, ⟨30, _⟩ => ⟨S_, .f32⟩
  | .hbm, ⟨31, _⟩ => ⟨S8192x256, .f32⟩
  | .hbm, ⟨32, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_cst : Ref sig .tc := ⟨.hbm, 30, rfl⟩
abbrev main_call0_v0 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []

variable [Facts₀]

def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.LibFrameShared.lean ====
/-
  The frame run of a one-region pipeline whose INPUT windows may share an array.

  A pallas_call may be handed one array through several input windows (the same matrix read at two different
  block offsets, say). The pipeline then holds that array once per window, each at a fraction of the full share,
  and the fractions together make the whole. Everything else is as for a kernel whose arrays are distinct: the
  kernel names no semaphore of its own, keeps nothing between grid points beyond the scoped buffers the pipeline does
  not stage, and @main reaches the region holding the unscoped buffers at contents `V`.

  The statement: from the body obligation at every point, and from HOW the distinct buffers behind the arrays,
  each whole at the full share, are dealt among the windows (`hsplit`), every weakly fair execution terminates
  with each window's array at the contents the proof data computes (`Dat.arrAt … N`) and every unscoped buffer that is
  no window's array as the region found it.
-/
import Idealize.ShloMosaic.Lib.Pipeline.Frame

noncomputable section

namespace Idealize.ShloMosaic.Pipeline.SharedFrame

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run, the arrays' full shares dealt among the windows by `hsplit`. The invariant between points is
    the scoped buffers the pipeline does not stage, at any contents (`hΦ`); the generator register is let go. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  refine θ_run_region_noSem_shared cfgs dats () hinj p hw emb₁ defs₀ 𝒱₀ m g main hbody hne harr hstage howed
    (initOf (cells cfgs hinj) (launchToks cfgs hinj)) .rfl V hmain hsplit
    (fun _ => (BI.emp : sProp 𝕄)) (fun _ => (BI.emp : sProp 𝕄))
    (fun c => unscopedRest (Ix := Unit) (Name := ℕ) (U := UR sig nD τ) (Lvl := ℕ) (cfgs p).spec c (V c))
    (fun c => by iintro H; isplitr; · iempintro
                 iexact H)
    (fun c => by rw [hΦ]; iintro ⟨-, H⟩; iexact H)
    (fun c => by rw [hΦ]; iintro H; isplitr; · iempintro
                 iexact H)
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h c => ⟨(h c).1, (h c).2⟩)

/-- The pipeline's `arrays` are whole-buffer points-tos, each at its window's own share, when every window's array
    is a whole buffer: the library's `arrays_eq` without the hypothesis that every share is the full one. -/
theorem arrays_eq_shares {cfg : Cfg sig Λ₀} {c : Dev nD} (dat : Dat τ Val Unit ℕ (UR sig nD τ) ℕ cfg c)
    (harr : ∀ w, (cfg.spec w).arr.IsWhole)
    (F : (w : Fin cfg.W) → Buf Val ((cfg.win w).arr.view.loc (c.tc : Thread nD τ))) :
    dat.arrays F = bigSep Finset.univ fun w => (((c.tc : Thread nD τ).loc (arrRef cfg.spec w)) ↦{dat.share w} F w : sProp 𝕄) := by
  unfold Dat.arrays
  exact Idealize.SL.BI.bigSep_congr fun w _ => by rw [(harr w).set_eq_univ]

end Idealize.ShloMosaic.Pipeline.SharedFrame

end
-- ==== Proof.Asm.lean ====
/-
  The run of the two-pass layer as a chain of segments: the degree pass (region 0), the two host lines that lay
  the weights out (the transpose of W and the bias as a row), and the aggregation pass (region 1). Each pass is
  given by its proof data: what every window's buffer holds after each grid point, and the accumulator the pass
  carries from point to point.
-/
import proofs.«175491_j9534827397796_2_alg».proof.Proof.Gen.KernelIdeal.Launch
import proofs.«175491_j9534827397796_2_alg».proof.Proof.Gen.KernelIdeal.Skeleton
import proofs.«175491_j9534827397796_2_alg».proof.Proof.Gen.KernelIdeal.Points
import proofs.«175491_j9534827397796_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic
import proofs.«175491_j9534827397796_2_alg».proof.Proof.LibFrameShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the assembly asks of the degree pass at entry contents `V`. -/
structure Pass0 (V : (c : Dev nD) → (b : Ref sig .tc) → Buf (Elt F) ((c : Thread nD τ).loc b)) where
  dat : (c : Dev nD) → Dat τ (Elt F) Unit ℕ (UR sig nD τ) ℕ cfg0 c
  A_eq : ∀ c w, (dat c).A w = V c (Pipeline.arrRef spec0 w)
  body : ∀ c, BodyObligation (dat c) (defs₀ (F := F)) Variants.none () Set.univ
  hin : ∀ c, (Pipeline.ΦA spec0 c : sProp 𝕄) ⊢ (dat c).Φ 0
  hout : ∀ c, (dat c).Φ (Fin.last cfg0.N) ⊢ (Pipeline.ΦA spec0 c : sProp 𝕄)
  owed : ∀ c t, (dat c).owed t = 0
  share : ∀ c w, (dat c).share w = fullShare
  rec_univ : ∀ c t, (dat c).recorded t = Set.univ

/-- What the assembly asks of the aggregation pass at entry contents `V`: as for the degree pass, except that the
    node features and the degree vector each come in through two windows, so each of those four windows holds its
    array at one of the two halves `qL`, `qR` of the full share. -/
structure Pass1 (qL qR : PosShare TreeShare) (V : (c : Dev nD) → (b : Ref sig .tc) → Buf (Elt F) ((c : Thread nD τ).loc b)) where
  dat : (c : Dev nD) → Dat τ (Elt F) Unit ℕ (UR sig nD τ) ℕ cfg1 c
  A_eq : ∀ c w, (dat c).A w = V c (Pipeline.arrRef spec1 w)
  body : ∀ c, BodyObligation (dat c) (defs₀ (F := F)) Variants.none () Set.univ
  hin : ∀ c, (Pipeline.ΦA spec1 c : sProp 𝕄) ⊢ (dat c).Φ 0
  hout : ∀ c, (dat c).Φ (Fin.last cfg1.N) ⊢ (Pipeline.ΦA spec1 c : sProp 𝕄)
  owed : ∀ c t, (dat c).owed t = 0
  q0 : ∀ c, (dat c).q 0 = fullShare
  q1 : ∀ c, (dat c).q 1 = qL
  q2 : ∀ c, (dat c).q 2 = qR
  q3 : ∀ c, (dat c).q 3 = qL
  q4 : ∀ c, (dat c).q 4 = qR
  q5 : ∀ c, (dat c).q 5 = fullShare
  q6 : ∀ c, (dat c).q 6 = fullShare
  rec_univ : ∀ c t, (dat c).recorded t = Set.univ

variable (m : (ℓ : Loc nD τ sig) → Buf (Elt F) ℓ) (ρ : Dev nD → PrngReg)

/-! ## The buffers' contents at each boundary between segments -/

/-- Core `c`'s buffers at launch (the degree pass's entry). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

section Run

variable (P0 : Pass0 (F := F) (V0 m ρ))

/-- After the degree pass: its arrays at what its write-backs leave, every other buffer as launched. -/
def W1 (c : Dev nD) : Valuation τ sig (Elt F) :=
  Pipeline.withArrays spec0 c (W0 m ρ c) fun w => (P0.dat c).arrAt w cfg0.N
theorem W1_arr (c : Dev nD) (w : Fin cfg0.W) :
    W1 m ρ P0 c (Proc.devRef .tc (Pipeline.arrRef spec0 w)) = (P0.dat c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ P0 c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ P0 c b
theorem hF0 (c : Dev nD) (w : Fin cfg0.W) : (P0.dat c).arrAt w cfg0.N = V1 m ρ P0 c (Pipeline.arrRef spec0 w) :=
  (W1_arr m ρ P0 c w).symm
theorem hrest0 (c : Dev nD) : ∀ b, b ∉ Finset.univ.image (Pipeline.arrRef spec0) → V1 m ρ P0 c b = V0 m ρ c b :=
  fun b hb => W1_of_ne m ρ P0 c b fun w e => hb (Finset.mem_image.mpr ⟨w, Finset.mem_univ _, e⟩)

/-- After the two host lines (the aggregation pass's entry). -/
abbrev W2 : Dev nD → Valuation τ sig (Elt F) := fun c => StableHlo.after hostOps1 (W1 m ρ P0 c)
abbrev V2 : (c : Dev nD) → (b : Ref sig .tc) → Buf (Elt F) ((c : Thread nD τ).loc b) := fun c b => W2 m ρ P0 c b

end Run

section Run2

variable (qL qR : PosShare TreeShare) (P0 : Pass0 (F := F) (V0 m ρ)) (P1 : Pass1 (F := F) qL qR (V2 m ρ P0))

/-- After the aggregation pass: the result array at what its write-backs leave, every other buffer as it was. -/
def W3 (c : Dev nD) : Valuation τ sig (Elt F) :=
  Function.update (W2 m ρ P0 c) (Proc.devRef .tc main_v3) ((P1.dat c).arrAt 7 cfg1.N)
abbrev V3 : (c : Dev nD) → (b : Ref sig .tc) → Buf (Elt F) ((c : Thread nD τ).loc b) := fun c b => W3 m ρ qL qR P0 P1 c b

/-- The prefetched tables' admissible contents: neither pass has a table. -/
abbrev adm : (p : Fin 2) → (pcfgs (F := F) p).Adm := fun p => (cfgs p).toPCfg_adm
/-- Both passes' proof data, each at its entry contents. -/
def pdats : (p : Fin 2) → (c : Dev nD) → Dat τ (Elt F) Unit ℕ (UR sig nD τ) ℕ (Pipeline.pin (pcfgs (F := F)) adm p) c
  | ⟨0, _⟩ => fun c => P0.dat c
  | ⟨1, _⟩ => fun c => P1.dat c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

/-- The two host lines as a segment. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m ρ P0) R

set_option backward.isDefEq.respectTransparency.types false in
/-- The degree pass over the thread state: entered with every unscoped buffer as launched, left with the degree
    vector's buffer at what the pass wrote. -/
def reg0 : Pipeline.RegionSeg (pcfgs (F := F)) adm (pdats m ρ qL qR P0 P1) () defs₀ 𝒱₀ L lv 0 where
  win := launch0.win.to₀
  block_pos := launch0.block_pos
  stage_whole := launch0.stage_whole
  K := PEmpty
  osem k := k.elim
  ho := Pipeline.OwnSemFacts.none _
  hbody c := (P0.body c).loose
  hwaits := Pipeline.hwaits_of_owed_zero _ _ _ _ L lv 0 fun c t => P0.owed c t
  pre c := iprop(StableHlo.held (c : Thread nD τ) (Pipeline.ucRefs τ sig) (W0 m ρ c) ∗ R c)
  post c := iprop(StableHlo.held (c : Thread nD τ) (Pipeline.ucRefs τ sig) (W1 m ρ P0 c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ qL qR P0 P1) launch0.win launch0.arr_whole c
      (P0.share c) (V0 m ρ c) (P0.A_eq c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ qL qR P0 P1 0 c).owed 0 = 0 from P0.owed c 0]
      icases HO with ⟨%W, HO⟩; iexists W; isplitr; · ipureintro; exact fun _ _ => Or.inl (by rw [show (pdats m ρ qL qR P0 P1 0 c).recorded 0 = Set.univ from P0.rec_univ c 0]; trivial)
      iexact HO
    isplitl [Hp]; · iexact Hp
    iexact Hrest
  hin c := by
    rw [show (pdats m ρ qL qR P0 P1 0 c).Φ 0 = (P0.dat c).Φ 0 from rfl]
    refine BIBase.Entails.trans ?_ (P0.hin c)
    unfold Pipeline.ΦA
    iintro ⟨Hp, -, Hr⟩
    isplitl [Hr]; · iexact Hr
    iexact Hp
  hout c := by
    rw [Pipeline.ownSems0_none]
    rw [show (pdats m ρ qL qR P0 P1 0 c).Φ (Fin.last _) = (P0.dat c).Φ (Fin.last cfg0.N) from rfl]
    refine (P0.hout c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ qL qR P0 P1) (P0.share c)
      (V0 m ρ c) (V1 m ρ P0 c) ((pdats m ρ qL qR P0 P1 0 c).arrAt · cfg0.N) (hF0 m ρ P0 c) (hrest0 m ρ P0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ qL qR P0 P1 0 c).owed (Fin.last _) = 0 from P0.owed c _]
    icases HO with ⟨%W, -, HO⟩; iexists W; iexact HO

end Run2

section Run3

variable (qL qR : PosShare TreeShare) (hq : fullShare ∈ PCS.op qL qR)
  (P0 : Pass0 (F := F) (V0 m ρ)) (P1 : Pass1 (F := F) qL qR (V2 m ρ P0))

/-! ## The aggregation pass's arrays: the node features and the degree vector held twice, at half shares -/

theorem share1_0 (c : Dev nD) : (P1.dat c).share 0 = fullShare := by unfold Dat.share; rw [if_neg (by decide)]; exact P1.q0 c
theorem share1_1 (c : Dev nD) : (P1.dat c).share 1 = qL := by unfold Dat.share; rw [if_neg (by decide)]; exact P1.q1 c
theorem share1_2 (c : Dev nD) : (P1.dat c).share 2 = qR := by unfold Dat.share; rw [if_neg (by decide)]; exact P1.q2 c
theorem share1_3 (c : Dev nD) : (P1.dat c).share 3 = qL := by unfold Dat.share; rw [if_neg (by decide)]; exact P1.q3 c
theorem share1_4 (c : Dev nD) : (P1.dat c).share 4 = qR := by unfold Dat.share; rw [if_neg (by decide)]; exact P1.q4 c
theorem share1_5 (c : Dev nD) : (P1.dat c).share 5 = fullShare := by unfold Dat.share; rw [if_neg (by decide)]; exact P1.q5 c
theorem share1_6 (c : Dev nD) : (P1.dat c).share 6 = fullShare := by unfold Dat.share; rw [if_neg (by decide)]; exact P1.q6 c
theorem share1_7 (c : Dev nD) : (P1.dat c).share 7 = fullShare := by unfold Dat.share; rw [if_pos (by decide)]

include hq in
/-- ENTRY. The unscoped buffers at the pass's entry contents are its eight windows' arrays — the two arrays that come
    in through two windows each split into their halves — and the two buffers no window stages. -/
theorem entry1 (c : Dev nD) :
    (StableHlo.held (c : Thread nD τ) (Pipeline.ucRefs τ sig) (W2 m ρ P0 c) : sProp 𝕄)
      ⊢ iprop((P1.dat c).arrays ((P1.dat c).arrAt · 0)
          ∗ Pipeline.unscopedRest (Ix := Unit) (Name := ℕ) (U := UR sig nD τ) (Lvl := ℕ) spec1 c (V2 m ρ P0 c)) := by
  rw [← Pipeline.unscopedBufs_held (Ix := Unit) (Name := ℕ) (U := UR sig nD τ) (Lvl := ℕ) c (W2 m ρ P0 c)]
  rw [Pipeline.unscopedBufs_split₀ cfgs 1 winFacts₀1.arr_unscoped c (V2 m ρ P0 c)]
  refine sep_mono ?_ .rfl
  rw [Pipeline.SharedFrame.arrays_eq_shares (P1.dat c) arr_whole1, bigSep_W1]
  unfold Pipeline.arrBufs
  rw [bigSep_eq_bigSepL_of_eq [main_arg1, main_arg0, main_v0, main_v1, main_v2, main_v3] (by decide) (by decide)]
  rw [share1_0, share1_1, share1_2, share1_3, share1_4, share1_5, share1_6, share1_7]
  simp only [show ∀ w, (P1.dat c).arrAt w 0 = (P1.dat c).A w from fun _ => rfl, P1.A_eq, bigSepL_cons_cons, bigSepL_singleton]
  show iprop(_ ∗ _ ∗ _ ∗ _ ∗ _ ∗ _) ⊢ _
  iintro ⟨H1, H0, Hv0, Hv1, Hv2, Hv3⟩
  ihave H0' := (pointsTo_share hq).1 $$ H0
  icases H0' with ⟨H0l, H0r⟩
  ihave Hv0' := (pointsTo_share hq).1 $$ Hv0
  icases Hv0' with ⟨Hv0l, Hv0r⟩
  isplitl [H1]; · iexact H1
  isplitl [H0l]; · iexact H0l
  isplitl [H0r]; · iexact H0r
  isplitl [Hv0l]; · iexact Hv0l
  isplitl [Hv0r]; · iexact Hv0r
  isplitl [Hv1]; · iexact Hv1
  isplitl [Hv2]; · iexact Hv2
  iexact Hv3

end Run3

section Run4

variable (qL qR : PosShare TreeShare) (hq : fullShare ∈ PCS.op qL qR)
  (P0 : Pass0 (F := F) (V0 m ρ)) (P1 : Pass1 (F := F) qL qR (V2 m ρ P0))

theorem V3_of_ne (c : Dev nD) (b : Ref sig .tc) (h : b ≠ main_v3) : V3 m ρ qL qR P0 P1 c b = V2 m ρ P0 c b := by
  simp only [V3, W3, Function.update_of_ne (StableHlo.devRef_ne_of_ne h : (Proc.devRef .tc b : DevRef τ sig) ≠ Proc.devRef .tc main_v3)]
theorem V3_out (c : Dev nD) : V3 m ρ qL qR P0 P1 c main_v3 = (P1.dat c).arrAt 7 cfg1.N := by
  simp only [V3, W3, Function.update_self]

set_option maxHeartbeats 4000000 in
include hq in
/-- EXIT. The eight windows' arrays as the pass leaves them — the inputs as they came, the halves joined again, the
    result array at what the write-backs left — and the two buffers no window stages are the unscoped buffers at the
    exit contents. -/
theorem exit1 (c : Dev nD) :
    iprop((P1.dat c).arrays ((P1.dat c).arrAt · cfg1.N)
        ∗ Pipeline.unscopedRest (Ix := Unit) (Name := ℕ) (U := UR sig nD τ) (Lvl := ℕ) spec1 c (V2 m ρ P0 c))
      ⊢ (StableHlo.held (c : Thread nD τ) (Pipeline.ucRefs τ sig) (W3 m ρ qL qR P0 P1 c) : sProp 𝕄) := by
  rw [← Pipeline.unscopedBufs_held (Ix := Unit) (Name := ℕ) (U := UR sig nD τ) (Lvl := ℕ) c (W3 m ρ qL qR P0 P1 c)]
  rw [Pipeline.unscopedBufs_split₀ cfgs 1 winFacts₀1.arr_unscoped c (V3 m ρ qL qR P0 P1 c)]
  refine sep_mono ?_ (Entails.of_eq ?_)
  · rw [Pipeline.SharedFrame.arrays_eq_shares (P1.dat c) arr_whole1, bigSep_W1]
    unfold Pipeline.arrBufs
    rw [bigSep_eq_bigSepL_of_eq [main_arg1, main_arg0, main_v0, main_v1, main_v2, main_v3] (by decide) (by decide)]
    rw [share1_0, share1_1, share1_2, share1_3, share1_4, share1_5, share1_6, share1_7]
    rw [(P1.dat c).arrAt_in 0 rfl _, (P1.dat c).arrAt_in 1 rfl _, (P1.dat c).arrAt_in 2 rfl _, (P1.dat c).arrAt_in 3 rfl _,
      (P1.dat c).arrAt_in 4 rfl _, (P1.dat c).arrAt_in 5 rfl _, (P1.dat c).arrAt_in 6 rfl _]
    simp only [P1.A_eq, bigSepL_cons_cons, bigSepL_singleton]
    rw [V3_of_ne m ρ qL qR P0 P1 c main_arg1 (by decide), V3_of_ne m ρ qL qR P0 P1 c main_arg0 (by decide),
      V3_of_ne m ρ qL qR P0 P1 c main_v0 (by decide), V3_of_ne m ρ qL qR P0 P1 c main_v1 (by decide),
      V3_of_ne m ρ qL qR P0 P1 c main_v2 (by decide), V3_out m ρ qL qR P0 P1 c]
    show _ ⊢ iprop(_ ∗ _ ∗ _ ∗ _ ∗ _ ∗ _)
    iintro ⟨H1, H0l, H0r, Hv0l, Hv0r, Hv1, Hv2, Hv3⟩
    isplitl [H1]; · iexact H1
    isplitl [H0l H0r]
    · iapply (pointsTo_share hq).2; isplitl [H0l] <;> iassumption
    isplitl [Hv0l Hv0r]
    · iapply (pointsTo_share hq).2; isplitl [Hv0l] <;> iassumption
    isplitl [Hv1]; · iexact Hv1
    isplitl [Hv2]; · iexact Hv2
    iexact Hv3
  · unfold Pipeline.unscopedRest
    exact bigSep_congr fun b hb => by
      rw [V3_of_ne m ρ qL qR P0 P1 c b (fun e => (Finset.mem_sdiff.mp hb).2 (Finset.mem_image.mpr ⟨7, Finset.mem_univ _, e ▸ rfl⟩))]

end Run4

section Run5

variable (qL qR : PosShare TreeShare) (hq : fullShare ∈ PCS.op qL qR)
  (P0 : Pass0 (F := F) (V0 m ρ)) (P1 : Pass1 (F := F) qL qR (V2 m ρ P0))

/-- The last thread state without the `owes`: every unscoped buffer at the exit contents, the generator register at
    some state. -/
abbrev Tₙ (c : Dev nD) : sProp 𝕄 :=
  iprop(StableHlo.held (c : Thread nD τ) (Pipeline.ucRefs τ sig) (W3 m ρ qL qR P0 P1 c) ∗ ∃ r, prngReg c r)

include hq in
set_option backward.isDefEq.respectTransparency.types false in
/-- The aggregation pass over the thread state: entered with the degree vector, the transposed weights and the bias
    row in place, left with the result array at what the pass wrote. -/
def reg1 : Pipeline.RegionSeg (pcfgs (F := F)) adm (pdats m ρ qL qR P0 P1) () defs₀ 𝒱₀ L lv 1 where
  win := winFacts₀1
  block_pos := block_pos1
  stage_whole := stage_whole1
  K := PEmpty
  osem k := k.elim
  ho := Pipeline.OwnSemFacts.none _
  hbody c := (P1.body c).loose
  hwaits := Pipeline.hwaits_of_owed_zero _ _ _ _ L lv 1 fun c t => P1.owed c t
  pre c := iprop(StableHlo.held (c : Thread nD τ) (Pipeline.ucRefs τ sig) (W2 m ρ P0 c) ∗ R c)
  post c := iprop(Tₙ m ρ qL qR P0 P1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ P0 c)
  hentry c := by
    rw [Pipeline.ownSems0_none]
    iintro ⟨⟨Hub, Hp, HO⟩, -, -⟩
    ihave H := (entry1 m ρ qL qR hq P0 P1 c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ qL qR P0 P1 1 c).owed 0 = 0 from P1.owed c 0]
      icases HO with ⟨%W, HO⟩; iexists W; isplitr; · ipureintro; exact fun _ _ => Or.inl (by rw [show (pdats m ρ qL qR P0 P1 1 c).recorded 0 = Set.univ from P1.rec_univ c 0]; trivial)
      iexact HO
    isplitl [Hp]; · iexact Hp
    iexact Hrest
  hin c := by
    rw [show (pdats m ρ qL qR P0 P1 1 c).Φ 0 = (P1.dat c).Φ 0 from rfl]
    refine BIBase.Entails.trans ?_ (P1.hin c)
    unfold Pipeline.ΦA
    iintro ⟨Hp, -, Hr⟩
    isplitl [Hr]; · iexact Hr
    iexact Hp
  hout c := by
    rw [Pipeline.ownSems0_none]
    rw [show (pdats m ρ qL qR P0 P1 1 c).Φ (Fin.last _) = (P1.dat c).Φ (Fin.last cfg1.N) from rfl]
    refine (P1.hout c).trans ?_
    unfold Pipeline.ΦA
    iintro ⟨Hr, Hp⟩
    isplitl [Hp]; · iexact Hp
    isplitr; · iempintro
    iexact Hr
  hexit c := by
    have hjoin : iprop((pdats m ρ qL qR P0 P1 1 c).arrays ((pdats m ρ qL qR P0 P1 1 c).arrAt · cfg1.N)
          ∗ Pipeline.unscopedRest (Ix := Unit) (Name := ℕ) (U := UR sig nD τ) (Lvl := ℕ) spec1 c (V2 m ρ P0 c))
        ⊢ (StableHlo.held (c : Thread nD τ) (Pipeline.ucRefs τ sig) (W3 m ρ qL qR P0 P1 c) : sProp 𝕄) := exit1 m ρ qL qR hq P0 P1 c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ qL qR P0 P1 1 c).owed (Fin.last _) = 0 from P1.owed c _]
    icases HO with ⟨%W, -, HO⟩; iexists W; iexact HO

/-- @main's three segments in order. -/
abbrev segs : List (Pipeline.Seg (pcfgs (F := F)) adm (pdats m ρ qL qR P0 P1) () defs₀ 𝒱₀ L lv) :=
  [ .region (reg0 m ρ qL qR P0 P1),
    .host (hseg1 m ρ P0),
    .region (reg1 m ρ qL qR hq P0 P1) ]

theorem main_run (c : Dev nD) : main (F := F) c = Pipeline.Seg.run (segs m ρ qL qR hq P0 P1) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include hq in
set_option backward.isDefEq.respectTransparency.types false in
/-- THE RUN. From any memory with zero counters every weakly fair execution of @main terminates, nothing faulting,
    and every final state holds every unscoped buffer at the exit contents `W3`: the arguments as launched, the
    degree vector and the result array at what the two passes wrote. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ qL qR P0 P1 c b) :=
  Pipeline.θ_run_regions_kit (pcfgs (F := F)) adm (pdats m ρ qL qR P0 P1) () cellOf_inj emb₁ defs₀ 𝒱₀ L lv m ρ main (segs m ρ qL qR hq P0 P1)
    (fun c Q => by rw [main_run m ρ qL qR hq P0 P1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ qL qR P0 P1)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ qL qR P0 P1 c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ qL qR P0 P1 c) s')
      isplitl [Hh] <;> iassumption)
    (hQ := fun s h => h)

end Run5

end Cert.KernelIdeal.Hand

end
-- ==== Proof.R0Runs.lean ====
/-
  The degree kernel (the first of the two pallas_calls), on its grid of 8 row blocks by 2 column blocks.
  A point is FIRST in its row block when its position is even (column block 0) and LAST when it is odd
  (column block 1); there is no other kind of point.  At a first point the scratch column is zeroed and then
  receives the row sums of the point's 1024 x 4096 block of the matrix; the output column is not touched and
  the pipeline does not write it back.  At a last point the scratch column, found as the first point of the
  same row block left it, receives the row sums of the second block added to it, and the output column is
  stored as rsqrt (scratch + 2).  This module holds the two conditions in closed form, the idle and
  write-back facts of the output window, and the body's triple in each of the two cases.
-/
import proofs.«175491_j9534827397796_2_alg».proof.Proof.Gen.KernelIdeal.Skeleton
import proofs.«175491_j9534827397796_2_alg».proof.Proof.Gen.KernelIdeal.Launch
import proofs.«175491_j9534827397796_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the contents of every buffer of the core when the region is entered: a parameter of everything below
variable (V : (c : Dev nD) → (b : Ref sig .tc) → Buf (Elt F) ((c : Thread nD τ).loc b))

/-! ## The blocks of the matrix -/

/-- Window `w`'s block at point `t`, cut out of its array as the region finds it. For window 0 this is the
    1024 x 4096 block of the matrix at row block `t / 2`, column block `t % 2`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The matrix window is fetched at every point and the body never stores into it, so at every point its
    current staging buffer holds the point's block, for any proof data whose array is the entry contents and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The two conditions of the body -/

/-- "This is the first column block": the condition under which the scratch column is zeroed. -/
abbrev cond0_0 (i : grid0.Coords) : Prop := (Scalar.cmpi .ne (Scalar.extui (Scalar.cmpi .eq (BitVec.ofNat 32 (i 1).val) 0#32)) 0#32) = 1#1
/-- It holds exactly at the even positions. -/
theorem hcond0_0 : ∀ t : Fin cfg0.N, cond0_0 (grid0.coords t) ↔ t.val % 2 = 0 :=
  (by decide +kernel : ∀ t : Fin grid0.N, cond0_0 (grid0.coords t) ↔ t.val % 2 = 0)

/-- "This is the last column block": the condition under which the output column is stored. -/
abbrev cond0_1 (i : grid0.Coords) : Prop := k0_cond2 i = 1#1
/-- It holds exactly at the odd positions. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the output window is idle, and where it is written back -/

/-- The matrix window is never idle. -/
theorem liveAt0_0 : ∀ t : Fin cfg0.N, cfg0.idle 0 (grid0.coords t) = false := by decide +kernel
/-- At a first point nothing is stored into the output column: the window is idle there, -/
theorem idleAt0_1_first : ∀ t : Fin cfg0.N, cond0_0 (grid0.coords t) → ¬cond0_1 (grid0.coords t) → cfg0.idle 1 (grid0.coords t) = true := by decide +kernel
/-- and its block is not written back there (the next point has the same row block). -/
theorem noFlush0_1_first : ∀ t : Fin cfg0.N, cond0_0 (grid0.coords t) → ¬cond0_1 (grid0.coords t) → (cfg0.win 1).flush t = false := by decide +kernel
/-- At a last point the output column is stored: the window is live. -/
theorem liveAt0_1_last : ∀ t : Fin cfg0.N, ¬cond0_0 (grid0.coords t) → cond0_1 (grid0.coords t) → cfg0.idle 1 (grid0.coords t) = false := by decide +kernel

/-! ## The memrefs the body is called with -/

/-- One staging buffer of the output window, through which its contents are stated. -/
abbrev VO0_1 : View sig .tc .vmem S1024x1 .f32 := (Memref.whole cc0_stg1_0 : Memref sig .tc .vmem S1024x1 .f32).view
/-- Each window's current staging memref at point `t`, as the pipeline passes it, and its wholeness. -/
abbrev ms0_0 (t : Fin cfg0.N) : Memref sig .tc .vmem S1024x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
/-- The scratch column: a whole scoped buffer of the kernel's own. -/
abbrev scM0_0 : Memref sig .tc .vmem S1024x1 .f32 := Memref.whole cc0_scratch0
/-- The same as a view: what the scratch holds is stated through it. -/
abbrev VS0_0 : View sig .tc .vmem S1024x1 .f32 := scM0_0.view

/-- The scoped buffers of the core that this kernel never touches (the other kernel's staging buffers and
    scratch), each at some contents: carried through every point unopened. -/
def rest0 (c : Dev nD) : sProp 𝕄 :=
  Pipeline.scopedRestBut (Ix := Unit) (Name := ℕ) (U := UR sig nD τ) (Lvl := ℕ) (Val := Elt F) spec0 c [cc0_scratch0]

/-- The invariant the launch hands the region: the scratch column at some contents, the untouched scoped
    buffers, and the generator register at some state. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0
  rw [Pipeline.scopedRest_split_of_list spec0 c [cc0_scratch0] (by decide) (by decide)]
  simp only [scM0_0, owns_whole]; try rfl

/-! ## The body's triple, case by case -/

set_option maxHeartbeats 1000000 in
/-- A FIRST point (the zeroing taken, the output store not taken).  On whole memrefs — the matrix block's
    at `x0`, the output column's at any `xi1`, the scratch column's at anything — the body runs to the
    continuation holding the matrix block as it was, the output column untouched at `xi1`, and the scratch
    column with the found pieces `LS0` written: first zeros, then the zeros read back plus the row sums of
    `x0`.  The output gets no piece. -/
noncomputable def kernelRun0_first (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x4096 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- A LAST point (the zeroing not taken, the output store taken).  On whole memrefs — the matrix block's at
    `x0`, the output column's at anything, the scratch column's at `xs0`, what the first point of the row
    block left — the body runs to the continuation holding the matrix block as it was, the scratch column
    with the pieces `LS0` written (`xs0` plus the row sums of `x0`) and the output column with the pieces
    `L1` written (rsqrt of that scratch plus 2). -/
noncomputable def kernelRun0_last (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x4096 .f32) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.R0Frame.lean ====
/-
  The degree kernel's region, point by point.  What the scratch column and the output column hold after each
  point is defined by recursion on the position: a first point (even position) restarts the row sums from
  zero, a last point (odd position) adds the second block's row sums to what the first point left and stores
  rsqrt (row sum + 2) into the output column.  From this the proof data of the pipeline, the body obligation
  at every point, and the two entailments between the launch's invariant and the region's.
-/
import proofs.«175491_j9534827397796_2_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back from the pieces the run found -/

/-- A first point stores nothing into the output column (the window is idle there and not written back):
    a placeholder nothing consults. -/
def out0_first_1 (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x4096 .f32) : Vec F S1024x1 .f32 :=
  VO0_1.read (Elt F) (VO0_1.writes (Elt F) VO0_1.junk (kernelRun0_first c i arg2 harg2 arg3 harg3 arg4 harg4 hc0 hc1 x0).1)

/-- The pieces a first point writes into the scratch column cover it. -/
theorem scover0_first_0 (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x4096 .f32) (y : S1024x1.Idx) :
    ∃ pc ∈ (kernelRun0_first c i arg2 harg2 arg3 harg3 arg4 harg4 hc0 hc1 x0).2.1, y ∈ pc.1.set :=
  View.cover_of_tiledL (kernelRun0_first c i arg2 harg2 arg3 harg3 arg4 harg4 hc0 hc1 x0).2.1 S1024x1.size (by sl_kernel_rfl) y

/-- What a first point leaves in the scratch column. -/
def sout0_first_0 (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x4096 .f32) : Vec F S1024x1 .f32 :=
  VS0_0.read (Elt F) (VS0_0.writes (Elt F) VS0_0.junk (kernelRun0_first c i arg2 harg2 arg3 harg3 arg4 harg4 hc0 hc1 x0).2.1)

/-- The one store of a last point into the output column covers it. -/
theorem cover0_last_1 (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x4096 .f32) (xs0 : Vec F S1024x1 .f32) (y : S1024x1.Idx) :
    ∃ pc ∈ (kernelRun0_last c i arg2 harg2 arg3 harg3 arg4 harg4 hc0 hc1 x0 xs0).1, y ∈ pc.1.set :=
  View.cover_of_tiledL (kernelRun0_last c i arg2 harg2 arg3 harg3 arg4 harg4 hc0 hc1 x0 xs0).1 S1024x1.size (by sl_kernel_rfl) y

/-- What a last point leaves in the output column's staging buffer. -/
def out0_last_1 (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x4096 .f32) (xs0 : Vec F S1024x1 .f32) : Vec F S1024x1 .f32 :=
  VO0_1.read (Elt F) (VO0_1.writes (Elt F) VO0_1.junk (kernelRun0_last c i arg2 harg2 arg3 harg3 arg4 harg4 hc0 hc1 x0 xs0).1)

/-- The one store of a last point into the scratch column covers it. -/
theorem scover0_last_0 (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x4096 .f32) (xs0 : Vec F S1024x1 .f32) (y : S1024x1.Idx) :
    ∃ pc ∈ (kernelRun0_last c i arg2 harg2 arg3 harg3 arg4 harg4 hc0 hc1 x0 xs0).2.1, y ∈ pc.1.set :=
  View.cover_of_tiledL (kernelRun0_last c i arg2 harg2 arg3 harg3 arg4 harg4 hc0 hc1 x0 xs0).2.1 S1024x1.size (by sl_kernel_rfl) y

/-- What a last point leaves in the scratch column. -/
def sout0_last_0 (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x4096 .f32) (xs0 : Vec F S1024x1 .f32) : Vec F S1024x1 .f32 :=
  VS0_0.read (Elt F) (VS0_0.writes (Elt F) VS0_0.junk (kernelRun0_last c i arg2 harg2 arg3 harg3 arg4 harg4 hc0 hc1 x0 xs0).2.1)

/-! ## The two kinds of point exclude each other -/

theorem notLast_of_even (t : Fin cfg0.N) (h0 : t.val % 2 = 0) : ¬cond0_1 (grid0.coords t) :=
  fun h => by have h1 := (hcond0_1 t).mp h; omega
theorem notFirst_of_odd (t : Fin cfg0.N) (h1 : t.val % 2 = 1) : ¬cond0_0 (grid0.coords t) :=
  fun h => by have h0 := (hcond0_0 t).mp h; omega

section Region0

variable (V : (c : Dev nD) → (b : Ref sig .tc) → Buf (Elt F) ((c : Thread nD τ).loc b))

/-! ## What the two columns hold after each point -/

/-- The output column and the scratch column after a first point `t`: the scratch restarted from zero on the
    point's block of the matrix. -/
def firstAt0 (c : Dev nD) (t : Fin cfg0.N) (h0 : t.val % 2 = 0) : Vec F S1024x1 .f32 × Vec F S1024x1 .f32 :=
  (out0_first_1 c (grid0.coords t) (ms0_0 t) (hs0_0 t) (ms0_1 t) (hs0_1 t) scM0_0 (Memref.isWhole_whole _) ((hcond0_0 t).mpr h0) (notLast_of_even t h0) (iblk0 V c 0 t),
   sout0_first_0 c (grid0.coords t) (ms0_0 t) (hs0_0 t) (ms0_1 t) (hs0_1 t) scM0_0 (Memref.isWhole_whole _) ((hcond0_0 t).mpr h0) (notLast_of_even t h0) (iblk0 V c 0 t))

/-- The output column and the scratch column after a last point `t` that found `xs0` in the scratch. -/
def lastAt0 (c : Dev nD) (t : Fin cfg0.N) (h1 : t.val % 2 = 1) (xs0 : Vec F S1024x1 .f32) : Vec F S1024x1 .f32 × Vec F S1024x1 .f32 :=
  (out0_last_1 c (grid0.coords t) (ms0_0 t) (hs0_0 t) (ms0_1 t) (hs0_1 t) scM0_0 (Memref.isWhole_whole _) (notFirst_of_odd t h1) ((hcond0_1 t).mpr h1) (iblk0 V c 0 t) xs0,
   sout0_last_0 c (grid0.coords t) (ms0_0 t) (hs0_0 t) (ms0_1 t) (hs0_1 t) scM0_0 (Memref.isWhole_whole _) (notFirst_of_odd t h1) ((hcond0_1 t).mpr h1) (iblk0 V c 0 t) xs0)

/-- THE ACCUMULATION: the output column's staging buffer and the scratch column after the body at position
    `n`.  An even position is a first point; an odd one is a last point and reads the scratch as the position
    before left it. -/
def outsAt0 (c : Dev nD) : (n : ℕ) → n < cfg0.N → Vec F S1024x1 .f32 × Vec F S1024x1 .f32
  | 0, hn => firstAt0 V c ⟨0, hn⟩ (Nat.zero_mod _)
  | n + 1, hn =>
    if h0 : (n + 1) % 2 = 0 then firstAt0 V c ⟨n + 1, hn⟩ h0
    else lastAt0 V c ⟨n + 1, hn⟩ (by show (n + 1) % 2 = 1; omega) (outsAt0 c n (Nat.lt_of_succ_lt hn)).2

/-- At a first point: the restart. -/
theorem outsAt0_first (c : Dev nD) (t : Fin cfg0.N) (h0 : t.val % 2 = 0) :
    outsAt0 V c t.val t.isLt = firstAt0 V c t h0 := by
  obtain ⟨n, hn⟩ := t
  cases n with
  | zero => rfl
  | succ n => exact dif_pos h0

/-- At a last point: one more block on top of what the point before left. -/
theorem outsAt0_last (c : Dev nD) (t : Fin cfg0.N) (h1 : t.val % 2 = 1) :
    outsAt0 V c t.val t.isLt = lastAt0 V c t h1 (outsAt0 V c (t.val - 1) (Nat.lt_of_le_of_lt (Nat.sub_le _ _) t.isLt)).2 := by
  obtain ⟨n, hn⟩ := t
  cases n with
  | zero => exact absurd (show 0 % 2 = 1 from h1) (by decide)
  | succ n => exact dif_neg (by dsimp only at h1; omega)

/-! ## The region's invariant -/

/-- Before position `n`: at the very start what the launch hands over; afterwards the scratch column at what
    the position before left in it, the untouched scoped buffers, and the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The pipeline's proof data -/

/-- The proof data of the degree kernel's pipeline on core `c`: the arrays as the region finds them; after
    the body at point `t` the matrix window's buffer at its block and the output window's at the first
    component of `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

/-- The proof data's arrays are the entry contents. -/
theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

/-- The matrix window's current staging buffer holds the point's block at every point. -/
theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point.  The matrix window's memref holds the point's block.  At an even position the first
    case's run applies: the scratch column is handed over at anything (at the very first point as the launch
    left it, later at the contents the row block before ended with, which are forgotten), the output column is
    handed back as found.  At an odd position the last case's run applies: the scratch column is handed over at
    what the position before left, and both columns come back with their pieces written, which cover them. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  by_cases h0 : t.val % 2 = 0
  · rw [Dat.leavesExact_idle (dat0 V c) 1 t (idleAt0_1_first t ((hcond0_0 t).mpr h0) (notLast_of_even t h0)) (noFlush0_1_first t ((hcond0_0 t).mpr h0) (notLast_of_even t h0))]
    rw [outsAt0_first V c t h0]
    unfold firstAt0 sout0_first_0; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩⟩
      iapply ((kernelRun0_first c (grid0.coords t) _ _ _ _ _ _ ((hcond0_0 t).mpr h0) (notLast_of_even t h0) (iblk0 V c 0 t)).2.2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_first_0 c _ _ _ _ _ _ _ _ _ _)
          iexact Hrest
        iexact Hg
      isplitl [Ho]; · iexact Ho
      isplitl [H0]; · iexact H0
      iexists _; iexact H1
    · rw [PhiS0_castSucc V c t, PhiS0_pos V c _ _ hz]
      iintro ⟨⟨⟨HS0, Hrest⟩, Hg⟩, Ho, ⟨%d0, H0⟩, ⟨%d1, H1⟩⟩
      iapply ((kernelRun0_first c (grid0.coords t) _ _ _ _ _ _ ((hcond0_0 t).mpr h0) (notLast_of_even t h0) (iblk0 V c 0 t)).2.2 _ Set.univ _)
      isplitl [H0]; · iexact H0
      isplitl [H1]; · iexact H1
      isplitl [HS0]; · iexists _; iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_first_0 c _ _ _ _ _ _ _ _ _ _)
          iexact Hrest
        iexact Hg
      isplitl [Ho]; · iexact Ho
      isplitl [H0]; · iexact H0
      iexists _; iexact H1
  · have h1 : t.val % 2 = 1 := by omega
    have hz : t.val ≠ 0 := by omega
    rw [show (dat0 V c).leavesExact 1 t = owns (c : Thread nD τ) (ms0_1 t) fullShare ((dat0 V c).after 1 t) from by
      unfold Dat.leavesExact; rw [liveAt0_1_last t (notFirst_of_odd t h1) ((hcond0_1 t).mpr h1)], after0_1]
    rw [outsAt0_last V c t h1]
    unfold lastAt0 out0_last_1 sout0_last_0; (try dsimp only)
    rw [PhiS0_castSucc V c t, PhiS0_pos V c _ _ hz]
    iintro ⟨⟨⟨HS0, Hrest⟩, Hg⟩, Ho, ⟨%d0, H0⟩, ⟨%d1, H1⟩⟩
    iapply ((kernelRun0_last c (grid0.coords t) _ _ _ _ _ _ (notFirst_of_odd t h1) ((hcond0_1 t).mpr h1) (iblk0 V c 0 t) _).2.2 Set.univ _)
    isplitl [H0]; · iexact H0
    isplitl [H1]; · iexists _; iexact H1
    isplitl [HS0]; · iexact HS0
    iintro ⟨H0, ⟨%e1, H1⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_last_0 c _ _ _ _ _ _ _ _ _ _ _)
        iexact Hrest
      iexact Hg
    isplitl [Ho]; · iexact Ho
    isplitl [H0]; · iexact H0
    unfold owns; iexists _; isplitr
    swap; · iexact H1
    ipureintro; exact View.read_writes_of_cover _ _ _ _ _ (cover0_last_1 c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the launch's back: what the scratch column holds is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Region0

end Cert.KernelIdeal.Hand

end
-- ==== Proof.R1Runs.lean ====
/-
  Region 1 (the aggregation kernel on the grid of 8 row blocks by 4 column blocks): what its body triples are
  stated over. The two branch conditions of the body in closed form over the 32 grid points; where the output
  window is idle and where it is written back; the staging memrefs the body is called with at a point; the
  scratch accumulator as a memref and as a view; the region invariant with the accumulator singled out; each
  window's block at a point, read off the arrays as the region finds them (a parameter V); and the fact that
  every input window's current staging buffer holds its block at every point, fetched there or not.
-/
import proofs.«175491_j9534827397796_2_alg».proof.Proof.Gen.KernelIdeal.Skeleton
import proofs.«175491_j9534827397796_2_alg».proof.Proof.Gen.KernelIdeal.Launch
import proofs.«175491_j9534827397796_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The body's first branch (reset the accumulator to twice the scaled rows of the row block) is taken when the
    column-block coordinate is 0. -/
abbrev cond1_0 (i : grid1.Coords) : Prop := (Scalar.cmpi .ne (Scalar.extui (Scalar.cmpi .eq (BitVec.ofNat 32 (i 1).val) 0#32)) 0#32) = 1#1
/-- That is at the points ≡ 0 (mod 4): the first point of each row block's sweep. -/
theorem hcond1_0 : ∀ t : Fin cfg1.N, cond1_0 (grid1.coords t) ↔ t.val % 4 = 0 :=
  (by decide +kernel : ∀ t : Fin grid1.N, cond1_0 (grid1.coords t) ↔ t.val % 4 = 0)

/-- The body's second branch (scale, multiply by the transposed weights, add the bias, clamp at zero, store the
    output block) is taken when the column-block coordinate is 3. -/
abbrev cond1_1 (i : grid1.Coords) : Prop := k1_cond2 i = 1#1
/-- That is at the points ≡ 3 (mod 4): the last point of each row block's sweep. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle, and where the output is written back -/

/-- Window 0 is an input: never idle. -/
theorem liveAt1_0 : ∀ t : Fin cfg1.N, cfg1.idle 0 (grid1.coords t) = false := by decide +kernel
/-- Window 1 is an input: never idle. -/
theorem liveAt1_1 : ∀ t : Fin cfg1.N, cfg1.idle 1 (grid1.coords t) = false := by decide +kernel
/-- Window 2 is an input: never idle. -/
theorem liveAt1_2 : ∀ t : Fin cfg1.N, cfg1.idle 2 (grid1.coords t) = false := by decide +kernel
/-- Window 3 is an input: never idle. -/
theorem liveAt1_3 : ∀ t : Fin cfg1.N, cfg1.idle 3 (grid1.coords t) = false := by decide +kernel
/-- Window 4 is an input: never idle. -/
theorem liveAt1_4 : ∀ t : Fin cfg1.N, cfg1.idle 4 (grid1.coords t) = false := by decide +kernel
/-- Window 5 is an input: never idle. -/
theorem liveAt1_5 : ∀ t : Fin cfg1.N, cfg1.idle 5 (grid1.coords t) = false := by decide +kernel
/-- Window 6 is an input: never idle. -/
theorem liveAt1_6 : ∀ t : Fin cfg1.N, cfg1.idle 6 (grid1.coords t) = false := by decide +kernel

/-- At a point of a sweep that is not its last the output window is idle: the body stores nothing into it. -/
theorem idleAt1_7 : ∀ t : Fin cfg1.N, ¬cond1_1 (grid1.coords t) → cfg1.idle 7 (grid1.coords t) = true := by decide +kernel
/-- And there the pipeline does not write the output block back. -/
theorem noFlush1_7 : ∀ t : Fin cfg1.N, ¬cond1_1 (grid1.coords t) → (cfg1.win 7).flush t = false := by decide +kernel
/-- At the last point of a sweep the output window is live: the body stores its whole block. -/
theorem liveAt1_7 : ∀ t : Fin cfg1.N, cond1_1 (grid1.coords t) → cfg1.idle 7 (grid1.coords t) = false := by decide +kernel

/-! ## The memrefs the body is called with -/

/-- One staging buffer of the output window, through which its contents are stated (the choice does not matter). -/
abbrev VO1_7 : View sig .tc .vmem S1024x256 .f32 := (Memref.whole cc1_stg7_0 : Memref sig .tc .vmem S1024x256 .f32).view
/-- Each window's current staging memref at point t, spelled as the pipeline passes it, and its wholeness. -/
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x256 .f32 := win1_7.stage (cfg1.slots t 7)
abbrev hs1_7 (t : Fin cfg1.N) : (ms1_7 t).IsWhole := hstage1_7 ((cfg1.slots t 7).cast nbuf1_7)
/-- The accumulator: a whole scoped buffer of the kernel's own, passed beside the windows and carried from point
    to point. -/
abbrev scM1_0 : Memref sig .tc .vmem S1024x256 .f32 := Memref.whole cc1_scratch0
/-- The accumulator as a view: what it holds is stated through it. -/
abbrev VS1_0 : View sig .tc .vmem S1024x256 .f32 := scM1_0.view

/-- The region's invariant before its first point, the accumulator singled out as a memref owned at some
    contents: the scoped buffers that are no staging buffer of this region are the other region's four staging
    buffers and its accumulator (each at some contents, never touched here) and this region's accumulator; and
    the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The windows' blocks -/

section Blocks
variable (V : (c : Dev nD) → (b : Ref sig .tc) → Buf (Elt F) ((c : Thread nD τ).loc b))

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is V's and whose body leaves the block in place: where the window is not fetched its block
    index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is V's and whose body leaves the block in place: where the window is not fetched its block
    index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is V's and whose body leaves the block in place: where the window is not fetched its block
    index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is V's and whose body leaves the block in place: where the window is not fetched its block
    index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is V's and whose body leaves the block in place: where the window is not fetched its block
    index has not moved since the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is V's and whose body leaves the block in place: where the window is not fetched its block
    index has not moved since the point before. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is V's and whose body leaves the block in place: where the window is not fetched its block
    index has not moved since the point before. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.KernelIdeal.Hand

end
-- ==== Proof.R1RunA.lean ====
/-
  Region 1, the body at the FIRST point of a row block's sweep (first branch taken, second not): the accumulator, found at anything, is set to twice the scaled rows of the row block and then the first column block's product is added; the output buffer is handed back untouched.
-/
import proofs.«175491_j9534827397796_2_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- the body at the FIRST point of a row block's sweep (first branch taken, second not): the accumulator, found at anything, is set to twice the scaled rows of the row block and then the first column block's product is added; the output buffer is handed back untouched. The body's stores, as pieces (last first) per buffer it stores into, with the proof that on whole
    staging memrefs holding the input blocks the body runs to the continuation holding the inputs as they were
    and each stored buffer with its pieces written. -/
noncomputable def kernelRun1_A (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : cond1_0 i) (hc1 : ¬cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) :
    Σ' (L7 : List (View.Piece (Elt F) S1024x256 .f32)), { LS0 : List (View.Piece (Elt F) S1024x256 .f32) //
      ∀ (xi7 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9 arg10 harg10) K } := by
  refine ⟨[], ?_, fun xi7 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.KernelIdeal.Hand

end
-- ==== Proof.R1RunB.lean ====
/-
  Region 1, the body at a MIDDLE point of a row block's sweep (neither branch taken): the accumulator, found at what the point before left, has this column block's product added; the output buffer is handed back untouched.
-/
import proofs.«175491_j9534827397796_2_alg».proof.Proof.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- the body at a MIDDLE point of a row block's sweep (neither branch taken): the accumulator, found at what the point before left, has this column block's product added; the output buffer is handed back untouched. The body's stores, as pieces (last first) per buffer it stores into, with the proof that on whole
    staging memrefs holding the input blocks the body runs to the continuation holding the inputs as they were
    and each stored buffer with its pieces written. -/
noncomputable def kernelRun1_B (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : ¬cond1_0 i) (hc1 : ¬cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) (xs0 : Vec F S1024x256 .f32) :
    Σ' (L7 : List (View.Piece (Elt F) S1024x256 .f32)), { LS0 : List (View.Piece (Elt F) S1024x256 .f32) //
      ∀ (xi7 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9 arg10 harg10) K } := by
  refine ⟨[], ?_, fun xi7 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.KernelIdeal.Hand

end
-- ==== Proof.R1RunC.lean ====
/-
  Region 1, the body at the LAST point of a row block's sweep (first branch not taken, second taken): the accumulator, found at what the point before left, has the last column block's product added, and the output buffer, found at anything, is stored whole from the finished accumulator.
-/
import proofs.«175491_j9534827397796_2_alg».proof.Proof.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- the body at the LAST point of a row block's sweep (first branch not taken, second taken): the accumulator, found at what the point before left, has the last column block's product added, and the output buffer, found at anything, is stored whole from the finished accumulator. The body's stores, as pieces (last first) per buffer it stores into, with the proof that on whole
    staging memrefs holding the input blocks the body runs to the continuation holding the inputs as they were
    and each stored buffer with its pieces written. -/
noncomputable def kernelRun1_C (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : ¬cond1_0 i) (hc1 : cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) (xs0 : Vec F S1024x256 .f32) :
    Σ' (L7 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9 arg10 harg10) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.KernelIdeal.Hand

end
-- ==== Proof.R1Frame.lean ====
/-
  Region 1 (the aggregation kernel): its proof data and body obligation, at a parameter V for the buffer contents
  when the region is entered. Per control case, what the body's stores leave in the accumulator and in the output
  buffer; the pair (output buffer, accumulator) after each point, by recursion on the point; the invariant
  carrying the accumulator from point to point; the proof data; the body obligation by cases on the position
  modulo 4; and the entry and exit entailments of the invariant.
-/
import proofs.«175491_j9534827397796_2_alg».proof.Proof.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (qL qR : PosShare TreeShare)
variable (V : (c : Dev nD) → (b : Ref sig .tc) → Buf (Elt F) ((c : Thread nD τ).loc b))

/-! ## What each control case leaves in the accumulator and in the output buffer -/

/-- At the first point of a sweep the body's stores into the accumulator cover it (each is a store of the whole block). -/
theorem scover1_A_0 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : cond1_0 i) (hc1 : ¬cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) (y : S1024x256.Idx) :
    ∃ pc ∈ (kernelRun1_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5 x6).2.1 S1024x256.size (by sl_kernel_rfl) y

/-- What the accumulator holds after the first point of a sweep: the body's stores into it read back. -/
def sout1_A_0 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : cond1_0 i) (hc1 : ¬cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) : Vec F S1024x256 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4 x5 x6).2.1)

/-- At a middle point of a sweep the body's stores into the accumulator cover it (each is a store of the whole block). -/
theorem scover1_B_0 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : ¬cond1_0 i) (hc1 : ¬cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) (xs0 : Vec F S1024x256 .f32) (y : S1024x256.Idx) :
    ∃ pc ∈ (kernelRun1_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 x6 xs0).2.1 S1024x256.size (by sl_kernel_rfl) y

/-- What the accumulator holds after a middle point of a sweep: the body's stores into it read back. -/
def sout1_B_0 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : ¬cond1_0 i) (hc1 : ¬cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) (xs0 : Vec F S1024x256 .f32) : Vec F S1024x256 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 x5 x6 xs0).2.1)

/-- At the last point of a sweep the body's stores into the accumulator cover it (each is a store of the whole block). -/
theorem scover1_C_0 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : ¬cond1_0 i) (hc1 : cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) (xs0 : Vec F S1024x256 .f32) (y : S1024x256.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 x6 xs0).2.1 S1024x256.size (by sl_kernel_rfl) y

/-- What the accumulator holds after the last point of a sweep: the body's stores into it read back. -/
def sout1_C_0 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : ¬cond1_0 i) (hc1 : cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) (xs0 : Vec F S1024x256 .f32) : Vec F S1024x256 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 x5 x6 xs0).2.1)

/-- At the last point of a sweep the body's store into the output buffer covers its block. -/
theorem cover1_C_7 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : ¬cond1_0 i) (hc1 : cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) (xs0 : Vec F S1024x256 .f32) (y : S1024x256.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 x6 xs0).1 S1024x256.size (by sl_kernel_rfl) y

/-- What the output buffer holds after the last point of a sweep: the body's store into it read back. -/
def out1_C_7 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : ¬cond1_0 i) (hc1 : cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) (xs0 : Vec F S1024x256 .f32) : Vec F S1024x256 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 hc0 hc1 x0 x1 x2 x3 x4 x5 x6 xs0).1)

/-- Where the output window is idle its contents after the body are not consulted (the block is neither written
    back there nor read at the next point): a placeholder. -/
def outIdle1_7 : Vec F S1024x256 .f32 := VO1_7.read (Elt F) VO1_7.junk

/-! ## What the output buffer and the accumulator hold after each point -/

/-- THE ACCUMULATION. After the body at position n, the pair (output staging buffer, accumulator): at the first
    point of a sweep the accumulator is reset from the row block and receives the first column block's product; at a
    middle point it receives that column block's product over what the point before left; at the last point it
    receives the last product and the output block is computed from it. The output component is a placeholder at
    the points where the window is idle. -/
def outsAt1 (c : Dev nD) : (n : ℕ) → n < cfg1.N → Vec F S1024x256 .f32 × Vec F S1024x256 .f32
  | 0, hn => (outIdle1_7, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 4 = 0 then
      (outIdle1_7, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 4 = 3 then
        (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)
      else
        (outIdle1_7, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)

/-- The pair at the first point of a sweep. -/
theorem outsAt1_A (c : Dev nD) (t : Fin cfg1.N) (h0 : t.val % 4 = 0) (h1 : ¬t.val % 4 = 3) :
    outsAt1 V c t.val t.isLt = (outIdle1_7, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans rfl

/-- The pair at a middle point of a sweep, over what the point before left in the accumulator. -/
theorem outsAt1_B (c : Dev nD) (t : Fin cfg1.N) (h0 : ¬t.val % 4 = 0) (h1 : ¬t.val % 4 = 3) :
    outsAt1 V c t.val t.isLt = (outIdle1_7, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The pair at the last point of a sweep, over what the point before left in the accumulator. -/
theorem outsAt1_C (c : Dev nD) (t : Fin cfg1.N) (h0 : ¬t.val % 4 = 0) (h1 : t.val % 4 = 3) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant between points -/

/-- Before position n: before the first point the invariant the region is entered with (every scoped buffer that is
    no staging buffer of this region at some contents, the generator register at some state); afterwards the same
    with the accumulator at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point n (before point n + 1): the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-! ## The region's proof data -/

/-- The proof data of region 1 on core c: the arrays as the region finds them (V); after the body at point t each
    input's buffer at its block and the output's at the pair's first component; the invariant PhiS1; nothing owed.
    The two windows reading the feature matrix, and the two reading the scaling vector, each hold their array at
    one of two shares qL, qR; every other window holds its array outright. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q w := match w with
    | ⟨0, _⟩ => fullShare
    | ⟨1, _⟩ => qL
    | ⟨2, _⟩ => qR
    | ⟨3, _⟩ => qL
    | ⟨4, _⟩ => qR
    | ⟨5, _⟩ => fullShare
    | ⟨6, _⟩ => fullShare
    | ⟨7, _⟩ => fullShare
  owed _ := 0

/-- The proof data's arrays are the region-entry contents. -/
theorem A_eq1 (c : Dev nD) (w : Fin cfg1.W) : (dat1 qL qR V c).A w = V c (Pipeline.arrRef spec1 w) := by
  dsimp only [dat1]

/-- The invariant at a point's start, restated at the point's position. -/
theorem PhiS1_castSucc (c : Dev nD) (t : Fin cfg1.N) :
    (dat1 qL qR V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 qL qR V c).after 0 t = iblk1 V c 0 t := by dsimp only [dat1]
theorem after1_1 (c : Dev nD) (t : Fin cfg1.N) : (dat1 qL qR V c).after 1 t = iblk1 V c 1 t := by dsimp only [dat1]
theorem after1_2 (c : Dev nD) (t : Fin cfg1.N) : (dat1 qL qR V c).after 2 t = iblk1 V c 2 t := by dsimp only [dat1]
theorem after1_3 (c : Dev nD) (t : Fin cfg1.N) : (dat1 qL qR V c).after 3 t = iblk1 V c 3 t := by dsimp only [dat1]
theorem after1_4 (c : Dev nD) (t : Fin cfg1.N) : (dat1 qL qR V c).after 4 t = iblk1 V c 4 t := by dsimp only [dat1]
theorem after1_5 (c : Dev nD) (t : Fin cfg1.N) : (dat1 qL qR V c).after 5 t = iblk1 V c 5 t := by dsimp only [dat1]
theorem after1_6 (c : Dev nD) (t : Fin cfg1.N) : (dat1 qL qR V c).after 6 t = iblk1 V c 6 t := by dsimp only [dat1]
theorem after1_7 (c : Dev nD) (t : Fin cfg1.N) : (dat1 qL qR V c).after 7 t = (outsAt1 V c t.val t.isLt).1 := by dsimp only [dat1]

/-- Each input's current staging buffer holds its block at every point, fetched there or not. -/
theorem before1_0 (c : Dev nD) (t : Fin cfg1.N) (d) : (dat1 qL qR V c).before 0 t d = iblk1 V c 0 t :=
  before1_0_of V (dat1 qL qR V c) (A_eq1 qL qR V c 0) (after1_0 qL qR V c) t d
theorem before1_1 (c : Dev nD) (t : Fin cfg1.N) (d) : (dat1 qL qR V c).before 1 t d = iblk1 V c 1 t :=
  before1_1_of V (dat1 qL qR V c) (A_eq1 qL qR V c 1) (after1_1 qL qR V c) t d
theorem before1_2 (c : Dev nD) (t : Fin cfg1.N) (d) : (dat1 qL qR V c).before 2 t d = iblk1 V c 2 t :=
  before1_2_of V (dat1 qL qR V c) (A_eq1 qL qR V c 2) (after1_2 qL qR V c) t d
theorem before1_3 (c : Dev nD) (t : Fin cfg1.N) (d) : (dat1 qL qR V c).before 3 t d = iblk1 V c 3 t :=
  before1_3_of V (dat1 qL qR V c) (A_eq1 qL qR V c 3) (after1_3 qL qR V c) t d
theorem before1_4 (c : Dev nD) (t : Fin cfg1.N) (d) : (dat1 qL qR V c).before 4 t d = iblk1 V c 4 t :=
  before1_4_of V (dat1 qL qR V c) (A_eq1 qL qR V c 4) (after1_4 qL qR V c) t d
theorem before1_5 (c : Dev nD) (t : Fin cfg1.N) (d) : (dat1 qL qR V c).before 5 t d = iblk1 V c 5 t :=
  before1_5_of V (dat1 qL qR V c) (A_eq1 qL qR V c 5) (after1_5 qL qR V c) t d
theorem before1_6 (c : Dev nD) (t : Fin cfg1.N) (d) : (dat1 qL qR V c).before 6 t d = iblk1 V c 6 t :=
  before1_6_of V (dat1 qL qR V c) (A_eq1 qL qR V c 6) (after1_6 qL qR V c) t d

/-! ## The body obligation, at a generic point -/

/-- What the body is called with at point t, the windows one by one, -/
def bodyPre1 (c : Dev nD) (t : Fin cfg1.N) : sProp 𝕄 :=
  iprop((dat1 qL qR V c).Φ t.castSucc ∗ (dat1 qL qR V c).owesAt () t.castSucc
    ∗ (∃ d, owns (c : Thread nD τ) (ms1_0 t) fullShare ((dat1 qL qR V c).before 0 t d))
    ∗ (∃ d, owns (c : Thread nD τ) (ms1_1 t) fullShare ((dat1 qL qR V c).before 1 t d))
    ∗ (∃ d, owns (c : Thread nD τ) (ms1_2 t) fullShare ((dat1 qL qR V c).before 2 t d))
    ∗ (∃ d, owns (c : Thread nD τ) (ms1_3 t) fullShare ((dat1 qL qR V c).before 3 t d))
    ∗ (∃ d, owns (c : Thread nD τ) (ms1_4 t) fullShare ((dat1 qL qR V c).before 4 t d))
    ∗ (∃ d, owns (c : Thread nD τ) (ms1_5 t) fullShare ((dat1 qL qR V c).before 5 t d))
    ∗ (∃ d, owns (c : Thread nD τ) (ms1_6 t) fullShare ((dat1 qL qR V c).before 6 t d))
    ∗ (∃ d, owns (c : Thread nD τ) (ms1_7 t) fullShare ((dat1 qL qR V c).before 7 t d)))

/-- and what it returns. -/
def bodyPost1 (c : Dev nD) (t : Fin cfg1.N) : sProp 𝕄 :=
  iprop((dat1 qL qR V c).Φ t.succ ∗ (dat1 qL qR V c).owesAt () t.succ
    ∗ (dat1 qL qR V c).leavesExact 0 t
    ∗ (dat1 qL qR V c).leavesExact 1 t
    ∗ (dat1 qL qR V c).leavesExact 2 t
    ∗ (dat1 qL qR V c).leavesExact 3 t
    ∗ (dat1 qL qR V c).leavesExact 4 t
    ∗ (dat1 qL qR V c).leavesExact 5 t
    ∗ (dat1 qL qR V c).leavesExact 6 t
    ∗ (dat1 qL qR V c).leavesExact 7 t)

set_option maxHeartbeats 4800000 in
/-- The body at any point. The inputs' memrefs hold their blocks; the position modulo 4 says which of the three
    control cases the point is in; the invariant hands the body the accumulator (at anything at the very first
    point, else at what the point before left) and takes it back at this point's contents; where the output window
    is idle its buffer is handed back as found, and at the last point of a sweep it is left at the block computed
    from the finished accumulator. Nothing is owed throughout. -/
theorem sound_body1 (c : Dev nD) (t : Fin cfg1.N) :
    bodyPre1 qL qR V c t ⊢ wp frame (wpE (defs₀ (F := F)) Variants.none c none) Set.univ (bodyAt1 t) (fun _ => bodyPost1 qL qR V c t) := by
  unfold bodyPre1 bodyPost1 bodyAt1
  simp only [before1_0, before1_1, before1_2, before1_3, before1_4, before1_5, before1_6]
  rw [show (dat1 qL qR V c).owesAt () t.succ = (dat1 qL qR V c).owesAt () t.castSucc from rfl]
  rw [show (dat1 qL qR V c).Φ t.succ = PhiS1 V c (t.val + 1) t.isLt from rfl, PhiS1_succ]
  rw [show (dat1 qL qR V c).leavesExact 0 t = owns (c : Thread nD τ) (ms1_0 t) fullShare ((dat1 qL qR V c).after 0 t) from by
    unfold Dat.leavesExact; rw [liveAt1_0 t], after1_0]
  rw [show (dat1 qL qR V c).leavesExact 1 t = owns (c : Thread nD τ) (ms1_1 t) fullShare ((dat1 qL qR V c).after 1 t) from by
    unfold Dat.leavesExact; rw [liveAt1_1 t], after1_1]
  rw [show (dat1 qL qR V c).leavesExact 2 t = owns (c : Thread nD τ) (ms1_2 t) fullShare ((dat1 qL qR V c).after 2 t) from by
    unfold Dat.leavesExact; rw [liveAt1_2 t], after1_2]
  rw [show (dat1 qL qR V c).leavesExact 3 t = owns (c : Thread nD τ) (ms1_3 t) fullShare ((dat1 qL qR V c).after 3 t) from by
    unfold Dat.leavesExact; rw [liveAt1_3 t], after1_3]
  rw [show (dat1 qL qR V c).leavesExact 4 t = owns (c : Thread nD τ) (ms1_4 t) fullShare ((dat1 qL qR V c).after 4 t) from by
    unfold Dat.leavesExact; rw [liveAt1_4 t], after1_4]
  rw [show (dat1 qL qR V c).leavesExact 5 t = owns (c : Thread nD τ) (ms1_5 t) fullShare ((dat1 qL qR V c).after 5 t) from by
    unfold Dat.leavesExact; rw [liveAt1_5 t], after1_5]
  rw [show (dat1 qL qR V c).leavesExact 6 t = owns (c : Thread nD τ) (ms1_6 t) fullShare ((dat1 qL qR V c).after 6 t) from by
    unfold Dat.leavesExact; rw [liveAt1_6 t], after1_6]
  have hN : t.val < 32 := lt_of_lt_of_eq t.isLt (show cfg1.N = 32 from N_1)
  by_cases h0 : t.val % 4 = 0
  · have h1 : ¬t.val % 4 = 3 := by omega
    rw [Dat.leavesExact_idle (dat1 qL qR V c) 7 t (idleAt1_7 t (fun h => h1 ((hcond1_1 t).mp h))) (noFlush1_7 t (fun h => h1 ((hcond1_1 t).mp h)))]
    rw [outsAt1_A V c t h0 h1]
    unfold sout1_A_0; (try dsimp only)
    by_cases hz : t.val = 0
    · rw [PhiS1_castSucc qL qR V c t, PhiS1_zero V c _ _ hz, PhiA1_eq]
      iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_A_0 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS1_castSucc qL qR V c t, PhiS1_pos V c _ _ hz]
      iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      iintro ⟨H0, H1, H2, H3, H4, H5, H6, H7, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_A_0 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    by_cases h1 : t.val % 4 = 3
    · rw [show (dat1 qL qR V c).leavesExact 7 t = owns (c : Thread nD τ) (ms1_7 t) fullShare ((dat1 qL qR V c).after 7 t) from by
        unfold Dat.leavesExact; rw [liveAt1_7 t ((hcond1_1 t).mpr h1)], after1_7]
      rw [outsAt1_C V c t h0 h1]
      unfold out1_C_7 sout1_C_0; (try dsimp only)
      rw [PhiS1_castSucc qL qR V c t, PhiS1_pos V c _ _ hz]
      iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_C_7 c _ _ _ _ _ _ _ _ _ _ _ _ _ _ _ _ _ _ _ _ _ _ _ _ _ _ _ _ _)
    · rw [Dat.leavesExact_idle (dat1 qL qR V c) 7 t (idleAt1_7 t (fun h => h1 ((hcond1_1 t).mp h))) (noFlush1_7 t (fun h => h1 ((hcond1_1 t).mp h)))]
      rw [outsAt1_B V c t h0 h1]
      unfold sout1_B_0; (try dsimp only)
      rw [PhiS1_castSucc qL qR V c t, PhiS1_pos V c _ _ hz]
      iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) qL qR V c) (defs₀ (F := F)) Variants.none () Set.univ := fun t => by
  rw [bigSep_W1, bigSep_W1]
  exact sound_body1 qL qR V c t

/-- What the region is entered with is the invariant before the first point. -/
theorem hin1 (c : Dev nD) : Pipeline.ΦA spec1 c ⊢ (dat1 qL qR V c).Φ 0 := by
  rw [show (dat1 qL qR V c).Φ 0 = PhiS1 V c 0 (Nat.zero_le _) from rfl, PhiS1_zero V c 0 _ rfl]
  try exact Idealize.SL.BI.Entails.refl _

/-- After any point but the first the invariant gives the entry invariant back: what the accumulator holds is
    forgotten. -/
theorem Phi_out1 (c : Dev nD) (t : Fin (cfg1.N + 1)) (ht : t.val ≠ 0) : (dat1 qL qR V c).Φ t ⊢ Pipeline.ΦA spec1 c := by
  rw [show (dat1 qL qR V c).Φ t = PhiS1 V c t.val (Nat.le_of_lt_succ t.isLt) from rfl, PhiS1_pos V c _ _ ht, PhiA1_eq]
  iintro ⟨⟨Ha, Hb, Hc, Hd, He, HS0⟩, Hg⟩
  isplitl [Ha Hb Hc Hd He HS0]
  · isplitl [Ha]; · iexact Ha
    isplitl [Hb]; · iexact Hb
    isplitl [Hc]; · iexact Hc
    isplitl [Hd]; · iexact Hd
    isplitl [He]; · iexact He
    iexists _; iexact HS0
  iexact Hg

/-- The same after the last point. -/
theorem hout1 (c : Dev nD) : (dat1 qL qR V c).Φ (Fin.last cfg1.N) ⊢ Pipeline.ΦA spec1 c :=
  Phi_out1 qL qR V c _ (by rw [Fin.val_last]; have : cfg1.N = 32 := N_1; omega)

end Region1

end Cert.KernelIdeal.Hand

end
-- ==== Proof.Inst.lean ====
/-
  The two passes' proof data put into the run: the degree pass at the launch contents, the aggregation pass at the
  contents the degree pass and the two host lines leave; the node features and the degree vector, which the
  aggregation pass reads through two windows each, are dealt to those windows in the two halves of the full share.
  What every final state holds follows: each argument as launched (the frame), the result array at what the
  aggregation pass wrote back.
-/
import proofs.«175491_j9534827397796_2_alg».proof.Proof.Asm
import proofs.«175491_j9534827397796_2_alg».proof.Proof.R0Frame
import proofs.«175491_j9534827397796_2_alg».proof.Proof.R1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two halves of the full share. -/
def qL : PosShare TreeShare := PosShare.left fullShare
def qR : PosShare TreeShare := PosShare.right fullShare
theorem hq : fullShare ∈ PCS.op qL qR := PosShare.mem_left_op_right fullShare

/-- The degree pass's proof data as the assembly takes it. -/
def pass0 (V : (c : Dev nD) → (b : Ref sig .tc) → Buf (Elt F) ((c : Thread nD τ).loc b)) : Pass0 (F := F) V where
  dat := dat0 V
  A_eq := A_eq0 V
  body := body_obligation0 V
  hin := hin0 V
  hout := hout0 V
  owed := fun _ _ => rfl
  share := fun c => (dat0 V c).share_full fun _ => rfl
  rec_univ := fun _ _ => rfl

/-- The aggregation pass's proof data as the assembly takes it. -/
def pass1 (V : (c : Dev nD) → (b : Ref sig .tc) → Buf (Elt F) ((c : Thread nD τ).loc b)) : Pass1 (F := F) qL qR V where
  dat := dat1 qL qR V
  A_eq := A_eq1 qL qR V
  body := body_obligation1 qL qR V
  hin := hin1 qL qR V
  hout := hout1 qL qR V
  owed := fun _ _ => rfl
  q0 := fun _ => rfl
  q1 := fun _ => rfl
  q2 := fun _ => rfl
  q3 := fun _ => rfl
  q4 := fun _ => rfl
  q5 := fun _ => rfl
  q6 := fun _ => rfl
  rec_univ := fun _ _ => rfl

variable (m : (ℓ : Loc nD τ sig) → Buf (Elt F) ℓ) (ρ : Dev nD → PrngReg)

abbrev P0m : Pass0 (F := F) (V0 m ρ) := pass0 (V0 m ρ)
abbrev P1m : Pass1 (F := F) qL qR (V2 m ρ (P0m m ρ)) := pass1 (V2 m ρ (P0m m ρ))
/-- The exit contents of the run. -/
abbrev Wend : Dev nD → Valuation τ sig (Elt F) := W3 m ρ qL qR (P0m m ρ) (P1m m ρ)

theorem run : θ_run defs (onTc (τ := τ) (main (F := F))) ⟨m, fun _ => 0, ρ⟩ (fun r => ∀ c : Dev nD,
      ∀ b ∈ Pipeline.ucRefs τ sig, r.2.mem (((c : Thread nD τ)).1, b) = Wend m ρ c b) :=
  run_main m ρ qL qR hq (P0m m ρ) (P1m m ρ)

/-! ## The exit contents read back -/

/-- A buffer the host lines do not write and no window of the degree pass stages is as launched at the aggregation
    pass's entry. -/
theorem V2_of_rest (c : Dev nD) (b : Ref sig .tc) (h1 : b ∉ hostOps1_W) (h0 : ∀ w, Pipeline.arrRef spec0 w ≠ b) :
    V2 m ρ (P0m m ρ) c b = m ((c : Thread nD τ).loc b) :=
  (StableHlo.after_of_writes_sub hostOps1 _ hostOps1_writes h1).trans (W1_of_ne m ρ (P0m m ρ) c b h0)

/-- The adjacency matrix, which the degree pass reads through its input window, too. -/
theorem V2_main_arg1 (c : Dev nD) : V2 m ρ (P0m m ρ) c main_arg1 = m ((c : Thread nD τ).loc main_arg1) :=
  (StableHlo.after_of_writes_sub hostOps1 _ hostOps1_writes (by decide : main_arg1 ∉ hostOps1_W)).trans
    ((W1_arr m ρ (P0m m ρ) c 0).trans ((((P0m m ρ).dat c).arrAt_in 0 rfl _).trans ((P0m m ρ).A_eq c 0)))

/-- The degree vector at the aggregation pass's entry is what the degree pass wrote back. -/
theorem V2_main_v0 (c : Dev nD) : V2 m ρ (P0m m ρ) c main_v0 = (dat0 (V0 m ρ) c).arrAt 1 cfg0.N :=
  (StableHlo.after_of_writes_sub hostOps1 _ hostOps1_writes (by decide : main_v0 ∉ hostOps1_W)).trans (W1_arr m ρ (P0m m ρ) c 1)

theorem Wend_arg0 (c : Dev nD) : Wend m ρ c (Proc.devRef .tc main_arg0) = m ((c : Thread nD τ).loc main_arg0) :=
  (V3_of_ne m ρ qL qR (P0m m ρ) (P1m m ρ) c main_arg0 (by decide)).trans (V2_of_rest m ρ c main_arg0 (by decide) (by decide))
theorem Wend_arg1 (c : Dev nD) : Wend m ρ c (Proc.devRef .tc main_arg1) = m ((c : Thread nD τ).loc main_arg1) :=
  (V3_of_ne m ρ qL qR (P0m m ρ) (P1m m ρ) c main_arg1 (by decide)).trans (V2_main_arg1 m ρ c)
theorem Wend_arg2 (c : Dev nD) : Wend m ρ c (Proc.devRef .tc main_arg2) = m ((c : Thread nD τ).loc main_arg2) :=
  (V3_of_ne m ρ qL qR (P0m m ρ) (P1m m ρ) c main_arg2 (by decide)).trans (V2_of_rest m ρ c main_arg2 (by decide) (by decide))
theorem Wend_arg3 (c : Dev nD) : Wend m ρ c (Proc.devRef .tc main_arg3) = m ((c : Thread nD τ).loc main_arg3) :=
  (V3_of_ne m ρ qL qR (P0m m ρ) (P1m m ρ) c main_arg3 (by decide)).trans (V2_of_rest m ρ c main_arg3 (by decide) (by decide))
theorem Wend_out (c : Dev nD) : Wend m ρ c (Proc.devRef .tc main_v3) = (dat1 qL qR (V2 m ρ (P0m m ρ)) c).arrAt 7 cfg1.N :=
  V3_out m ρ qL qR (P0m m ρ) (P1m m ρ) c

/-- THE FRAME, with the result array named: every weakly fair execution terminates, nothing faulting, the arguments end
    as launched and the result array holds what the aggregation pass wrote back. -/
theorem run_named : θ_run defs (onTc (τ := τ) (main (F := F))) ⟨m, fun _ => 0, ρ⟩ (fun r => ∀ c : Dev nD,
      r.2.mem ((c.tc : Thread nD τ).loc main_v3) = (dat1 qL qR (V2 m ρ (P0m m ρ)) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v3 (by decide))).trans (Wend_out m ρ c),
     (h c _ (mem_uc main_arg0 (by decide))).trans (Wend_arg0 m ρ c),
     (h c _ (mem_uc main_arg1 (by decide))).trans (Wend_arg1 m ρ c),
     (h c _ (mem_uc main_arg2 (by decide))).trans (Wend_arg2 m ρ c),
     (h c _ (mem_uc main_arg3 (by decide))).trans (Wend_arg3 m ρ c)⟩) (run m ρ)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_named m ρ)

end Cert.KernelIdeal.Hand

end
-- ==== Proof.Bits.Asm.lean ====
/-
  The run of the two-pass layer as a chain of segments: the degree pass (region 0), the two host lines that lay
  the weights out (the transpose of W and the bias as a row), and the aggregation pass (region 1). Each pass is
  given by its proof data: what every window's buffer holds after each grid point, and the accumulator the pass
  carries from point to point.
-/
import proofs.«175491_j9534827397796_2_alg».proof.Proof.Gen.Kernel.Launch
import proofs.«175491_j9534827397796_2_alg».proof.Proof.Gen.Kernel.Skeleton
import proofs.«175491_j9534827397796_2_alg».proof.Proof.Gen.Kernel.Points
import proofs.«175491_j9534827397796_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic
import proofs.«175491_j9534827397796_2_alg».proof.Proof.LibFrameShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the assembly asks of the degree pass at entry contents `V`. -/
structure Pass0 (V : (c : Dev nD) → (b : Ref sig .tc) → Buf (Elt F) ((c : Thread nD τ).loc b)) where
  dat : (c : Dev nD) → Dat τ (Elt F) Unit ℕ (UR sig nD τ) ℕ cfg0 c
  A_eq : ∀ c w, (dat c).A w = V c (Pipeline.arrRef spec0 w)
  body : ∀ c, BodyObligation (dat c) (defs₀ (F := F)) Variants.none () Set.univ
  hin : ∀ c, (Pipeline.ΦA spec0 c : sProp 𝕄) ⊢ (dat c).Φ 0
  hout : ∀ c, (dat c).Φ (Fin.last cfg0.N) ⊢ (Pipeline.ΦA spec0 c : sProp 𝕄)
  owed : ∀ c t, (dat c).owed t = 0
  share : ∀ c w, (dat c).share w = fullShare
  rec_univ : ∀ c t, (dat c).recorded t = Set.univ

/-- What the assembly asks of the aggregation pass at entry contents `V`: as for the degree pass, except that the
    node features and the degree vector each come in through two windows, so each of those four windows holds its
    array at one of the two halves `qL`, `qR` of the full share. -/
structure Pass1 (qL qR : PosShare TreeShare) (V : (c : Dev nD) → (b : Ref sig .tc) → Buf (Elt F) ((c : Thread nD τ).loc b)) where
  dat : (c : Dev nD) → Dat τ (Elt F) Unit ℕ (UR sig nD τ) ℕ cfg1 c
  A_eq : ∀ c w, (dat c).A w = V c (Pipeline.arrRef spec1 w)
  body : ∀ c, BodyObligation (dat c) (defs₀ (F := F)) Variants.none () Set.univ
  hin : ∀ c, (Pipeline.ΦA spec1 c : sProp 𝕄) ⊢ (dat c).Φ 0
  hout : ∀ c, (dat c).Φ (Fin.last cfg1.N) ⊢ (Pipeline.ΦA spec1 c : sProp 𝕄)
  owed : ∀ c t, (dat c).owed t = 0
  q0 : ∀ c, (dat c).q 0 = fullShare
  q1 : ∀ c, (dat c).q 1 = qL
  q2 : ∀ c, (dat c).q 2 = qR
  q3 : ∀ c, (dat c).q 3 = qL
  q4 : ∀ c, (dat c).q 4 = qR
  q5 : ∀ c, (dat c).q 5 = fullShare
  q6 : ∀ c, (dat c).q 6 = fullShare
  rec_univ : ∀ c t, (dat c).recorded t = Set.univ

variable (m : (ℓ : Loc nD τ sig) → Buf (Elt F) ℓ) (ρ : Dev nD → PrngReg)

/-! ## The buffers' contents at each boundary between segments -/

/-- Core `c`'s buffers at launch (the degree pass's entry). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

section Run

variable (P0 : Pass0 (F := F) (V0 m ρ))

/-- After the degree pass: its arrays at what its write-backs leave, every other buffer as launched. -/
def W1 (c : Dev nD) : Valuation τ sig (Elt F) :=
  Pipeline.withArrays spec0 c (W0 m ρ c) fun w => (P0.dat c).arrAt w cfg0.N
theorem W1_arr (c : Dev nD) (w : Fin cfg0.W) :
    W1 m ρ P0 c (Proc.devRef .tc (Pipeline.arrRef spec0 w)) = (P0.dat c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ P0 c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ P0 c b
theorem hF0 (c : Dev nD) (w : Fin cfg0.W) : (P0.dat c).arrAt w cfg0.N = V1 m ρ P0 c (Pipeline.arrRef spec0 w) :=
  (W1_arr m ρ P0 c w).symm
theorem hrest0 (c : Dev nD) : ∀ b, b ∉ Finset.univ.image (Pipeline.arrRef spec0) → V1 m ρ P0 c b = V0 m ρ c b :=
  fun b hb => W1_of_ne m ρ P0 c b fun w e => hb (Finset.mem_image.mpr ⟨w, Finset.mem_univ _, e⟩)

/-- After the two host lines (the aggregation pass's entry). -/
abbrev W2 : Dev nD → Valuation τ sig (Elt F) := fun c => StableHlo.after hostOps1 (W1 m ρ P0 c)
abbrev V2 : (c : Dev nD) → (b : Ref sig .tc) → Buf (Elt F) ((c : Thread nD τ).loc b) := fun c b => W2 m ρ P0 c b

end Run

section Run2

variable (qL qR : PosShare TreeShare) (P0 : Pass0 (F := F) (V0 m ρ)) (P1 : Pass1 (F := F) qL qR (V2 m ρ P0))

/-- After the aggregation pass: the result array at what its write-backs leave, every other buffer as it was. -/
def W3 (c : Dev nD) : Valuation τ sig (Elt F) :=
  Function.update (W2 m ρ P0 c) (Proc.devRef .tc main_v3) ((P1.dat c).arrAt 7 cfg1.N)
abbrev V3 : (c : Dev nD) → (b : Ref sig .tc) → Buf (Elt F) ((c : Thread nD τ).loc b) := fun c b => W3 m ρ qL qR P0 P1 c b

/-- The prefetched tables' admissible contents: neither pass has a table. -/
abbrev adm : (p : Fin 2) → (pcfgs (F := F) p).Adm := fun p => (cfgs p).toPCfg_adm
/-- Both passes' proof data, each at its entry contents. -/
def pdats : (p : Fin 2) → (c : Dev nD) → Dat τ (Elt F) Unit ℕ (UR sig nD τ) ℕ (Pipeline.pin (pcfgs (F := F)) adm p) c
  | ⟨0, _⟩ => fun c => P0.dat c
  | ⟨1, _⟩ => fun c => P1.dat c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

/-- The two host lines as a segment. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m ρ P0) R

set_option backward.isDefEq.respectTransparency.types false in
/-- The degree pass over the thread state: entered with every unscoped buffer as launched, left with the degree
    vector's buffer at what the pass wrote. -/
def reg0 : Pipeline.RegionSeg (pcfgs (F := F)) adm (pdats m ρ qL qR P0 P1) () defs₀ 𝒱₀ L lv 0 where
  win := launch0.win.to₀
  block_pos := launch0.block_pos
  stage_whole := launch0.stage_whole
  K := PEmpty
  osem k := k.elim
  ho := Pipeline.OwnSemFacts.none _
  hbody c := (P0.body c).loose
  hwaits := Pipeline.hwaits_of_owed_zero _ _ _ _ L lv 0 fun c t => P0.owed c t
  pre c := iprop(StableHlo.held (c : Thread nD τ) (Pipeline.ucRefs τ sig) (W0 m ρ c) ∗ R c)
  post c := iprop(StableHlo.held (c : Thread nD τ) (Pipeline.ucRefs τ sig) (W1 m ρ P0 c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ qL qR P0 P1) launch0.win launch0.arr_whole c
      (P0.share c) (V0 m ρ c) (P0.A_eq c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ qL qR P0 P1 0 c).owed 0 = 0 from P0.owed c 0]
      icases HO with ⟨%W, HO⟩; iexists W; isplitr; · ipureintro; exact fun _ _ => Or.inl (by rw [show (pdats m ρ qL qR P0 P1 0 c).recorded 0 = Set.univ from P0.rec_univ c 0]; trivial)
      iexact HO
    isplitl [Hp]; · iexact Hp
    iexact Hrest
  hin c := by
    rw [show (pdats m ρ qL qR P0 P1 0 c).Φ 0 = (P0.dat c).Φ 0 from rfl]
    refine BIBase.Entails.trans ?_ (P0.hin c)
    unfold Pipeline.ΦA
    iintro ⟨Hp, -, Hr⟩
    isplitl [Hr]; · iexact Hr
    iexact Hp
  hout c := by
    rw [Pipeline.ownSems0_none]
    rw [show (pdats m ρ qL qR P0 P1 0 c).Φ (Fin.last _) = (P0.dat c).Φ (Fin.last cfg0.N) from rfl]
    refine (P0.hout c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ qL qR P0 P1) (P0.share c)
      (V0 m ρ c) (V1 m ρ P0 c) ((pdats m ρ qL qR P0 P1 0 c).arrAt · cfg0.N) (hF0 m ρ P0 c) (hrest0 m ρ P0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ qL qR P0 P1 0 c).owed (Fin.last _) = 0 from P0.owed c _]
    icases HO with ⟨%W, -, HO⟩; iexists W; iexact HO

end Run2

section Run3

variable (qL qR : PosShare TreeShare) (hq : fullShare ∈ PCS.op qL qR)
  (P0 : Pass0 (F := F) (V0 m ρ)) (P1 : Pass1 (F := F) qL qR (V2 m ρ P0))

/-! ## The aggregation pass's arrays: the node features and the degree vector held twice, at half shares -/

theorem share1_0 (c : Dev nD) : (P1.dat c).share 0 = fullShare := by unfold Dat.share; rw [if_neg (by decide)]; exact P1.q0 c
theorem share1_1 (c : Dev nD) : (P1.dat c).share 1 = qL := by unfold Dat.share; rw [if_neg (by decide)]; exact P1.q1 c
theorem share1_2 (c : Dev nD) : (P1.dat c).share 2 = qR := by unfold Dat.share; rw [if_neg (by decide)]; exact P1.q2 c
theorem share1_3 (c : Dev nD) : (P1.dat c).share 3 = qL := by unfold Dat.share; rw [if_neg (by decide)]; exact P1.q3 c
theorem share1_4 (c : Dev nD) : (P1.dat c).share 4 = qR := by unfold Dat.share; rw [if_neg (by decide)]; exact P1.q4 c
theorem share1_5 (c : Dev nD) : (P1.dat c).share 5 = fullShare := by unfold Dat.share; rw [if_neg (by decide)]; exact P1.q5 c
theorem share1_6 (c : Dev nD) : (P1.dat c).share 6 = fullShare := by unfold Dat.share; rw [if_neg (by decide)]; exact P1.q6 c
theorem share1_7 (c : Dev nD) : (P1.dat c).share 7 = fullShare := by unfold Dat.share; rw [if_pos (by decide)]

include hq in
/-- ENTRY. The unscoped buffers at the pass's entry contents are its eight windows' arrays — the two arrays that come
    in through two windows each split into their halves — and the two buffers no window stages. -/
theorem entry1 (c : Dev nD) :
    (StableHlo.held (c : Thread nD τ) (Pipeline.ucRefs τ sig) (W2 m ρ P0 c) : sProp 𝕄)
      ⊢ iprop((P1.dat c).arrays ((P1.dat c).arrAt · 0)
          ∗ Pipeline.unscopedRest (Ix := Unit) (Name := ℕ) (U := UR sig nD τ) (Lvl := ℕ) spec1 c (V2 m ρ P0 c)) := by
  rw [← Pipeline.unscopedBufs_held (Ix := Unit) (Name := ℕ) (U := UR sig nD τ) (Lvl := ℕ) c (W2 m ρ P0 c)]
  rw [Pipeline.unscopedBufs_split₀ cfgs 1 winFacts₀1.arr_unscoped c (V2 m ρ P0 c)]
  refine sep_mono ?_ .rfl
  rw [Pipeline.SharedFrame.arrays_eq_shares (P1.dat c) arr_whole1, bigSep_W1]
  unfold Pipeline.arrBufs
  rw [bigSep_eq_bigSepL_of_eq [main_arg1, main_arg0, main_v0, main_v1, main_v2, main_v3] (by decide) (by decide)]
  rw [share1_0, share1_1, share1_2, share1_3, share1_4, share1_5, share1_6, share1_7]
  simp only [show ∀ w, (P1.dat c).arrAt w 0 = (P1.dat c).A w from fun _ => rfl, P1.A_eq, bigSepL_cons_cons, bigSepL_singleton]
  show iprop(_ ∗ _ ∗ _ ∗ _ ∗ _ ∗ _) ⊢ _
  iintro ⟨H1, H0, Hv0, Hv1, Hv2, Hv3⟩
  ihave H0' := (pointsTo_share hq).1 $$ H0
  icases H0' with ⟨H0l, H0r⟩
  ihave Hv0' := (pointsTo_share hq).1 $$ Hv0
  icases Hv0' with ⟨Hv0l, Hv0r⟩
  isplitl [H1]; · iexact H1
  isplitl [H0l]; · iexact H0l
  isplitl [H0r]; · iexact H0r
  isplitl [Hv0l]; · iexact Hv0l
  isplitl [Hv0r]; · iexact Hv0r
  isplitl [Hv1]; · iexact Hv1
  isplitl [Hv2]; · iexact Hv2
  iexact Hv3

end Run3

section Run4

variable (qL qR : PosShare TreeShare) (hq : fullShare ∈ PCS.op qL qR)
  (P0 : Pass0 (F := F) (V0 m ρ)) (P1 : Pass1 (F := F) qL qR (V2 m ρ P0))

theorem V3_of_ne (c : Dev nD) (b : Ref sig .tc) (h : b ≠ main_v3) : V3 m ρ qL qR P0 P1 c b = V2 m ρ P0 c b := by
  simp only [V3, W3, Function.update_of_ne (StableHlo.devRef_ne_of_ne h : (Proc.devRef .tc b : DevRef τ sig) ≠ Proc.devRef .tc main_v3)]
theorem V3_out (c : Dev nD) : V3 m ρ qL qR P0 P1 c main_v3 = (P1.dat c).arrAt 7 cfg1.N := by
  simp only [V3, W3, Function.update_self]

set_option maxHeartbeats 4000000 in
include hq in
/-- EXIT. The eight windows' arrays as the pass leaves them — the inputs as they came, the halves joined again, the
    result array at what the write-backs left — and the two buffers no window stages are the unscoped buffers at the
    exit contents. -/
theorem exit1 (c : Dev nD) :
    iprop((P1.dat c).arrays ((P1.dat c).arrAt · cfg1.N)
        ∗ Pipeline.unscopedRest (Ix := Unit) (Name := ℕ) (U := UR sig nD τ) (Lvl := ℕ) spec1 c (V2 m ρ P0 c))
      ⊢ (StableHlo.held (c : Thread nD τ) (Pipeline.ucRefs τ sig) (W3 m ρ qL qR P0 P1 c) : sProp 𝕄) := by
  rw [← Pipeline.unscopedBufs_held (Ix := Unit) (Name := ℕ) (U := UR sig nD τ) (Lvl := ℕ) c (W3 m ρ qL qR P0 P1 c)]
  rw [Pipeline.unscopedBufs_split₀ cfgs 1 winFacts₀1.arr_unscoped c (V3 m ρ qL qR P0 P1 c)]
  refine sep_mono ?_ (Entails.of_eq ?_)
  · rw [Pipeline.SharedFrame.arrays_eq_shares (P1.dat c) arr_whole1, bigSep_W1]
    unfold Pipeline.arrBufs
    rw [bigSep_eq_bigSepL_of_eq [main_arg1, main_arg0, main_v0, main_v1, main_v2, main_v3] (by decide) (by decide)]
    rw [share1_0, share1_1, share1_2, share1_3, share1_4, share1_5, share1_6, share1_7]
    rw [(P1.dat c).arrAt_in 0 rfl _, (P1.dat c).arrAt_in 1 rfl _, (P1.dat c).arrAt_in 2 rfl _, (P1.dat c).arrAt_in 3 rfl _,
      (P1.dat c).arrAt_in 4 rfl _, (P1.dat c).arrAt_in 5 rfl _, (P1.dat c).arrAt_in 6 rfl _]
    simp only [P1.A_eq, bigSepL_cons_cons, bigSepL_singleton]
    rw [V3_of_ne m ρ qL qR P0 P1 c main_arg1 (by decide), V3_of_ne m ρ qL qR P0 P1 c main_arg0 (by decide),
      V3_of_ne m ρ qL qR P0 P1 c main_v0 (by decide), V3_of_ne m ρ qL qR P0 P1 c main_v1 (by decide),
      V3_of_ne m ρ qL qR P0 P1 c main_v2 (by decide), V3_out m ρ qL qR P0 P1 c]
    show _ ⊢ iprop(_ ∗ _ ∗ _ ∗ _ ∗ _ ∗ _)
    iintro ⟨H1, H0l, H0r, Hv0l, Hv0r, Hv1, Hv2, Hv3⟩
    isplitl [H1]; · iexact H1
    isplitl [H0l H0r]
    · iapply (pointsTo_share hq).2; isplitl [H0l] <;> iassumption
    isplitl [Hv0l Hv0r]
    · iapply (pointsTo_share hq).2; isplitl [Hv0l] <;> iassumption
    isplitl [Hv1]; · iexact Hv1
    isplitl [Hv2]; · iexact Hv2
    iexact Hv3
  · unfold Pipeline.unscopedRest
    exact bigSep_congr fun b hb => by
      rw [V3_of_ne m ρ qL qR P0 P1 c b (fun e => (Finset.mem_sdiff.mp hb).2 (Finset.mem_image.mpr ⟨7, Finset.mem_univ _, e ▸ rfl⟩))]

end Run4

section Run5

variable (qL qR : PosShare TreeShare) (hq : fullShare ∈ PCS.op qL qR)
  (P0 : Pass0 (F := F) (V0 m ρ)) (P1 : Pass1 (F := F) qL qR (V2 m ρ P0))

/-- The last thread state without the `owes`: every unscoped buffer at the exit contents, the generator register at
    some state. -/
abbrev Tₙ (c : Dev nD) : sProp 𝕄 :=
  iprop(StableHlo.held (c : Thread nD τ) (Pipeline.ucRefs τ sig) (W3 m ρ qL qR P0 P1 c) ∗ ∃ r, prngReg c r)

include hq in
set_option backward.isDefEq.respectTransparency.types false in
/-- The aggregation pass over the thread state: entered with the degree vector, the transposed weights and the bias
    row in place, left with the result array at what the pass wrote. -/
def reg1 : Pipeline.RegionSeg (pcfgs (F := F)) adm (pdats m ρ qL qR P0 P1) () defs₀ 𝒱₀ L lv 1 where
  win := winFacts₀1
  block_pos := block_pos1
  stage_whole := stage_whole1
  K := PEmpty
  osem k := k.elim
  ho := Pipeline.OwnSemFacts.none _
  hbody c := (P1.body c).loose
  hwaits := Pipeline.hwaits_of_owed_zero _ _ _ _ L lv 1 fun c t => P1.owed c t
  pre c := iprop(StableHlo.held (c : Thread nD τ) (Pipeline.ucRefs τ sig) (W2 m ρ P0 c) ∗ R c)
  post c := iprop(Tₙ m ρ qL qR P0 P1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ P0 c)
  hentry c := by
    rw [Pipeline.ownSems0_none]
    iintro ⟨⟨Hub, Hp, HO⟩, -, -⟩
    ihave H := (entry1 m ρ qL qR hq P0 P1 c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ qL qR P0 P1 1 c).owed 0 = 0 from P1.owed c 0]
      icases HO with ⟨%W, HO⟩; iexists W; isplitr; · ipureintro; exact fun _ _ => Or.inl (by rw [show (pdats m ρ qL qR P0 P1 1 c).recorded 0 = Set.univ from P1.rec_univ c 0]; trivial)
      iexact HO
    isplitl [Hp]; · iexact Hp
    iexact Hrest
  hin c := by
    rw [show (pdats m ρ qL qR P0 P1 1 c).Φ 0 = (P1.dat c).Φ 0 from rfl]
    refine BIBase.Entails.trans ?_ (P1.hin c)
    unfold Pipeline.ΦA
    iintro ⟨Hp, -, Hr⟩
    isplitl [Hr]; · iexact Hr
    iexact Hp
  hout c := by
    rw [Pipeline.ownSems0_none]
    rw [show (pdats m ρ qL qR P0 P1 1 c).Φ (Fin.last _) = (P1.dat c).Φ (Fin.last cfg1.N) from rfl]
    refine (P1.hout c).trans ?_
    unfold Pipeline.ΦA
    iintro ⟨Hr, Hp⟩
    isplitl [Hp]; · iexact Hp
    isplitr; · iempintro
    iexact Hr
  hexit c := by
    have hjoin : iprop((pdats m ρ qL qR P0 P1 1 c).arrays ((pdats m ρ qL qR P0 P1 1 c).arrAt · cfg1.N)
          ∗ Pipeline.unscopedRest (Ix := Unit) (Name := ℕ) (U := UR sig nD τ) (Lvl := ℕ) spec1 c (V2 m ρ P0 c))
        ⊢ (StableHlo.held (c : Thread nD τ) (Pipeline.ucRefs τ sig) (W3 m ρ qL qR P0 P1 c) : sProp 𝕄) := exit1 m ρ qL qR hq P0 P1 c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ qL qR P0 P1 1 c).owed (Fin.last _) = 0 from P1.owed c _]
    icases HO with ⟨%W, -, HO⟩; iexists W; iexact HO

/-- @main's three segments in order. -/
abbrev segs : List (Pipeline.Seg (pcfgs (F := F)) adm (pdats m ρ qL qR P0 P1) () defs₀ 𝒱₀ L lv) :=
  [ .region (reg0 m ρ qL qR P0 P1),
    .host (hseg1 m ρ P0),
    .region (reg1 m ρ qL qR hq P0 P1) ]

theorem main_run (c : Dev nD) : main (F := F) c = Pipeline.Seg.run (segs m ρ qL qR hq P0 P1) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include hq in
set_option backward.isDefEq.respectTransparency.types false in
/-- THE RUN. From any memory with zero counters every weakly fair execution of @main terminates, nothing faulting,
    and every final state holds every unscoped buffer at the exit contents `W3`: the arguments as launched, the
    degree vector and the result array at what the two passes wrote. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ qL qR P0 P1 c b) :=
  Pipeline.θ_run_regions_kit (pcfgs (F := F)) adm (pdats m ρ qL qR P0 P1) () cellOf_inj emb₁ defs₀ 𝒱₀ L lv m ρ main (segs m ρ qL qR hq P0 P1)
    (fun c Q => by rw [main_run m ρ qL qR hq P0 P1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ qL qR P0 P1)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ qL qR P0 P1 c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ qL qR P0 P1 c) s')
      isplitl [Hh] <;> iassumption)
    (hQ := fun s h => h)

end Run5

end Cert.Kernel.Hand

end
-- ==== Proof.Bits.R0Runs.lean ====
/-
  The degree kernel (the first of the two pallas_calls), on its grid of 8 row blocks by 2 column blocks.
  A point is FIRST in its row block when its position is even (column block 0) and LAST when it is odd
  (column block 1); there is no other kind of point.  At a first point the scratch column is zeroed and then
  receives the row sums of the point's 1024 x 4096 block of the matrix; the output column is not touched and
  the pipeline does not write it back.  At a last point the scratch column, found as the first point of the
  same row block left it, receives the row sums of the second block added to it, and the output column is
  stored as rsqrt (scratch + 2).  This module holds the two conditions in closed form, the idle and
  write-back facts of the output window, and the body's triple in each of the two cases.
-/
import proofs.«175491_j9534827397796_2_alg».proof.Proof.Gen.Kernel.Skeleton
import proofs.«175491_j9534827397796_2_alg».proof.Proof.Gen.Kernel.Launch
import proofs.«175491_j9534827397796_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the contents of every buffer of the core when the region is entered: a parameter of everything below
variable (V : (c : Dev nD) → (b : Ref sig .tc) → Buf (Elt F) ((c : Thread nD τ).loc b))

/-! ## The blocks of the matrix -/

/-- Window `w`'s block at point `t`, cut out of its array as the region finds it. For window 0 this is the
    1024 x 4096 block of the matrix at row block `t / 2`, column block `t % 2`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The matrix window is fetched at every point and the body never stores into it, so at every point its
    current staging buffer holds the point's block, for any proof data whose array is the entry contents and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The two conditions of the body -/

/-- "This is the first column block": the condition under which the scratch column is zeroed. -/
abbrev cond0_0 (i : grid0.Coords) : Prop := (Scalar.cmpi .ne (Scalar.extui (Scalar.cmpi .eq (BitVec.ofNat 32 (i 1).val) 0#32)) 0#32) = 1#1
/-- It holds exactly at the even positions. -/
theorem hcond0_0 : ∀ t : Fin cfg0.N, cond0_0 (grid0.coords t) ↔ t.val % 2 = 0 :=
  (by decide +kernel : ∀ t : Fin grid0.N, cond0_0 (grid0.coords t) ↔ t.val % 2 = 0)

/-- "This is the last column block": the condition under which the output column is stored. -/
abbrev cond0_1 (i : grid0.Coords) : Prop := k0_cond2 i = 1#1
/-- It holds exactly at the odd positions. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the output window is idle, and where it is written back -/

/-- The matrix window is never idle. -/
theorem liveAt0_0 : ∀ t : Fin cfg0.N, cfg0.idle 0 (grid0.coords t) = false := by decide +kernel
/-- At a first point nothing is stored into the output column: the window is idle there, -/
theorem idleAt0_1_first : ∀ t : Fin cfg0.N, cond0_0 (grid0.coords t) → ¬cond0_1 (grid0.coords t) → cfg0.idle 1 (grid0.coords t) = true := by decide +kernel
/-- and its block is not written back there (the next point has the same row block). -/
theorem noFlush0_1_first : ∀ t : Fin cfg0.N, cond0_0 (grid0.coords t) → ¬cond0_1 (grid0.coords t) → (cfg0.win 1).flush t = false := by decide +kernel
/-- At a last point the output column is stored: the window is live. -/
theorem liveAt0_1_last : ∀ t : Fin cfg0.N, ¬cond0_0 (grid0.coords t) → cond0_1 (grid0.coords t) → cfg0.idle 1 (grid0.coords t) = false := by decide +kernel

/-! ## The memrefs the body is called with -/

/-- One staging buffer of the output window, through which its contents are stated. -/
abbrev VO0_1 : View sig .tc .vmem S1024x1 .f32 := (Memref.whole cc0_stg1_0 : Memref sig .tc .vmem S1024x1 .f32).view
/-- Each window's current staging memref at point `t`, as the pipeline passes it, and its wholeness. -/
abbrev ms0_0 (t : Fin cfg0.N) : Memref sig .tc .vmem S1024x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
/-- The scratch column: a whole scoped buffer of the kernel's own. -/
abbrev scM0_0 : Memref sig .tc .vmem S1024x1 .f32 := Memref.whole cc0_scratch0
/-- The same as a view: what the scratch holds is stated through it. -/
abbrev VS0_0 : View sig .tc .vmem S1024x1 .f32 := scM0_0.view

/-- The scoped buffers of the core that this kernel never touches (the other kernel's staging buffers and
    scratch), each at some contents: carried through every point unopened. -/
def rest0 (c : Dev nD) : sProp 𝕄 :=
  Pipeline.scopedRestBut (Ix := Unit) (Name := ℕ) (U := UR sig nD τ) (Lvl := ℕ) (Val := Elt F) spec0 c [cc0_scratch0]

/-- The invariant the launch hands the region: the scratch column at some contents, the untouched scoped
    buffers, and the generator register at some state. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0
  rw [Pipeline.scopedRest_split_of_list spec0 c [cc0_scratch0] (by decide) (by decide)]
  simp only [scM0_0, owns_whole]; try rfl

/-! ## The body's triple, case by case -/

set_option maxHeartbeats 1000000 in
/-- A FIRST point (the zeroing taken, the output store not taken).  On whole memrefs — the matrix block's
    at `x0`, the output column's at any `xi1`, the scratch column's at anything — the body runs to the
    continuation holding the matrix block as it was, the output column untouched at `xi1`, and the scratch
    column with the found pieces `LS0` written: first zeros, then the zeros read back plus the row sums of
    `x0`.  The output gets no piece. -/
noncomputable def kernelRun0_first (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x4096 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- A LAST point (the zeroing not taken, the output store taken).  On whole memrefs — the matrix block's at
    `x0`, the output column's at anything, the scratch column's at `xs0`, what the first point of the row
    block left — the body runs to the continuation holding the matrix block as it was, the scratch column
    with the pieces `LS0` written (`xs0` plus the row sums of `x0`) and the output column with the pieces
    `L1` written (rsqrt of that scratch plus 2). -/
noncomputable def kernelRun0_last (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x4096 .f32) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Hand

end
-- ==== Proof.Bits.R0Frame.lean ====
/-
  The degree kernel's region, point by point.  What the scratch column and the output column hold after each
  point is defined by recursion on the position: a first point (even position) restarts the row sums from
  zero, a last point (odd position) adds the second block's row sums to what the first point left and stores
  rsqrt (row sum + 2) into the output column.  From this the proof data of the pipeline, the body obligation
  at every point, and the two entailments between the launch's invariant and the region's.
-/
import proofs.«175491_j9534827397796_2_alg».proof.Proof.Bits.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back from the pieces the run found -/

/-- A first point stores nothing into the output column (the window is idle there and not written back):
    a placeholder nothing consults. -/
def out0_first_1 (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x4096 .f32) : Vec F S1024x1 .f32 :=
  VO0_1.read (Elt F) (VO0_1.writes (Elt F) VO0_1.junk (kernelRun0_first c i arg2 harg2 arg3 harg3 arg4 harg4 hc0 hc1 x0).1)

/-- The pieces a first point writes into the scratch column cover it. -/
theorem scover0_first_0 (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x4096 .f32) (y : S1024x1.Idx) :
    ∃ pc ∈ (kernelRun0_first c i arg2 harg2 arg3 harg3 arg4 harg4 hc0 hc1 x0).2.1, y ∈ pc.1.set :=
  View.cover_of_tiledL (kernelRun0_first c i arg2 harg2 arg3 harg3 arg4 harg4 hc0 hc1 x0).2.1 S1024x1.size (by sl_kernel_rfl) y

/-- What a first point leaves in the scratch column. -/
def sout0_first_0 (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x4096 .f32) : Vec F S1024x1 .f32 :=
  VS0_0.read (Elt F) (VS0_0.writes (Elt F) VS0_0.junk (kernelRun0_first c i arg2 harg2 arg3 harg3 arg4 harg4 hc0 hc1 x0).2.1)

/-- The one store of a last point into the output column covers it. -/
theorem cover0_last_1 (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x4096 .f32) (xs0 : Vec F S1024x1 .f32) (y : S1024x1.Idx) :
    ∃ pc ∈ (kernelRun0_last c i arg2 harg2 arg3 harg3 arg4 harg4 hc0 hc1 x0 xs0).1, y ∈ pc.1.set :=
  View.cover_of_tiledL (kernelRun0_last c i arg2 harg2 arg3 harg3 arg4 harg4 hc0 hc1 x0 xs0).1 S1024x1.size (by sl_kernel_rfl) y

/-- What a last point leaves in the output column's staging buffer. -/
def out0_last_1 (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x4096 .f32) (xs0 : Vec F S1024x1 .f32) : Vec F S1024x1 .f32 :=
  VO0_1.read (Elt F) (VO0_1.writes (Elt F) VO0_1.junk (kernelRun0_last c i arg2 harg2 arg3 harg3 arg4 harg4 hc0 hc1 x0 xs0).1)

/-- The one store of a last point into the scratch column covers it. -/
theorem scover0_last_0 (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x4096 .f32) (xs0 : Vec F S1024x1 .f32) (y : S1024x1.Idx) :
    ∃ pc ∈ (kernelRun0_last c i arg2 harg2 arg3 harg3 arg4 harg4 hc0 hc1 x0 xs0).2.1, y ∈ pc.1.set :=
  View.cover_of_tiledL (kernelRun0_last c i arg2 harg2 arg3 harg3 arg4 harg4 hc0 hc1 x0 xs0).2.1 S1024x1.size (by sl_kernel_rfl) y

/-- What a last point leaves in the scratch column. -/
def sout0_last_0 (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x4096 .f32) (xs0 : Vec F S1024x1 .f32) : Vec F S1024x1 .f32 :=
  VS0_0.read (Elt F) (VS0_0.writes (Elt F) VS0_0.junk (kernelRun0_last c i arg2 harg2 arg3 harg3 arg4 harg4 hc0 hc1 x0 xs0).2.1)

/-! ## The two kinds of point exclude each other -/

theorem notLast_of_even (t : Fin cfg0.N) (h0 : t.val % 2 = 0) : ¬cond0_1 (grid0.coords t) :=
  fun h => by have h1 := (hcond0_1 t).mp h; omega
theorem notFirst_of_odd (t : Fin cfg0.N) (h1 : t.val % 2 = 1) : ¬cond0_0 (grid0.coords t) :=
  fun h => by have h0 := (hcond0_0 t).mp h; omega

section Region0

variable (V : (c : Dev nD) → (b : Ref sig .tc) → Buf (Elt F) ((c : Thread nD τ).loc b))

/-! ## What the two columns hold after each point -/

/-- The output column and the scratch column after a first point `t`: the scratch restarted from zero on the
    point's block of the matrix. -/
def firstAt0 (c : Dev nD) (t : Fin cfg0.N) (h0 : t.val % 2 = 0) : Vec F S1024x1 .f32 × Vec F S1024x1 .f32 :=
  (out0_first_1 c (grid0.coords t) (ms0_0 t) (hs0_0 t) (ms0_1 t) (hs0_1 t) scM0_0 (Memref.isWhole_whole _) ((hcond0_0 t).mpr h0) (notLast_of_even t h0) (iblk0 V c 0 t),
   sout0_first_0 c (grid0.coords t) (ms0_0 t) (hs0_0 t) (ms0_1 t) (hs0_1 t) scM0_0 (Memref.isWhole_whole _) ((hcond0_0 t).mpr h0) (notLast_of_even t h0) (iblk0 V c 0 t))

/-- The output column and the scratch column after a last point `t` that found `xs0` in the scratch. -/
def lastAt0 (c : Dev nD) (t : Fin cfg0.N) (h1 : t.val % 2 = 1) (xs0 : Vec F S1024x1 .f32) : Vec F S1024x1 .f32 × Vec F S1024x1 .f32 :=
  (out0_last_1 c (grid0.coords t) (ms0_0 t) (hs0_0 t) (ms0_1 t) (hs0_1 t) scM0_0 (Memref.isWhole_whole _) (notFirst_of_odd t h1) ((hcond0_1 t).mpr h1) (iblk0 V c 0 t) xs0,
   sout0_last_0 c (grid0.coords t) (ms0_0 t) (hs0_0 t) (ms0_1 t) (hs0_1 t) scM0_0 (Memref.isWhole_whole _) (notFirst_of_odd t h1) ((hcond0_1 t).mpr h1) (iblk0 V c 0 t) xs0)

/-- THE ACCUMULATION: the output column's staging buffer and the scratch column after the body at position
    `n`.  An even position is a first point; an odd one is a last point and reads the scratch as the position
    before left it. -/
def outsAt0 (c : Dev nD) : (n : ℕ) → n < cfg0.N → Vec F S1024x1 .f32 × Vec F S1024x1 .f32
  | 0, hn => firstAt0 V c ⟨0, hn⟩ (Nat.zero_mod _)
  | n + 1, hn =>
    if h0 : (n + 1) % 2 = 0 then firstAt0 V c ⟨n + 1, hn⟩ h0
    else lastAt0 V c ⟨n + 1, hn⟩ (by show (n + 1) % 2 = 1; omega) (outsAt0 c n (Nat.lt_of_succ_lt hn)).2

/-- At a first point: the restart. -/
theorem outsAt0_first (c : Dev nD) (t : Fin cfg0.N) (h0 : t.val % 2 = 0) :
    outsAt0 V c t.val t.isLt = firstAt0 V c t h0 := by
  obtain ⟨n, hn⟩ := t
  cases n with
  | zero => rfl
  | succ n => exact dif_pos h0

/-- At a last point: one more block on top of what the point before left. -/
theorem outsAt0_last (c : Dev nD) (t : Fin cfg0.N) (h1 : t.val % 2 = 1) :
    outsAt0 V c t.val t.isLt = lastAt0 V c t h1 (outsAt0 V c (t.val - 1) (Nat.lt_of_le_of_lt (Nat.sub_le _ _) t.isLt)).2 := by
  obtain ⟨n, hn⟩ := t
  cases n with
  | zero => exact absurd (show 0 % 2 = 1 from h1) (by decide)
  | succ n => exact dif_neg (by dsimp only at h1; omega)

/-! ## The region's invariant -/

/-- Before position `n`: at the very start what the launch hands over; afterwards the scratch column at what
    the position before left in it, the untouched scoped buffers, and the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The pipeline's proof data -/

/-- The proof data of the degree kernel's pipeline on core `c`: the arrays as the region finds them; after
    the body at point `t` the matrix window's buffer at its block and the output window's at the first
    component of `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

/-- The proof data's arrays are the entry contents. -/
theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

/-- The matrix window's current staging buffer holds the point's block at every point. -/
theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point.  The matrix window's memref holds the point's block.  At an even position the first
    case's run applies: the scratch column is handed over at anything (at the very first point as the launch
    left it, later at the contents the row block before ended with, which are forgotten), the output column is
    handed back as found.  At an odd position the last case's run applies: the scratch column is handed over at
    what the position before left, and both columns come back with their pieces written, which cover them. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  by_cases h0 : t.val % 2 = 0
  · rw [Dat.leavesExact_idle (dat0 V c) 1 t (idleAt0_1_first t ((hcond0_0 t).mpr h0) (notLast_of_even t h0)) (noFlush0_1_first t ((hcond0_0 t).mpr h0) (notLast_of_even t h0))]
    rw [outsAt0_first V c t h0]
    unfold firstAt0 sout0_first_0; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩⟩
      iapply ((kernelRun0_first c (grid0.coords t) _ _ _ _ _ _ ((hcond0_0 t).mpr h0) (notLast_of_even t h0) (iblk0 V c 0 t)).2.2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_first_0 c _ _ _ _ _ _ _ _ _ _)
          iexact Hrest
        iexact Hg
      isplitl [Ho]; · iexact Ho
      isplitl [H0]; · iexact H0
      iexists _; iexact H1
    · rw [PhiS0_castSucc V c t, PhiS0_pos V c _ _ hz]
      iintro ⟨⟨⟨HS0, Hrest⟩, Hg⟩, Ho, ⟨%d0, H0⟩, ⟨%d1, H1⟩⟩
      iapply ((kernelRun0_first c (grid0.coords t) _ _ _ _ _ _ ((hcond0_0 t).mpr h0) (notLast_of_even t h0) (iblk0 V c 0 t)).2.2 _ Set.univ _)
      isplitl [H0]; · iexact H0
      isplitl [H1]; · iexact H1
      isplitl [HS0]; · iexists _; iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_first_0 c _ _ _ _ _ _ _ _ _ _)
          iexact Hrest
        iexact Hg
      isplitl [Ho]; · iexact Ho
      isplitl [H0]; · iexact H0
      iexists _; iexact H1
  · have h1 : t.val % 2 = 1 := by omega
    have hz : t.val ≠ 0 := by omega
    rw [show (dat0 V c).leavesExact 1 t = owns (c : Thread nD τ) (ms0_1 t) fullShare ((dat0 V c).after 1 t) from by
      unfold Dat.leavesExact; rw [liveAt0_1_last t (notFirst_of_odd t h1) ((hcond0_1 t).mpr h1)], after0_1]
    rw [outsAt0_last V c t h1]
    unfold lastAt0 out0_last_1 sout0_last_0; (try dsimp only)
    rw [PhiS0_castSucc V c t, PhiS0_pos V c _ _ hz]
    iintro ⟨⟨⟨HS0, Hrest⟩, Hg⟩, Ho, ⟨%d0, H0⟩, ⟨%d1, H1⟩⟩
    iapply ((kernelRun0_last c (grid0.coords t) _ _ _ _ _ _ (notFirst_of_odd t h1) ((hcond0_1 t).mpr h1) (iblk0 V c 0 t) _).2.2 Set.univ _)
    isplitl [H0]; · iexact H0
    isplitl [H1]; · iexists _; iexact H1
    isplitl [HS0]; · iexact HS0
    iintro ⟨H0, ⟨%e1, H1⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_last_0 c _ _ _ _ _ _ _ _ _ _ _)
        iexact Hrest
      iexact Hg
    isplitl [Ho]; · iexact Ho
    isplitl [H0]; · iexact H0
    unfold owns; iexists _; isplitr
    swap; · iexact H1
    ipureintro; exact View.read_writes_of_cover _ _ _ _ _ (cover0_last_1 c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the launch's back: what the scratch column holds is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Region0

end Cert.Kernel.Hand

end
-- ==== Proof.Bits.R1Runs.lean ====
/-
  Region 1 (the aggregation kernel on the grid of 8 row blocks by 4 column blocks): what its body triples are
  stated over. The two branch conditions of the body in closed form over the 32 grid points; where the output
  window is idle and where it is written back; the staging memrefs the body is called with at a point; the
  scratch accumulator as a memref and as a view; the region invariant with the accumulator singled out; each
  window's block at a point, read off the arrays as the region finds them (a parameter V); and the fact that
  every input window's current staging buffer holds its block at every point, fetched there or not.
-/
import proofs.«175491_j9534827397796_2_alg».proof.Proof.Gen.Kernel.Skeleton
import proofs.«175491_j9534827397796_2_alg».proof.Proof.Gen.Kernel.Launch
import proofs.«175491_j9534827397796_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The body's first branch (reset the accumulator to twice the scaled rows of the row block) is taken when the
    column-block coordinate is 0. -/
abbrev cond1_0 (i : grid1.Coords) : Prop := (Scalar.cmpi .ne (Scalar.extui (Scalar.cmpi .eq (BitVec.ofNat 32 (i 1).val) 0#32)) 0#32) = 1#1
/-- That is at the points ≡ 0 (mod 4): the first point of each row block's sweep. -/
theorem hcond1_0 : ∀ t : Fin cfg1.N, cond1_0 (grid1.coords t) ↔ t.val % 4 = 0 :=
  (by decide +kernel : ∀ t : Fin grid1.N, cond1_0 (grid1.coords t) ↔ t.val % 4 = 0)

/-- The body's second branch (scale, multiply by the transposed weights, add the bias, clamp at zero, store the
    output block) is taken when the column-block coordinate is 3. -/
abbrev cond1_1 (i : grid1.Coords) : Prop := k1_cond2 i = 1#1
/-- That is at the points ≡ 3 (mod 4): the last point of each row block's sweep. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle, and where the output is written back -/

/-- Window 0 is an input: never idle. -/
theorem liveAt1_0 : ∀ t : Fin cfg1.N, cfg1.idle 0 (grid1.coords t) = false := by decide +kernel
/-- Window 1 is an input: never idle. -/
theorem liveAt1_1 : ∀ t : Fin cfg1.N, cfg1.idle 1 (grid1.coords t) = false := by decide +kernel
/-- Window 2 is an input: never idle. -/
theorem liveAt1_2 : ∀ t : Fin cfg1.N, cfg1.idle 2 (grid1.coords t) = false := by decide +kernel
/-- Window 3 is an input: never idle. -/
theorem liveAt1_3 : ∀ t : Fin cfg1.N, cfg1.idle 3 (grid1.coords t) = false := by decide +kernel
/-- Window 4 is an input: never idle. -/
theorem liveAt1_4 : ∀ t : Fin cfg1.N, cfg1.idle 4 (grid1.coords t) = false := by decide +kernel
/-- Window 5 is an input: never idle. -/
theorem liveAt1_5 : ∀ t : Fin cfg1.N, cfg1.idle 5 (grid1.coords t) = false := by decide +kernel
/-- Window 6 is an input: never idle. -/
theorem liveAt1_6 : ∀ t : Fin cfg1.N, cfg1.idle 6 (grid1.coords t) = false := by decide +kernel

/-- At a point of a sweep that is not its last the output window is idle: the body stores nothing into it. -/
theorem idleAt1_7 : ∀ t : Fin cfg1.N, ¬cond1_1 (grid1.coords t) → cfg1.idle 7 (grid1.coords t) = true := by decide +kernel
/-- And there the pipeline does not write the output block back. -/
theorem noFlush1_7 : ∀ t : Fin cfg1.N, ¬cond1_1 (grid1.coords t) → (cfg1.win 7).flush t = false := by decide +kernel
/-- At the last point of a sweep the output window is live: the body stores its whole block. -/
theorem liveAt1_7 : ∀ t : Fin cfg1.N, cond1_1 (grid1.coords t) → cfg1.idle 7 (grid1.coords t) = false := by decide +kernel

/-! ## The memrefs the body is called with -/

/-- One staging buffer of the output window, through which its contents are stated (the choice does not matter). -/
abbrev VO1_7 : View sig .tc .vmem S1024x256 .f32 := (Memref.whole cc1_stg7_0 : Memref sig .tc .vmem S1024x256 .f32).view
/-- Each window's current staging memref at point t, spelled as the pipeline passes it, and its wholeness. -/
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x256 .f32 := win1_7.stage (cfg1.slots t 7)
abbrev hs1_7 (t : Fin cfg1.N) : (ms1_7 t).IsWhole := hstage1_7 ((cfg1.slots t 7).cast nbuf1_7)
/-- The accumulator: a whole scoped buffer of the kernel's own, passed beside the windows and carried from point
    to point. -/
abbrev scM1_0 : Memref sig .tc .vmem S1024x256 .f32 := Memref.whole cc1_scratch0
/-- The accumulator as a view: what it holds is stated through it. -/
abbrev VS1_0 : View sig .tc .vmem S1024x256 .f32 := scM1_0.view

/-- The region's invariant before its first point, the accumulator singled out as a memref owned at some
    contents: the scoped buffers that are no staging buffer of this region are the other region's four staging
    buffers and its accumulator (each at some contents, never touched here) and this region's accumulator; and
    the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The windows' blocks -/

section Blocks
variable (V : (c : Dev nD) → (b : Ref sig .tc) → Buf (Elt F) ((c : Thread nD τ).loc b))

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is V's and whose body leaves the block in place: where the window is not fetched its block
    index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is V's and whose body leaves the block in place: where the window is not fetched its block
    index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is V's and whose body leaves the block in place: where the window is not fetched its block
    index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is V's and whose body leaves the block in place: where the window is not fetched its block
    index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is V's and whose body leaves the block in place: where the window is not fetched its block
    index has not moved since the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is V's and whose body leaves the block in place: where the window is not fetched its block
    index has not moved since the point before. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is V's and whose body leaves the block in place: where the window is not fetched its block
    index has not moved since the point before. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.Kernel.Hand

end
-- ==== Proof.Bits.R1RunA.lean ====
/-
  Region 1, the body at the FIRST point of a row block's sweep (first branch taken, second not): the accumulator, found at anything, is set to twice the scaled rows of the row block and then the first column block's product is added; the output buffer is handed back untouched.
-/
import proofs.«175491_j9534827397796_2_alg».proof.Proof.Bits.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- the body at the FIRST point of a row block's sweep (first branch taken, second not): the accumulator, found at anything, is set to twice the scaled rows of the row block and then the first column block's product is added; the output buffer is handed back untouched. The body's stores, as pieces (last first) per buffer it stores into, with the proof that on whole
    staging memrefs holding the input blocks the body runs to the continuation holding the inputs as they were
    and each stored buffer with its pieces written. -/
noncomputable def kernelRun1_A (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : cond1_0 i) (hc1 : ¬cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) :
    Σ' (L7 : List (View.Piece (Elt F) S1024x256 .f32)), { LS0 : List (View.Piece (Elt F) S1024x256 .f32) //
      ∀ (xi7 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9 arg10 harg10) K } := by
  refine ⟨[], ?_, fun xi7 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.Kernel.Hand

end
-- ==== Proof.Bits.R1RunB.lean ====
/-
  Region 1, the body at a MIDDLE point of a row block's sweep (neither branch taken): the accumulator, found at what the point before left, has this column block's product added; the output buffer is handed back untouched.
-/
import proofs.«175491_j9534827397796_2_alg».proof.Proof.Bits.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- the body at a MIDDLE point of a row block's sweep (neither branch taken): the accumulator, found at what the point before left, has this column block's product added; the output buffer is handed back untouched. The body's stores, as pieces (last first) per buffer it stores into, with the proof that on whole
    staging memrefs holding the input blocks the body runs to the continuation holding the inputs as they were
    and each stored buffer with its pieces written. -/
noncomputable def kernelRun1_B (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : ¬cond1_0 i) (hc1 : ¬cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) (xs0 : Vec F S1024x256 .f32) :
    Σ' (L7 : List (View.Piece (Elt F) S1024x256 .f32)), { LS0 : List (View.Piece (Elt F) S1024x256 .f32) //
      ∀ (xi7 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9 arg10 harg10) K } := by
  refine ⟨[], ?_, fun xi7 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.Kernel.Hand

end
-- ==== Proof.Bits.R1RunC.lean ====
/-
  Region 1, the body at the LAST point of a row block's sweep (first branch not taken, second taken): the accumulator, found at what the point before left, has the last column block's product added, and the output buffer, found at anything, is stored whole from the finished accumulator.
-/
import proofs.«175491_j9534827397796_2_alg».proof.Proof.Bits.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- the body at the LAST point of a row block's sweep (first branch not taken, second taken): the accumulator, found at what the point before left, has the last column block's product added, and the output buffer, found at anything, is stored whole from the finished accumulator. The body's stores, as pieces (last first) per buffer it stores into, with the proof that on whole
    staging memrefs holding the input blocks the body runs to the continuation holding the inputs as they were
    and each stored buffer with its pieces written. -/
noncomputable def kernelRun1_C (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : ¬cond1_0 i) (hc1 : cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) (xs0 : Vec F S1024x256 .f32) :
    Σ' (L7 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9 arg10 harg10) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.Kernel.Hand

end
-- ==== Proof.Bits.R1Frame.lean ====
/-
  Region 1 (the aggregation kernel): its proof data and body obligation, at a parameter V for the buffer contents
  when the region is entered. Per control case, what the body's stores leave in the accumulator and in the output
  buffer; the pair (output buffer, accumulator) after each point, by recursion on the point; the invariant
  carrying the accumulator from point to point; the proof data; the body obligation by cases on the position
  modulo 4; and the entry and exit entailments of the invariant.
-/
import proofs.«175491_j9534827397796_2_alg».proof.Proof.Bits.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (qL qR : PosShare TreeShare)
variable (V : (c : Dev nD) → (b : Ref sig .tc) → Buf (Elt F) ((c : Thread nD τ).loc b))

/-! ## What each control case leaves in the accumulator and in the output buffer -/

/-- At the first point of a sweep the body's stores into the accumulator cover it (each is a store of the whole block). -/
theorem scover1_A_0 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : cond1_0 i) (hc1 : ¬cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) (y : S1024x256.Idx) :
    ∃ pc ∈ (kernelRun1_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5 x6).2.1 S1024x256.size (by sl_kernel_rfl) y

/-- What the accumulator holds after the first point of a sweep: the body's stores into it read back. -/
def sout1_A_0 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : cond1_0 i) (hc1 : ¬cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) : Vec F S1024x256 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4 x5 x6).2.1)

/-- At a middle point of a sweep the body's stores into the accumulator cover it (each is a store of the whole block). -/
theorem scover1_B_0 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : ¬cond1_0 i) (hc1 : ¬cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) (xs0 : Vec F S1024x256 .f32) (y : S1024x256.Idx) :
    ∃ pc ∈ (kernelRun1_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 x6 xs0).2.1 S1024x256.size (by sl_kernel_rfl) y

/-- What the accumulator holds after a middle point of a sweep: the body's stores into it read back. -/
def sout1_B_0 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : ¬cond1_0 i) (hc1 : ¬cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) (xs0 : Vec F S1024x256 .f32) : Vec F S1024x256 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 x5 x6 xs0).2.1)

/-- At the last point of a sweep the body's stores into the accumulator cover it (each is a store of the whole block). -/
theorem scover1_C_0 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : ¬cond1_0 i) (hc1 : cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) (xs0 : Vec F S1024x256 .f32) (y : S1024x256.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 x6 xs0).2.1 S1024x256.size (by sl_kernel_rfl) y

/-- What the accumulator holds after the last point of a sweep: the body's stores into it read back. -/
def sout1_C_0 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : ¬cond1_0 i) (hc1 : cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) (xs0 : Vec F S1024x256 .f32) : Vec F S1024x256 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 x5 x6 xs0).2.1)

/-- At the last point of a sweep the body's store into the output buffer covers its block. -/
theorem cover1_C_7 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : ¬cond1_0 i) (hc1 : cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) (xs0 : Vec F S1024x256 .f32) (y : S1024x256.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 x6 xs0).1 S1024x256.size (by sl_kernel_rfl) y

/-- What the output buffer holds after the last point of a sweep: the body's store into it read back. -/
def out1_C_7 (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : ¬cond1_0 i) (hc1 : cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) (xs0 : Vec F S1024x256 .f32) : Vec F S1024x256 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 hc0 hc1 x0 x1 x2 x3 x4 x5 x6 xs0).1)

/-- Where the output window is idle its contents after the body are not consulted (the block is neither written
    back there nor read at the next point): a placeholder. -/
def outIdle1_7 : Vec F S1024x256 .f32 := VO1_7.read (Elt F) VO1_7.junk

/-! ## What the output buffer and the accumulator hold after each point -/

/-- THE ACCUMULATION. After the body at position n, the pair (output staging buffer, accumulator): at the first
    point of a sweep the accumulator is reset from the row block and receives the first column block's product; at a
    middle point it receives that column block's product over what the point before left; at the last point it
    receives the last product and the output block is computed from it. The output component is a placeholder at
    the points where the window is idle. -/
def outsAt1 (c : Dev nD) : (n : ℕ) → n < cfg1.N → Vec F S1024x256 .f32 × Vec F S1024x256 .f32
  | 0, hn => (outIdle1_7, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 4 = 0 then
      (outIdle1_7, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 4 = 3 then
        (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)
      else
        (outIdle1_7, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)

/-- The pair at the first point of a sweep. -/
theorem outsAt1_A (c : Dev nD) (t : Fin cfg1.N) (h0 : t.val % 4 = 0) (h1 : ¬t.val % 4 = 3) :
    outsAt1 V c t.val t.isLt = (outIdle1_7, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans rfl

/-- The pair at a middle point of a sweep, over what the point before left in the accumulator. -/
theorem outsAt1_B (c : Dev nD) (t : Fin cfg1.N) (h0 : ¬t.val % 4 = 0) (h1 : ¬t.val % 4 = 3) :
    outsAt1 V c t.val t.isLt = (outIdle1_7, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The pair at the last point of a sweep, over what the point before left in the accumulator. -/
theorem outsAt1_C (c : Dev nD) (t : Fin cfg1.N) (h0 : ¬t.val % 4 = 0) (h1 : t.val % 4 = 3) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant between points -/

/-- Before position n: before the first point the invariant the region is entered with (every scoped buffer that is
    no staging buffer of this region at some contents, the generator register at some state); afterwards the same
    with the accumulator at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point n (before point n + 1): the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-! ## The region's proof data -/

/-- The proof data of region 1 on core c: the arrays as the region finds them (V); after the body at point t each
    input's buffer at its block and the output's at the pair's first component; the invariant PhiS1; nothing owed.
    The two windows reading the feature matrix, and the two reading the scaling vector, each hold their array at
    one of two shares qL, qR; every other window holds its array outright. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q w := match w with
    | ⟨0, _⟩ => fullShare
    | ⟨1, _⟩ => qL
    | ⟨2, _⟩ => qR
    | ⟨3, _⟩ => qL
    | ⟨4, _⟩ => qR
    | ⟨5, _⟩ => fullShare
    | ⟨6, _⟩ => fullShare
    | ⟨7, _⟩ => fullShare
  owed _ := 0

/-- The proof data's arrays are the region-entry contents. -/
theorem A_eq1 (c : Dev nD) (w : Fin cfg1.W) : (dat1 qL qR V c).A w = V c (Pipeline.arrRef spec1 w) := by
  dsimp only [dat1]

/-- The invariant at a point's start, restated at the point's position. -/
theorem PhiS1_castSucc (c : Dev nD) (t : Fin cfg1.N) :
    (dat1 qL qR V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 qL qR V c).after 0 t = iblk1 V c 0 t := by dsimp only [dat1]
theorem after1_1 (c : Dev nD) (t : Fin cfg1.N) : (dat1 qL qR V c).after 1 t = iblk1 V c 1 t := by dsimp only [dat1]
theorem after1_2 (c : Dev nD) (t : Fin cfg1.N) : (dat1 qL qR V c).after 2 t = iblk1 V c 2 t := by dsimp only [dat1]
theorem after1_3 (c : Dev nD) (t : Fin cfg1.N) : (dat1 qL qR V c).after 3 t = iblk1 V c 3 t := by dsimp only [dat1]
theorem after1_4 (c : Dev nD) (t : Fin cfg1.N) : (dat1 qL qR V c).after 4 t = iblk1 V c 4 t := by dsimp only [dat1]
theorem after1_5 (c : Dev nD) (t : Fin cfg1.N) : (dat1 qL qR V c).after 5 t = iblk1 V c 5 t := by dsimp only [dat1]
theorem after1_6 (c : Dev nD) (t : Fin cfg1.N) : (dat1 qL qR V c).after 6 t = iblk1 V c 6 t := by dsimp only [dat1]
theorem after1_7 (c : Dev nD) (t : Fin cfg1.N) : (dat1 qL qR V c).after 7 t = (outsAt1 V c t.val t.isLt).1 := by dsimp only [dat1]

/-- Each input's current staging buffer holds its block at every point, fetched there or not. -/
theorem before1_0 (c : Dev nD) (t : Fin cfg1.N) (d) : (dat1 qL qR V c).before 0 t d = iblk1 V c 0 t :=
  before1_0_of V (dat1 qL qR V c) (A_eq1 qL qR V c 0) (after1_0 qL qR V c) t d
theorem before1_1 (c : Dev nD) (t : Fin cfg1.N) (d) : (dat1 qL qR V c).before 1 t d = iblk1 V c 1 t :=
  before1_1_of V (dat1 qL qR V c) (A_eq1 qL qR V c 1) (after1_1 qL qR V c) t d
theorem before1_2 (c : Dev nD) (t : Fin cfg1.N) (d) : (dat1 qL qR V c).before 2 t d = iblk1 V c 2 t :=
  before1_2_of V (dat1 qL qR V c) (A_eq1 qL qR V c 2) (after1_2 qL qR V c) t d
theorem before1_3 (c : Dev nD) (t : Fin cfg1.N) (d) : (dat1 qL qR V c).before 3 t d = iblk1 V c 3 t :=
  before1_3_of V (dat1 qL qR V c) (A_eq1 qL qR V c 3) (after1_3 qL qR V c) t d
theorem before1_4 (c : Dev nD) (t : Fin cfg1.N) (d) : (dat1 qL qR V c).before 4 t d = iblk1 V c 4 t :=
  before1_4_of V (dat1 qL qR V c) (A_eq1 qL qR V c 4) (after1_4 qL qR V c) t d
theorem before1_5 (c : Dev nD) (t : Fin cfg1.N) (d) : (dat1 qL qR V c).before 5 t d = iblk1 V c 5 t :=
  before1_5_of V (dat1 qL qR V c) (A_eq1 qL qR V c 5) (after1_5 qL qR V c) t d
theorem before1_6 (c : Dev nD) (t : Fin cfg1.N) (d) : (dat1 qL qR V c).before 6 t d = iblk1 V c 6 t :=
  before1_6_of V (dat1 qL qR V c) (A_eq1 qL qR V c 6) (after1_6 qL qR V c) t d

/-! ## The body obligation, at a generic point -/

/-- What the body is called with at point t, the windows one by one, -/
def bodyPre1 (c : Dev nD) (t : Fin cfg1.N) : sProp 𝕄 :=
  iprop((dat1 qL qR V c).Φ t.castSucc ∗ (dat1 qL qR V c).owesAt () t.castSucc
    ∗ (∃ d, owns (c : Thread nD τ) (ms1_0 t) fullShare ((dat1 qL qR V c).before 0 t d))
    ∗ (∃ d, owns (c : Thread nD τ) (ms1_1 t) fullShare ((dat1 qL qR V c).before 1 t d))
    ∗ (∃ d, owns (c : Thread nD τ) (ms1_2 t) fullShare ((dat1 qL qR V c).before 2 t d))
    ∗ (∃ d, owns (c : Thread nD τ) (ms1_3 t) fullShare ((dat1 qL qR V c).before 3 t d))
    ∗ (∃ d, owns (c : Thread nD τ) (ms1_4 t) fullShare ((dat1 qL qR V c).before 4 t d))
    ∗ (∃ d, owns (c : Thread nD τ) (ms1_5 t) fullShare ((dat1 qL qR V c).before 5 t d))
    ∗ (∃ d, owns (c : Thread nD τ) (ms1_6 t) fullShare ((dat1 qL qR V c).before 6 t d))
    ∗ (∃ d, owns (c : Thread nD τ) (ms1_7 t) fullShare ((dat1 qL qR V c).before 7 t d)))

/-- and what it returns. -/
def bodyPost1 (c : Dev nD) (t : Fin cfg1.N) : sProp 𝕄 :=
  iprop((dat1 qL qR V c).Φ t.succ ∗ (dat1 qL qR V c).owesAt () t.succ
    ∗ (dat1 qL qR V c).leavesExact 0 t
    ∗ (dat1 qL qR V c).leavesExact 1 t
    ∗ (dat1 qL qR V c).leavesExact 2 t
    ∗ (dat1 qL qR V c).leavesExact 3 t
    ∗ (dat1 qL qR V c).leavesExact 4 t
    ∗ (dat1 qL qR V c).leavesExact 5 t
    ∗ (dat1 qL qR V c).leavesExact 6 t
    ∗ (dat1 qL qR V c).leavesExact 7 t)

set_option maxHeartbeats 4800000 in
/-- The body at any point. The inputs' memrefs hold their blocks; the position modulo 4 says which of the three
    control cases the point is in; the invariant hands the body the accumulator (at anything at the very first
    point, else at what the point before left) and takes it back at this point's contents; where the output window
    is idle its buffer is handed back as found, and at the last point of a sweep it is left at the block computed
    from the finished accumulator. Nothing is owed throughout. -/
theorem sound_body1 (c : Dev nD) (t : Fin cfg1.N) :
    bodyPre1 qL qR V c t ⊢ wp frame (wpE (defs₀ (F := F)) Variants.none c none) Set.univ (bodyAt1 t) (fun _ => bodyPost1 qL qR V c t) := by
  unfold bodyPre1 bodyPost1 bodyAt1
  simp only [before1_0, before1_1, before1_2, before1_3, before1_4, before1_5, before1_6]
  rw [show (dat1 qL qR V c).owesAt () t.succ = (dat1 qL qR V c).owesAt () t.castSucc from rfl]
  rw [show (dat1 qL qR V c).Φ t.succ = PhiS1 V c (t.val + 1) t.isLt from rfl, PhiS1_succ]
  rw [show (dat1 qL qR V c).leavesExact 0 t = owns (c : Thread nD τ) (ms1_0 t) fullShare ((dat1 qL qR V c).after 0 t) from by
    unfold Dat.leavesExact; rw [liveAt1_0 t], after1_0]
  rw [show (dat1 qL qR V c).leavesExact 1 t = owns (c : Thread nD τ) (ms1_1 t) fullShare ((dat1 qL qR V c).after 1 t) from by
    unfold Dat.leavesExact; rw [liveAt1_1 t], after1_1]
  rw [show (dat1 qL qR V c).leavesExact 2 t = owns (c : Thread nD τ) (ms1_2 t) fullShare ((dat1 qL qR V c).after 2 t) from by
    unfold Dat.leavesExact; rw [liveAt1_2 t], after1_2]
  rw [show (dat1 qL qR V c).leavesExact 3 t = owns (c : Thread nD τ) (ms1_3 t) fullShare ((dat1 qL qR V c).after 3 t) from by
    unfold Dat.leavesExact; rw [liveAt1_3 t], after1_3]
  rw [show (dat1 qL qR V c).leavesExact 4 t = owns (c : Thread nD τ) (ms1_4 t) fullShare ((dat1 qL qR V c).after 4 t) from by
    unfold Dat.leavesExact; rw [liveAt1_4 t], after1_4]
  rw [show (dat1 qL qR V c).leavesExact 5 t = owns (c : Thread nD τ) (ms1_5 t) fullShare ((dat1 qL qR V c).after 5 t) from by
    unfold Dat.leavesExact; rw [liveAt1_5 t], after1_5]
  rw [show (dat1 qL qR V c).leavesExact 6 t = owns (c : Thread nD τ) (ms1_6 t) fullShare ((dat1 qL qR V c).after 6 t) from by
    unfold Dat.leavesExact; rw [liveAt1_6 t], after1_6]
  have hN : t.val < 32 := lt_of_lt_of_eq t.isLt (show cfg1.N = 32 from N_1)
  by_cases h0 : t.val % 4 = 0
  · have h1 : ¬t.val % 4 = 3 := by omega
    rw [Dat.leavesExact_idle (dat1 qL qR V c) 7 t (idleAt1_7 t (fun h => h1 ((hcond1_1 t).mp h))) (noFlush1_7 t (fun h => h1 ((hcond1_1 t).mp h)))]
    rw [outsAt1_A V c t h0 h1]
    unfold sout1_A_0; (try dsimp only)
    by_cases hz : t.val = 0
    · rw [PhiS1_castSucc qL qR V c t, PhiS1_zero V c _ _ hz, PhiA1_eq]
      iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_A_0 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS1_castSucc qL qR V c t, PhiS1_pos V c _ _ hz]
      iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      iintro ⟨H0, H1, H2, H3, H4, H5, H6, H7, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_A_0 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    by_cases h1 : t.val % 4 = 3
    · rw [show (dat1 qL qR V c).leavesExact 7 t = owns (c : Thread nD τ) (ms1_7 t) fullShare ((dat1 qL qR V c).after 7 t) from by
        unfold Dat.leavesExact; rw [liveAt1_7 t ((hcond1_1 t).mpr h1)], after1_7]
      rw [outsAt1_C V c t h0 h1]
      unfold out1_C_7 sout1_C_0; (try dsimp only)
      rw [PhiS1_castSucc qL qR V c t, PhiS1_pos V c _ _ hz]
      iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_C_7 c _ _ _ _ _ _ _ _ _ _ _ _ _ _ _ _ _ _ _ _ _ _ _ _ _ _ _ _ _)
    · rw [Dat.leavesExact_idle (dat1 qL qR V c) 7 t (idleAt1_7 t (fun h => h1 ((hcond1_1 t).mp h))) (noFlush1_7 t (fun h => h1 ((hcond1_1 t).mp h)))]
      rw [outsAt1_B V c t h0 h1]
      unfold sout1_B_0; (try dsimp only)
      rw [PhiS1_castSucc qL qR V c t, PhiS1_pos V c _ _ hz]
      iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) qL qR V c) (defs₀ (F := F)) Variants.none () Set.univ := fun t => by
  rw [bigSep_W1, bigSep_W1]
  exact sound_body1 qL qR V c t

/-- What the region is entered with is the invariant before the first point. -/
theorem hin1 (c : Dev nD) : Pipeline.ΦA spec1 c ⊢ (dat1 qL qR V c).Φ 0 := by
  rw [show (dat1 qL qR V c).Φ 0 = PhiS1 V c 0 (Nat.zero_le _) from rfl, PhiS1_zero V c 0 _ rfl]
  try exact Idealize.SL.BI.Entails.refl _

/-- After any point but the first the invariant gives the entry invariant back: what the accumulator holds is
    forgotten. -/
theorem Phi_out1 (c : Dev nD) (t : Fin (cfg1.N + 1)) (ht : t.val ≠ 0) : (dat1 qL qR V c).Φ t ⊢ Pipeline.ΦA spec1 c := by
  rw [show (dat1 qL qR V c).Φ t = PhiS1 V c t.val (Nat.le_of_lt_succ t.isLt) from rfl, PhiS1_pos V c _ _ ht, PhiA1_eq]
  iintro ⟨⟨Ha, Hb, Hc, Hd, He, HS0⟩, Hg⟩
  isplitl [Ha Hb Hc Hd He HS0]
  · isplitl [Ha]; · iexact Ha
    isplitl [Hb]; · iexact Hb
    isplitl [Hc]; · iexact Hc
    isplitl [Hd]; · iexact Hd
    isplitl [He]; · iexact He
    iexists _; iexact HS0
  iexact Hg

/-- The same after the last point. -/
theorem hout1 (c : Dev nD) : (dat1 qL qR V c).Φ (Fin.last cfg1.N) ⊢ Pipeline.ΦA spec1 c :=
  Phi_out1 qL qR V c _ (by rw [Fin.val_last]; have : cfg1.N = 32 := N_1; omega)

end Region1

end Cert.Kernel.Hand

end
-- ==== Proof.Bits.Inst.lean ====
/-
  The two passes' proof data put into the run: the degree pass at the launch contents, the aggregation pass at the
  contents the degree pass and the two host lines leave; the node features and the degree vector, which the
  aggregation pass reads through two windows each, are dealt to those windows in the two halves of the full share.
  What every final state holds follows: each argument as launched (the frame), the result array at what the
  aggregation pass wrote back.
-/
import proofs.«175491_j9534827397796_2_alg».proof.Proof.Bits.Asm
import proofs.«175491_j9534827397796_2_alg».proof.Proof.Bits.R0Frame
import proofs.«175491_j9534827397796_2_alg».proof.Proof.Bits.R1Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two halves of the full share. -/
def qL : PosShare TreeShare := PosShare.left fullShare
def qR : PosShare TreeShare := PosShare.right fullShare
theorem hq : fullShare ∈ PCS.op qL qR := PosShare.mem_left_op_right fullShare

/-- The degree pass's proof data as the assembly takes it. -/
def pass0 (V : (c : Dev nD) → (b : Ref sig .tc) → Buf (Elt F) ((c : Thread nD τ).loc b)) : Pass0 (F := F) V where
  dat := dat0 V
  A_eq := A_eq0 V
  body := body_obligation0 V
  hin := hin0 V
  hout := hout0 V
  owed := fun _ _ => rfl
  share := fun c => (dat0 V c).share_full fun _ => rfl
  rec_univ := fun _ _ => rfl

/-- The aggregation pass's proof data as the assembly takes it. -/
def pass1 (V : (c : Dev nD) → (b : Ref sig .tc) → Buf (Elt F) ((c : Thread nD τ).loc b)) : Pass1 (F := F) qL qR V where
  dat := dat1 qL qR V
  A_eq := A_eq1 qL qR V
  body := body_obligation1 qL qR V
  hin := hin1 qL qR V
  hout := hout1 qL qR V
  owed := fun _ _ => rfl
  q0 := fun _ => rfl
  q1 := fun _ => rfl
  q2 := fun _ => rfl
  q3 := fun _ => rfl
  q4 := fun _ => rfl
  q5 := fun _ => rfl
  q6 := fun _ => rfl
  rec_univ := fun _ _ => rfl

variable (m : (ℓ : Loc nD τ sig) → Buf (Elt F) ℓ) (ρ : Dev nD → PrngReg)

abbrev P0m : Pass0 (F := F) (V0 m ρ) := pass0 (V0 m ρ)
abbrev P1m : Pass1 (F := F) qL qR (V2 m ρ (P0m m ρ)) := pass1 (V2 m ρ (P0m m ρ))
/-- The exit contents of the run. -/
abbrev Wend : Dev nD → Valuation τ sig (Elt F) := W3 m ρ qL qR (P0m m ρ) (P1m m ρ)

theorem run : θ_run defs (onTc (τ := τ) (main (F := F))) ⟨m, fun _ => 0, ρ⟩ (fun r => ∀ c : Dev nD,
      ∀ b ∈ Pipeline.ucRefs τ sig, r.2.mem (((c : Thread nD τ)).1, b) = Wend m ρ c b) :=
  run_main m ρ qL qR hq (P0m m ρ) (P1m m ρ)

/-! ## The exit contents read back -/

/-- A buffer the host lines do not write and no window of the degree pass stages is as launched at the aggregation
    pass's entry. -/
theorem V2_of_rest (c : Dev nD) (b : Ref sig .tc) (h1 : b ∉ hostOps1_W) (h0 : ∀ w, Pipeline.arrRef spec0 w ≠ b) :
    V2 m ρ (P0m m ρ) c b = m ((c : Thread nD τ).loc b) :=
  (StableHlo.after_of_writes_sub hostOps1 _ hostOps1_writes h1).trans (W1_of_ne m ρ (P0m m ρ) c b h0)

/-- The adjacency matrix, which the degree pass reads through its input window, too. -/
theorem V2_main_arg1 (c : Dev nD) : V2 m ρ (P0m m ρ) c main_arg1 = m ((c : Thread nD τ).loc main_arg1) :=
  (StableHlo.after_of_writes_sub hostOps1 _ hostOps1_writes (by decide : main_arg1 ∉ hostOps1_W)).trans
    ((W1_arr m ρ (P0m m ρ) c 0).trans ((((P0m m ρ).dat c).arrAt_in 0 rfl _).trans ((P0m m ρ).A_eq c 0)))

/-- The degree vector at the aggregation pass's entry is what the degree pass wrote back. -/
theorem V2_main_v0 (c : Dev nD) : V2 m ρ (P0m m ρ) c main_v0 = (dat0 (V0 m ρ) c).arrAt 1 cfg0.N :=
  (StableHlo.after_of_writes_sub hostOps1 _ hostOps1_writes (by decide : main_v0 ∉ hostOps1_W)).trans (W1_arr m ρ (P0m m ρ) c 1)

theorem Wend_arg0 (c : Dev nD) : Wend m ρ c (Proc.devRef .tc main_arg0) = m ((c : Thread nD τ).loc main_arg0) :=
  (V3_of_ne m ρ qL qR (P0m m ρ) (P1m m ρ) c main_arg0 (by decide)).trans (V2_of_rest m ρ c main_arg0 (by decide) (by decide))
theorem Wend_arg1 (c : Dev nD) : Wend m ρ c (Proc.devRef .tc main_arg1) = m ((c : Thread nD τ).loc main_arg1) :=
  (V3_of_ne m ρ qL qR (P0m m ρ) (P1m m ρ) c main_arg1 (by decide)).trans (V2_main_arg1 m ρ c)
theorem Wend_arg2 (c : Dev nD) : Wend m ρ c (Proc.devRef .tc main_arg2) = m ((c : Thread nD τ).loc main_arg2) :=
  (V3_of_ne m ρ qL qR (P0m m ρ) (P1m m ρ) c main_arg2 (by decide)).trans (V2_of_rest m ρ c main_arg2 (by decide) (by decide))
theorem Wend_arg3 (c : Dev nD) : Wend m ρ c (Proc.devRef .tc main_arg3) = m ((c : Thread nD τ).loc main_arg3) :=
  (V3_of_ne m ρ qL qR (P0m m ρ) (P1m m ρ) c main_arg3 (by decide)).trans (V2_of_rest m ρ c main_arg3 (by decide) (by decide))
theorem Wend_out (c : Dev nD) : Wend m ρ c (Proc.devRef .tc main_v3) = (dat1 qL qR (V2 m ρ (P0m m ρ)) c).arrAt 7 cfg1.N :=
  V3_out m ρ qL qR (P0m m ρ) (P1m m ρ) c

/-- THE FRAME, with the result array named: every weakly fair execution terminates, nothing faulting, the arguments end
    as launched and the result array holds what the aggregation pass wrote back. -/
theorem run_named : θ_run defs (onTc (τ := τ) (main (F := F))) ⟨m, fun _ => 0, ρ⟩ (fun r => ∀ c : Dev nD,
      r.2.mem ((c.tc : Thread nD τ).loc main_v3) = (dat1 qL qR (V2 m ρ (P0m m ρ)) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v3 (by decide))).trans (Wend_out m ρ c),
     (h c _ (mem_uc main_arg0 (by decide))).trans (Wend_arg0 m ρ c),
     (h c _ (mem_uc main_arg1 (by decide))).trans (Wend_arg1 m ρ c),
     (h c _ (mem_uc main_arg2 (by decide))).trans (Wend_arg2 m ρ c),
     (h c _ (mem_uc main_arg3 (by decide))).trans (Wend_arg3 m ρ c)⟩) (run m ρ)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_named m ρ)

end Cert.Kernel.Hand

end
-- ==== Proof.KHost.lean ====
/-
  The two host lines between the passes, read at an index: the weights transposed (entry (k, o) of the buffer is entry
  (o, k) of W) and the bias laid out as one row.
-/
import proofs.«175491_j9534827397796_2_alg».proof.Proof.Inst
import Idealize.ShloMosaic.Lib.Pipeline.Value
import Idealize.ShloMosaic.Lib.ValueIdx
import Idealize.ShloMosaic.Lib.StableHlo.Run

set_option maxRecDepth 16384

noncomputable section

namespace Cert.KVal

open Cert.KernelIdeal Cert.KernelIdeal.Gen Cert.KernelIdeal.Hand
open Idealize.ShloMosaic Idealize.ShloMosaic.TcCoe Idealize.ShloMosaic.ValueIdx
open Idealize.SL Idealize.SL.Sem Idealize.ShloMosaic.StableHlo

variable {F : FTy → Type} [FloatOps F]
variable (m : (ℓ : Loc nD τ sig) → Buf (Elt F) ℓ) (ρ : Dev nD → PrngReg)

/-- The transposed weights at the aggregation pass's entry. -/
theorem V2_main_v1 (c : Dev nD) :
    V2 m ρ (P0m m ρ) c main_v1 = transpose S256x256 [1, 0] (m ((c : Thread nD τ).loc main_arg2)) transposes_S256x256_S256x256_1_0 := by
  show StableHlo.after hostOps1 (W1 m ρ (P0m m ρ) c) (Proc.devRef .tc main_v1) = _
  after_results
  rw [W1_of_ne m ρ (P0m m ρ) c main_arg2 (by decide)]

/-- The bias as a row at the aggregation pass's entry. -/
theorem V2_main_v2 (c : Dev nD) :
    V2 m ρ (P0m m ρ) c main_v2 = shapeCast S1x256 (m ((c : Thread nD τ).loc main_arg3)) shapeCasts_S256_S1x256 := by
  show StableHlo.after hostOps1 (W1 m ρ (P0m m ρ) c) (Proc.devRef .tc main_v2) = _
  after_results
  rw [W1_of_ne m ρ (P0m m ρ) c main_arg3 (by decide)]
  rfl

/-- Entry (k, o) of the transposed weights is entry (o, k) of the weights. -/
theorem V2_main_v1_apply (c : Dev nD) (k o : Fin 256) :
    V2 m ρ (P0m m ρ) c main_v1 (ix2 k o) = m ((c : Thread nD τ).loc main_arg2) (ix2 o k) := by
  rw [V2_main_v1]
  exact transpose_apply [1, 0] _ transposes_S256x256_S256x256_1_0 (ix2 k o) (ix2 o k) (fun b => match b with
    | ⟨0, _⟩ => rfl
    | ⟨1, _⟩ => rfl)

/-- Entry (0, o) of the bias row is entry o of the bias. -/
theorem V2_main_v2_apply (c : Dev nD) (o : Fin 256) :
    V2 m ρ (P0m m ρ) c main_v2 (ix2 0 o) = m ((c : Thread nD τ).loc main_arg3) (ix1 o) := by
  rw [V2_main_v2]
  refine (shapeCast_addUnit_apply ![256] _ shapeCasts_S256_S1x256 (ix2 0 o)).trans ?_
  exact congrArg _ (funext fun a => match a with | ⟨0, _⟩ => rfl)

/-- The node features at the aggregation pass's entry are as launched. -/
theorem V2_main_arg0 (c : Dev nD) : V2 m ρ (P0m m ρ) c main_arg0 = m ((c : Thread nD τ).loc main_arg0) :=
  V2_of_rest m ρ c main_arg0 (by decide) (by decide)

end Cert.KVal

end
-- ==== Proof.R0Pieces.lean ====
/-
  What the degree kernel's stores leave, through its three payloads.  After a first point the scratch column
  is the row sums of the point's block added to zeros; after a last point it is what it held before plus the
  row sums of the point's block, and the output column is rsqrt (that scratch + 2).  First for the pieces of
  each case on any memrefs, then for the two columns after each point of the grid.
-/
import proofs.«175491_j9534827397796_2_alg».proof.Proof.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each found piece is -/

/-- The zero offsets of a whole-column (or whole-block) access, as a constant function. -/
theorem off00 : (![0, 0] : Fin 2 → Nat) = fun _ => 0 := by
  funext a; fin_cases a <;> rfl

/-- After a first point the scratch column holds the row sums of the point's block added to zeros: the
    zeroing store is read back whole by the load that follows it, and the accumulating store, the last one,
    covers the column. -/
theorem sout0_first_0_eq (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i) (x0 : Vec F S1024x4096 .f32) :
    sout0_first_0 c i arg2 harg2 arg3 harg3 arg4 harg4 hc0 hc1 x0 = k0_pay2 (k0_pay1 (F := F)) x0 := by
  unfold sout0_first_0
  rw [View.read_writes_eq_canon _ _ _ (scover0_first_0 c i arg2 harg2 arg3 harg3 arg4 harg4 hc0 hc1 x0)]
  unfold kernelRun0_first
  dsimp only
  sl_unfold_words
  rw [View.canon_cons_unit_zero off00, View.readCov_unit_zero _ off00]
  simp only [View.readAt_eq_ld, harg2.read_unread, View.ld_unit_zero (S := S1024x4096) off00]

/-- After a last point the scratch column holds what it held before plus the row sums of the point's block. -/
theorem sout0_last_0_eq (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i) (x0 : Vec F S1024x4096 .f32) (xs0 : Vec F S1024x1 .f32) :
    sout0_last_0 c i arg2 harg2 arg3 harg3 arg4 harg4 hc0 hc1 x0 xs0 = k0_pay2 xs0 x0 := by
  unfold sout0_last_0
  rw [View.read_writes_eq_canon _ _ _ (scover0_last_0 c i arg2 harg2 arg3 harg3 arg4 harg4 hc0 hc1 x0 xs0)]
  unfold kernelRun0_last
  dsimp only
  sl_unfold_words
  rw [View.canon_unit_zero off00]
  simp only [View.readAt_eq_ld, harg2.read_unread, harg4.read_unread, View.ld_unit_zero (S := S1024x4096) off00, View.ld_unit_zero (S := S1024x1) off00]

/-- After a last point the output column holds rsqrt (scratch + 2) of the scratch column as that point
    leaves it: the load before the output store reads the accumulating store back whole. -/
theorem out0_last_1_eq (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i) (x0 : Vec F S1024x4096 .f32) (xs0 : Vec F S1024x1 .f32) :
    out0_last_1 c i arg2 harg2 arg3 harg3 arg4 harg4 hc0 hc1 x0 xs0 = k0_pay3 (k0_pay2 xs0 x0) := by
  unfold out0_last_1
  rw [View.read_writes_eq_canon _ _ _ (cover0_last_1 c i arg2 harg2 arg3 harg3 arg4 harg4 hc0 hc1 x0 xs0)]
  unfold kernelRun0_last
  dsimp only
  sl_unfold_words
  rw [View.canon_unit_zero off00, View.readCov_unit_zero _ off00]
  simp only [View.readAt_eq_ld, harg2.read_unread, harg4.read_unread, View.ld_unit_zero (S := S1024x4096) off00, View.ld_unit_zero (S := S1024x1) off00]

/-- The same through the scratch column the point leaves. -/
theorem out0_last_1_eq_scratch (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i) (x0 : Vec F S1024x4096 .f32) (xs0 : Vec F S1024x1 .f32) :
    out0_last_1 c i arg2 harg2 arg3 harg3 arg4 harg4 hc0 hc1 x0 xs0 = k0_pay3 (sout0_last_0 c i arg2 harg2 arg3 harg3 arg4 harg4 hc0 hc1 x0 xs0) := by
  rw [out0_last_1_eq, sout0_last_0_eq]

section Region0Values

variable (V : (c : Dev nD) → (b : Ref sig .tc) → Buf (Elt F) ((c : Thread nD τ).loc b))

/-! ## The two columns after each point, through the payloads -/

/-- After a first point the scratch column is the row sums of that point's block of the matrix, added to zeros. -/
theorem outsAt0_first_scratch (c : Dev nD) (t : Fin cfg0.N) (h0 : t.val % 2 = 0) :
    (outsAt0 V c t.val t.isLt).2 = k0_pay2 (k0_pay1 (F := F)) (iblk0 V c 0 t) := by
  rw [outsAt0_first V c t h0]; unfold firstAt0; dsimp only
  exact sout0_first_0_eq c (grid0.coords t) (ms0_0 t) (hs0_0 t) (ms0_1 t) (hs0_1 t) scM0_0 (Memref.isWhole_whole _) ((hcond0_0 t).mpr h0) (notLast_of_even t h0) (iblk0 V c 0 t)

/-- After a last point the scratch column is what the point before left plus the row sums of this point's block. -/
theorem outsAt0_last_scratch (c : Dev nD) (t : Fin cfg0.N) (h1 : t.val % 2 = 1) :
    (outsAt0 V c t.val t.isLt).2
      = k0_pay2 (outsAt0 V c (t.val - 1) (Nat.lt_of_le_of_lt (Nat.sub_le _ _) t.isLt)).2 (iblk0 V c 0 t) := by
  rw [outsAt0_last V c t h1]; unfold lastAt0; dsimp only
  exact sout0_last_0_eq c (grid0.coords t) (ms0_0 t) (hs0_0 t) (ms0_1 t) (hs0_1 t) scM0_0 (Memref.isWhole_whole _) (notFirst_of_odd t h1) ((hcond0_1 t).mpr h1) (iblk0 V c 0 t)
    (outsAt0 V c (t.val - 1) (Nat.lt_of_le_of_lt (Nat.sub_le _ _) t.isLt)).2

/-- After a last point the output column is rsqrt (scratch + 2) of the scratch column the point leaves. -/
theorem outsAt0_last_out (c : Dev nD) (t : Fin cfg0.N) (h1 : t.val % 2 = 1) :
    (outsAt0 V c t.val t.isLt).1
      = k0_pay3 (k0_pay2 (outsAt0 V c (t.val - 1) (Nat.lt_of_le_of_lt (Nat.sub_le _ _) t.isLt)).2 (iblk0 V c 0 t)) := by
  rw [outsAt0_last V c t h1]; unfold lastAt0; dsimp only
  exact out0_last_1_eq c (grid0.coords t) (ms0_0 t) (hs0_0 t) (ms0_1 t) (hs0_1 t) scM0_0 (Memref.isWhole_whole _) (notFirst_of_odd t h1) ((hcond0_1 t).mpr h1) (iblk0 V c 0 t)
    (outsAt0 V c (t.val - 1) (Nat.lt_of_le_of_lt (Nat.sub_le _ _) t.isLt)).2

end Region0Values

end Cert.KernelIdeal.Hand

end
-- ==== Proof.R0Value.lean ====
/-
  One row block of the degree kernel, its two points unrolled.  A row block is a first point (even position)
  followed by a last point (odd position).  After the last point the scratch column holds
  zeros + row sums of the first column block + row sums of the second column block, and the output column
  holds rsqrt of that plus 2: the value the pipeline writes back, exactly at the odd positions.
-/
import proofs.«175491_j9534827397796_2_alg».proof.Proof.R0Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0Unrolled

variable (V : (c : Dev nD) → (b : Ref sig .tc) → Buf (Elt F) ((c : Thread nD τ).loc b))

/-- The position before an odd position is even. -/
theorem even_pred_of_odd (t : Fin cfg0.N) (h1 : t.val % 2 = 1) : (t.val - 1) % 2 = 0 := by omega

/-- The scratch column when a last point is entered: the first point of the same row block restarted it on
    its own block. -/
theorem outsAt0_prev_scratch (c : Dev nD) (t : Fin cfg0.N) (h1 : t.val % 2 = 1) :
    (outsAt0 V c (t.val - 1) (Nat.lt_of_le_of_lt (Nat.sub_le _ _) t.isLt)).2
      = k0_pay2 (k0_pay1 (F := F)) (iblk0 V c 0 ⟨t.val - 1, Nat.lt_of_le_of_lt (Nat.sub_le _ _) t.isLt⟩) :=
  outsAt0_first_scratch V c ⟨t.val - 1, Nat.lt_of_le_of_lt (Nat.sub_le _ _) t.isLt⟩ (even_pred_of_odd t h1)

/-- The scratch column after a last point: zeros, plus the row sums of the two column blocks in order. -/
theorem outsAt0_rowBlock_scratch (c : Dev nD) (t : Fin cfg0.N) (h1 : t.val % 2 = 1) :
    (outsAt0 V c t.val t.isLt).2
      = k0_pay2 (k0_pay2 (k0_pay1 (F := F)) (iblk0 V c 0 ⟨t.val - 1, Nat.lt_of_le_of_lt (Nat.sub_le _ _) t.isLt⟩)) (iblk0 V c 0 t) := by
  rw [outsAt0_last_scratch V c t h1, outsAt0_prev_scratch V c t h1]

/-- The output column after a last point: rsqrt (row sums of the whole row block + 2). -/
theorem outsAt0_rowBlock (c : Dev nD) (t : Fin cfg0.N) (h1 : t.val % 2 = 1) :
    (outsAt0 V c t.val t.isLt).1
      = k0_pay3 (k0_pay2 (k0_pay2 (k0_pay1 (F := F)) (iblk0 V c 0 ⟨t.val - 1, Nat.lt_of_le_of_lt (Nat.sub_le _ _) t.isLt⟩)) (iblk0 V c 0 t)) := by
  rw [outsAt0_last_out V c t h1, outsAt0_prev_scratch V c t h1]

/-- The same as what the proof data says the output window's buffer holds after the body at an odd position:
    what the write-back there writes. -/
theorem after0_1_rowBlock (c : Dev nD) (t : Fin cfg0.N) (h1 : t.val % 2 = 1) :
    (dat0 V c).after 1 t
      = k0_pay3 (k0_pay2 (k0_pay2 (k0_pay1 (F := F)) (iblk0 V c 0 ⟨t.val - 1, Nat.lt_of_le_of_lt (Nat.sub_le _ _) t.isLt⟩)) (iblk0 V c 0 t)) := by
  rw [after0_1 V c t]; exact outsAt0_rowBlock V c t h1

end Region0Unrolled

end Cert.KernelIdeal.Hand

end
-- ==== Proof.KPayLib.lean ====
/-
  Layout operations and contractions read at an index written by its coordinates, for the shapes the two
  kernel bodies use: a vector cast to a column, a column repeated across the columns of a matrix, the sum of
  a matrix along its rows, and a rows-by-columns matrix product accumulated into zero, read at (p, e) as the
  plain sum over the contracted coordinate.
-/
import Idealize.ShloMosaic.PureOps.Ideal.Laws
import Idealize.ShloMosaic.Lib.ValueIdx
import Idealize.ShloMosaic.Lib.Pipeline.Value
import Idealize.ShloMosaic.Lib.ValueLayout

noncomputable section

namespace Cert.KVal

open Idealize.ShloMosaic Idealize.ShloMosaic.ValueIdx

variable {α : Type}

/-- A vector of `a` entries cast to a column `[a, 1]` reads, at `(p, z)`, the entry `p`. -/
theorem cast_col_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_one, Shape.rowMajor_val_two]
    show p.val = p.val * 1 + z.val
    rw [hz, Nat.mul_one, Nat.add_zero])

/-- A column `[a, 1]` repeated across `b` columns reads, at `(p, c)`, the column's entry `p`. -/
theorem bcast_col_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- The sum of an `[a, b]` matrix along its second axis reads, at row `p`, the sum of that row. -/
theorem rowsum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  match c with
  | ⟨0, _⟩ => rfl
  | ⟨1, _⟩ => rfl

/-- A matrix product of `[m, n]` by `[n, c]` into the zero accumulator reads, at `(p, e)`, the sum over the
    contracted coordinate `k` of the left operand at `(p, k)` times the right at `(k, e)`. The four hypotheses
    say which coordinates of the operands' indices the output's and the contraction's coordinates are. -/
theorem matmul_zero_ix2 {m n c : ℕ} {φ₁ φ₂ : FTy} (D : DotDims ⟨2, ![m, n]⟩ ⟨2, ![n, c]⟩ ⟨2, ![m, c]⟩)
    (hr : D.contr.rank = 1) (hs : D.contr.size ⟨0, by omega⟩ = n)
    (hl0 : ∀ (i : (⟨2, ![m, c]⟩ : Shape).Idx) (q : D.contr.Idx), (D.lhsIdx i q 0).val = (i 0).val)
    (hl1 : ∀ (i : (⟨2, ![m, c]⟩ : Shape).Idx) (q : D.contr.Idx), (D.lhsIdx i q 1).val = (q ⟨0, by omega⟩).val)
    (hr0 : ∀ (i : (⟨2, ![m, c]⟩ : Shape).Idx) (q : D.contr.Idx), (D.rhsIdx i q 0).val = (q ⟨0, by omega⟩).val)
    (hr1 : ∀ (i : (⟨2, ![m, c]⟩ : Shape).Idx) (q : D.contr.Idx), (D.rhsIdx i q 1).val = (i 1).val)
    (prec : Option ContractPrecision) (lhs : FVec Ideal ⟨2, ![m, n]⟩ φ₁) (rhs : FVec Ideal ⟨2, ![n, c]⟩ φ₂)
    (p : Fin m) (e : Fin c) :
    FloatOps.matmul D prec lhs rhs (constant ⟨2, ![m, c]⟩ .f32 0x00000000#32) (ix2 p e)
      = ∑ k : Fin n, lhs (ix2 p k) * rhs (ix2 k e) := by
  rw [Ideal.matmul_constant_zero_apply, ← Equiv.sum_comp (contrEquiv1 D n hr hs).symm]
  refine Finset.sum_congr rfl fun k _ => ?_
  have hk := contrEquiv1_symm_val D n hr hs k
  have el : D.lhsIdx (ix2 p e) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p e) ((contrEquiv1 D n hr hs).symm k) = ix2 k e := funext fun ax => Fin.ext (by
    match ax with
    | ⟨0, _⟩ => exact (hr0 _ _).trans hk
    | ⟨1, _⟩ => exact hr1 _ _)
  rw [el, er]

end Cert.KVal

end
-- ==== Proof.RefAlgebra.lean ====
/-
  Real and extended-real algebra for the normalized graph-convolution layer, free of any program:
  the word-level identity matrix (a comparison of a row word with a column word, read as a float),
  the literal 2.0, the inverse square root at a positive real, the coercion of a finite real sum
  into the extended reals, and the two rearrangements of sums that join the textbook formula
  (A + 2I scaled on both sides by deg^{-1/2}, then multiplied into X) to the form with the diagonal
  term split off.
-/
import Idealize.ShloMosaic.PureOps.Ideal.Laws
import Idealize.ShloMosaic.Lib.ValueIdx
import Idealize.ShloMosaic.Lib.Affine

noncomputable section

namespace Cert.RefAlgebra

open Idealize.ShloMosaic

/-- The literal 2.0 denotes the real 2. -/
theorem ofBits_two : Ideal.ofBits .f32 0x40000000#32 = ((2 : ℝ) : EReal) := by
  simp [Ideal.ofBits, Ideal.ieee, -EReal.coe_mul]; norm_num

/-- A finite sum of reals, read in the extended reals, is the sum of the terms read there. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Two indices below 8192 have the same 32-bit word exactly when they are equal: the comparison of the row
    word (plus the zero word) with the column word is the identity matrix's entry, as a bit. -/
theorem eye_word (i j : Fin 8192) :
    IntOp.cmpi .eq (IntOp.addi (BitVec.ofNat 32 i.val) 0#32) (BitVec.ofNat 32 j.val)
      = if i = j then 1#1 else 0#1 := by
  have h0 : IntOp.addi (BitVec.ofNat 32 i.val) 0#32 = BitVec.ofNat 32 i.val := by
    unfold IntOp.addi; exact BitVec.add_zero _
  rw [h0]
  by_cases h : i = j
  · rw [if_pos h]; subst h; exact IntOp.cmpi_eq.mpr rfl
  · rw [if_neg h]
    refine ValueIdx.eq_zero_of_ne_one (fun hc => h ?_)
    have h2 := congrArg BitVec.toNat (IntOp.cmpi_eq.mp hc)
    simp only [BitVec.toNat_ofNat] at h2
    have hi := i.isLt
    have hj := j.isLt
    exact Fin.ext (by omega)

/-- The same entry converted to a float: the real 1 on the diagonal, 0 off it. -/
theorem eye_real (i j : Fin 8192) :
    FloatOps.uitofp (F := Ideal) .f32
        (IntOp.cmpi .eq (IntOp.addi (BitVec.ofNat 32 i.val) 0#32) (BitVec.ofNat 32 j.val))
      = (((if i = j then 1 else 0 : ℝ)) : EReal) := by
  rw [eye_word]
  by_cases h : i = j
  · rw [if_pos h, if_pos h]
    show ((((1#1 : BitVec 1).toNat : ℝ)) : EReal) = ((1 : ℝ) : EReal)
    norm_num
  · rw [if_neg h, if_neg h]
    show ((((0#1 : BitVec 1).toNat : ℝ)) : EReal) = ((0 : ℝ) : EReal)
    norm_num

/-- The inverse square root of a positive real is the real `(√d)⁻¹`. -/
theorem rsqrt_of_pos {d : ℝ} (h : 0 < d) :
    Ideal.rsqrt ((d : ℝ) : EReal) = ((((Real.sqrt d)⁻¹ : ℝ)) : EReal) := by
  rw [Ideal.rsqrt_coe, if_neg (not_lt.mpr h.le), if_neg h.ne']

/-- The row sum of `A + 2I`, started from zero, is the row sum of `A` plus 2. -/
theorem deg_alg (a : Fin 8192 → Fin 8192 → ℝ) (i : Fin 8192) :
    0 + ∑ j, (a i j + 2 * (if i = j then (1 : ℝ) else 0)) = (∑ j, a i j) + 2 := by
  rw [zero_add, Finset.sum_add_distrib, ← Finset.mul_sum, Finset.sum_ite_eq, if_pos (Finset.mem_univ _), mul_one]

/-- Row `i` of `(D^{-1/2} (A + 2I) D^{-1/2}) X`: the diagonal entry contributes `2 d_i d_i x_ik`, the rest is the
    sum over `A`, and the factor `d_i` comes out of the sum. -/
theorem ax_alg (a : Fin 8192 → Fin 8192 → ℝ) (x : Fin 8192 → Fin 256 → ℝ) (d : Fin 8192 → ℝ)
    (i : Fin 8192) (k : Fin 256) :
    ∑ j, ((a i j + 2 * (if i = j then (1 : ℝ) else 0)) * d i) * d j * x j k
      = d i * (2 * d i * x i k + ∑ j, a i j * (d j * x j k)) := by
  have hterm : ∀ j, ((a i j + 2 * (if i = j then (1 : ℝ) else 0)) * d i) * d j * x j k
      = d i * (a i j * (d j * x j k)) + (if i = j then d i * (2 * d i * x i k) else 0) := by
    intro j
    by_cases h : i = j
    · rw [if_pos h, if_pos h]; subst h; ring
    · rw [if_neg h, if_neg h]; ring
  rw [Finset.sum_congr rfl (fun j _ => hterm j), Finset.sum_add_distrib, ← Finset.mul_sum, Finset.sum_ite_eq,
    if_pos (Finset.mem_univ _)]
  ring

end Cert.RefAlgebra

end
-- ==== Proof.KPay0.lean ====
/-
  The degree kernel's three stored values read at a row `p` of its one-column block, at the ideal values:
  the accumulator starts at zero; each step adds the sum of the row's 4096 entries of the block of A;
  the last step adds 2 and takes the inverse square root.
-/
import proofs.«175491_j9534827397796_2_alg».proof.Proof.Gen.KernelIdeal.Skeleton
import proofs.«175491_j9534827397796_2_alg».proof.Proof.KPayLib
import proofs.«175491_j9534827397796_2_alg».proof.Proof.RefAlgebra

noncomputable section

namespace Cert.KVal

open Idealize.ShloMosaic Idealize.ShloMosaic.ValueIdx Cert.KernelIdeal Cert.KernelIdeal.Gen

/-- The accumulator's initial value is zero. -/
theorem pay0_zero (p : Fin 1024) : k0_pay1 (F := Ideal) (ix2 p 0) = 0 := by
  unfold k0_pay1
  rw [shapeCast_self, broadcast_apply]
  exact Ideal.ofBits_zero_f32

/-- One accumulation step: the accumulator's entry plus the sum of the row of the block. -/
theorem pay0_acc (v3 : Vec Ideal S1024x1 .f32) (v4 : Vec Ideal S1024x4096 .f32) (p : Fin 1024) :
    k0_pay2 (F := Ideal) v3 v4 (ix2 p 0) = v3 (ix2 p 0) + ∑ k : Fin 4096, v4 (ix2 p k) := by
  unfold k0_pay2
  dsimp only
  rw [shapeCast_self, addf_apply]
  refine congrArg (v3 (ix2 p 0) + ·) ?_
  refine (cast_col_apply _ _ p 0).trans ?_
  exact rowsum_apply v4 _ _ _ p

/-- The last step: the inverse square root of the accumulated row sum plus 2. -/
theorem pay0_out (v14 : Vec Ideal S1024x1 .f32) (p : Fin 1024) :
    k0_pay3 (F := Ideal) v14 (ix2 p 0) = Ideal.rsqrt (v14 (ix2 p 0) + ((2 : ℝ) : EReal)) := by
  unfold k0_pay3
  show Ideal.rsqrt (v14 (ix2 p 0) + Ideal.ofBits .f32 0x40000000#32) = _
  rw [Cert.RefAlgebra.ofBits_two]

end Cert.KVal

end
-- ==== Proof.KPay1.lean ====
/-
  The layer kernel's three stored values read at an entry `(p, k)` of its 1024-by-256 block, at the ideal
  values: the accumulator starts at the diagonal term `2 · dis · (dis · x)`; each step adds the product of the
  block of A with the scaled block of X; the last step scales the accumulated rows by dis, multiplies by the
  transposed weights, adds the bias row and clips below at zero.
-/
import proofs.«175491_j9534827397796_2_alg».proof.Proof.Gen.KernelIdeal.Skeleton
import proofs.«175491_j9534827397796_2_alg».proof.Proof.KPayLib
import proofs.«175491_j9534827397796_2_alg».proof.Proof.RefAlgebra

noncomputable section

namespace Cert.KVal

open Idealize.ShloMosaic Idealize.ShloMosaic.ValueIdx Cert.KernelIdeal Cert.KernelIdeal.Gen

/-! ## The two contractions' operand indices -/

theorem dA_l0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide),
    dif_pos (show (0 : Fin S1024x2048.rank) ∈ dot_S1024x2048_S2048x256_S1024x256_1_0_0_1_n_n.lhsNonContracting by decide)]
  rfl
theorem dA_l1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem dA_r0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem dA_r1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide),
    dif_pos (show (1 : Fin S2048x256.rank) ∈ dot_S1024x2048_S2048x256_S1024x256_1_0_0_1_n_n.rhsNonContracting by decide)]
  rfl

theorem dW_l0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl
theorem dW_l1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem dW_r0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem dW_r1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-! ## The three stored values -/

/-- The accumulator's initial value: the diagonal term. -/
theorem pay1_init (v20 : Vec Ideal S1024x1 .f32) (v24 : Vec Ideal S1024x256 .f32) (p : Fin 1024) (k : Fin 256) :
    k1_pay1 (F := Ideal) v20 v24 (ix2 p k) = (((2 : ℝ) : EReal) * v20 (ix2 p 0)) * v24 (ix2 p k) := by
  unfold k1_pay1
  rw [shapeCast_self, shapeCast_self, mulf_apply]
  refine congrArg (· * v24 (ix2 p k)) ?_
  refine (bcast_col_apply _ _ p k).trans ?_
  rw [mulf_apply, broadcast_apply]
  refine congrArg (· * v20 (ix2 p 0)) ?_
  exact Cert.RefAlgebra.ofBits_two

/-- One accumulation step: the accumulator's entry plus the row of the block of A times the scaled column. -/
theorem pay1_acc (v3 : Vec Ideal S2048x1 .f32) (v5 : Vec Ideal S2048x256 .f32) (v9 : Vec Ideal S1024x2048 .f32)
    (v11 : Vec Ideal S1024x256 .f32) (p : Fin 1024) (k : Fin 256) :
    k1_pay2 (F := Ideal) v3 v5 v9 v11 (ix2 p k)
      = v11 (ix2 p k) + ∑ j : Fin 2048, v9 (ix2 p j) * (v3 (ix2 j 0) * v5 (ix2 j k)) := by
  unfold k1_pay2
  rw [shapeCast_self, shapeCast_self, addf_apply]
  refine congrArg (v11 (ix2 p k) + ·) ?_
  refine (matmul_zero_ix2 dot_S1024x2048_S2048x256_S1024x256_1_0_0_1_n_n rfl rfl dA_l0 dA_l1 dA_r0 dA_r1 none _ _ p k).trans ?_
  refine Finset.sum_congr rfl fun j _ => ?_
  rw [truncf_apply, truncf_apply, mulf_apply]
  refine congrArg (fun t => v9 (ix2 p j) * (t * v5 (ix2 j k))) ?_
  exact bcast_col_apply _ _ j k

/-- The last step: the accumulated row scaled by dis, times the transposed weights, plus the bias, clipped at zero. -/
theorem pay1_out (v20 : Vec Ideal S1024x256 .f32) (v21 : Vec Ideal S1024x1 .f32) (v26 : Vec Ideal S256x256 .f32)
    (v30 : Vec Ideal S1x256 .f32) (p : Fin 1024) (o : Fin 256) :
    k1_pay3 (F := Ideal) v20 v21 v26 v30 (ix2 p o)
      = max ((∑ k : Fin 256, (v20 (ix2 p k) * v21 (ix2 p 0)) * v26 (ix2 k o)) + v30 (ix2 0 o)) 0 := by
  unfold k1_pay3
  rw [shapeCast_self, shapeCast_self, shapeCast_self, maximumf_apply, addf_apply, broadcast_apply]
  refine congrArg₂ max (congrArg₂ (· + ·) ?_ ?_) ?_
  · refine (matmul_zero_ix2 dot_S1024x256_S256x256_S1024x256_1_0_0_1_n_n rfl rfl dW_l0 dW_l1 dW_r0 dW_r1 none _ _ p o).trans ?_
    refine Finset.sum_congr rfl fun k _ => ?_
    rw [truncf_apply, truncf_apply, mulf_apply]
    refine congrArg (fun t => (v20 (ix2 p k) * t) * v26 (ix2 k o)) ?_
    exact bcast_col_apply _ _ p k
  · exact broadcastTo_1b_ab_apply _ _ p o
  · exact Ideal.ofBits_zero_f32

end Cert.KVal

end
-- ==== Proof.KPayReal.lean ====
/-
  The two kernel bodies' stored values when every block they read is a block of reals: each is then the real
  formula, read in the extended reals. The inverse square root needs its argument positive.
-/
import proofs.«175491_j9534827397796_2_alg».proof.Proof.KPay0
import proofs.«175491_j9534827397796_2_alg».proof.Proof.KPay1

noncomputable section

namespace Cert.KVal

open Idealize.ShloMosaic Idealize.ShloMosaic.ValueIdx Cert.KernelIdeal Cert.KernelIdeal.Gen Cert.RefAlgebra

/-- One step of the row sum over reals. -/
theorem pay0_acc_real (v3 : Vec Ideal S1024x1 .f32) (v4 : Vec Ideal S1024x4096 .f32)
    (r3 : Fin 1024 → ℝ) (r4 : Fin 1024 → Fin 4096 → ℝ)
    (h3 : ∀ p, v3 (ix2 p 0) = ((r3 p : ℝ) : EReal)) (h4 : ∀ p k, v4 (ix2 p k) = ((r4 p k : ℝ) : EReal)) (p : Fin 1024) :
    k0_pay2 (F := Ideal) v3 v4 (ix2 p 0) = ((r3 p + ∑ k, r4 p k : ℝ) : EReal) := by
  rw [pay0_acc, h3]
  simp only [h4]
  rw [← coe_sum, ← EReal.coe_add]

/-- The inverse square root of a positive row sum plus 2. -/
theorem pay0_out_real (v14 : Vec Ideal S1024x1 .f32) (r : Fin 1024 → ℝ)
    (h : ∀ p, v14 (ix2 p 0) = ((r p : ℝ) : EReal)) (p : Fin 1024) (hpos : 0 < r p + 2) :
    k0_pay3 (F := Ideal) v14 (ix2 p 0) = ((((Real.sqrt (r p + 2))⁻¹ : ℝ)) : EReal) := by
  rw [pay0_out, h, ← EReal.coe_add, rsqrt_of_pos hpos]

/-- The diagonal term over reals. -/
theorem pay1_init_real (v20 : Vec Ideal S1024x1 .f32) (v24 : Vec Ideal S1024x256 .f32)
    (d : Fin 1024 → ℝ) (y : Fin 1024 → Fin 256 → ℝ)
    (h20 : ∀ p, v20 (ix2 p 0) = ((d p : ℝ) : EReal)) (h24 : ∀ p k, v24 (ix2 p k) = ((y p k : ℝ) : EReal))
    (p : Fin 1024) (k : Fin 256) :
    k1_pay1 (F := Ideal) v20 v24 (ix2 p k) = (((2 * d p) * y p k : ℝ) : EReal) := by
  rw [pay1_init, h20, h24, ← EReal.coe_mul, ← EReal.coe_mul]

/-- One step of the product with the block of A over reals. -/
theorem pay1_acc_real (v3 : Vec Ideal S2048x1 .f32) (v5 : Vec Ideal S2048x256 .f32) (v9 : Vec Ideal S1024x2048 .f32)
    (v11 : Vec Ideal S1024x256 .f32)
    (d : Fin 2048 → ℝ) (x : Fin 2048 → Fin 256 → ℝ) (a : Fin 1024 → Fin 2048 → ℝ) (acc : Fin 1024 → Fin 256 → ℝ)
    (h3 : ∀ j, v3 (ix2 j 0) = ((d j : ℝ) : EReal)) (h5 : ∀ j k, v5 (ix2 j k) = ((x j k : ℝ) : EReal))
    (h9 : ∀ p j, v9 (ix2 p j) = ((a p j : ℝ) : EReal)) (h11 : ∀ p k, v11 (ix2 p k) = ((acc p k : ℝ) : EReal))
    (p : Fin 1024) (k : Fin 256) :
    k1_pay2 (F := Ideal) v3 v5 v9 v11 (ix2 p k) = ((acc p k + ∑ j, a p j * (d j * x j k) : ℝ) : EReal) := by
  rw [pay1_acc, h11]
  simp only [h3, h5, h9, ← EReal.coe_mul]
  rw [← coe_sum, ← EReal.coe_add]

/-- The last step over reals. -/
theorem pay1_out_real (v20 : Vec Ideal S1024x256 .f32) (v21 : Vec Ideal S1024x1 .f32) (v26 : Vec Ideal S256x256 .f32)
    (v30 : Vec Ideal S1x256 .f32)
    (acc : Fin 1024 → Fin 256 → ℝ) (d : Fin 1024 → ℝ) (wt : Fin 256 → Fin 256 → ℝ) (bb : Fin 256 → ℝ)
    (h20 : ∀ p k, v20 (ix2 p k) = ((acc p k : ℝ) : EReal)) (h21 : ∀ p, v21 (ix2 p 0) = ((d p : ℝ) : EReal))
    (h26 : ∀ k o, v26 (ix2 k o) = ((wt k o : ℝ) : EReal)) (h30 : ∀ o, v30 (ix2 0 o) = ((bb o : ℝ) : EReal))
    (p : Fin 1024) (o : Fin 256) :
    k1_pay3 (F := Ideal) v20 v21 v26 v30 (ix2 p o)
      = ((max ((∑ k, (acc p k * d p) * wt k o) + bb o) 0 : ℝ) : EReal) := by
  rw [pay1_out, h21, h30]
  simp only [h20, h26, ← EReal.coe_mul]
  rw [← coe_sum, ← EReal.coe_add, ← EReal.coe_zero, ← EReal.coe_strictMono.monotone.map_max]

end Cert.KVal

end
-- ==== Proof.Spec.lean ====
/-
  The layer's output as a function of real matrices: the degree of a row of A + 2I is its row sum plus 2,
  dis is its inverse square root, and the output is relu((D^{-1/2} (A + 2I) D^{-1/2} X) Wᵀ + b), written
  row by row with the diagonal term split off.
-/
import Idealize.ShloMosaic.PureOps.Ideal

noncomputable section

namespace Cert.Spec

/-- The degree of row `i` of `A + 2I`: the row sum of `A` plus 2. -/
def deg (a : Fin 8192 → Fin 8192 → ℝ) (i : Fin 8192) : ℝ := (∑ j, a i j) + 2

/-- `deg^{-1/2}`. -/
def dis (a : Fin 8192 → Fin 8192 → ℝ) (i : Fin 8192) : ℝ := (Real.sqrt (deg a i))⁻¹

/-- Row `i` of `D^{-1/2} (A + 2I) D^{-1/2} X`, the diagonal term split off. -/
def ax (a : Fin 8192 → Fin 8192 → ℝ) (x : Fin 8192 → Fin 256 → ℝ) (i : Fin 8192) (k : Fin 256) : ℝ :=
  dis a i * (2 * dis a i * x i k + ∑ j, a i j * (dis a j * x j k))

/-- The layer's output: `relu (ax · Wᵀ + b)`. -/
def out (a : Fin 8192 → Fin 8192 → ℝ) (x : Fin 8192 → Fin 256 → ℝ) (w : Fin 256 → Fin 256 → ℝ) (bb : Fin 256 → ℝ)
    (i : Fin 8192) (o : Fin 256) : ℝ :=
  max ((∑ k, ax a x i k * w o k) + bb o) 0

end Cert.Spec

end
-- ==== Proof.KArr0.lean ====
/-
  The degree vector as the first kernel leaves it.  The output column is written back exactly at the odd
  positions; the write-back at position 2 i + 1 carries rows 1024 i … 1024 i + 1023, each holding
  rsqrt ((0 + the row's sum over columns 0 … 4095) + its sum over columns 4096 … 8191 + 2).  The two half-row
  sums make the whole row's sum, so every row `r` of the array ends holding (sqrt (deg r))⁻¹, the reals'
  `dis`, whenever the matrix's entries are reals and every degree is positive.
-/
import proofs.«175491_j9534827397796_2_alg».proof.Proof.R0Value
import proofs.«175491_j9534827397796_2_alg».proof.Proof.KPayReal
import proofs.«175491_j9534827397796_2_alg».proof.Proof.Spec
import Idealize.ShloMosaic.Lib.Pipeline.Value

set_option maxRecDepth 16384

noncomputable section

namespace Cert.KVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.RefAlgebra

/-! ## Where the blocks sit -/

/-- Position `t` of the grid is row block `t / 2`, column block `t % 2`: the matrix window's block index is
    that pair, the output window's is the row block and column 0. -/
theorem idx_facts0 : ∀ t : Fin cfg0.N, win0_0.index t (0 : Fin 2) = t.val / 2 ∧ win0_0.index t (1 : Fin 2) = t.val % 2
    ∧ win0_1.index t (0 : Fin 2) = t.val / 2 ∧ win0_1.index t (1 : Fin 2) = 0 :=
  (by decide +kernel : ∀ t : Fin grid0.N, win0_0.index t (0 : Fin 2) = t.val / 2 ∧ win0_0.index t (1 : Fin 2) = t.val % 2
    ∧ win0_1.index t (0 : Fin 2) = t.val / 2 ∧ win0_1.index t (1 : Fin 2) = 0)

/-! ## The whole row's sum from its two halves -/

/-- A sum over the 8192 columns is the sum over the first 4096 plus the sum over the last 4096. -/
theorem sum_halves (f : Fin 8192 → ℝ) :
    ∑ j, f j = (∑ k : Fin 4096, f ⟨k.val, by omega⟩) + ∑ k : Fin 4096, f ⟨4096 + k.val, by omega⟩ :=
  Fin.sum_univ_add (a := 4096) (b := 4096) (f : Fin (4096 + 4096) → ℝ)

/-! ## One row block over reals -/

/-- The output column after the two points of a row block whose blocks of the matrix are blocks of reals:
    the inverse square root of (0 + first half-row sum) + second half-row sum + 2. -/
theorem rowBlock_real (B0 B1 : Vec Ideal S1024x4096 .f32) (b0 b1 : Fin 1024 → Fin 4096 → ℝ)
    (h0 : ∀ p k, B0 (ix2 p k) = ((b0 p k : ℝ) : EReal)) (h1 : ∀ p k, B1 (ix2 p k) = ((b1 p k : ℝ) : EReal))
    (p : Fin 1024) (hpos : 0 < ((0 + ∑ k, b0 p k) + ∑ k, b1 p k) + 2) :
    k0_pay3 (F := Ideal) (k0_pay2 (F := Ideal) (k0_pay2 (F := Ideal) (k0_pay1 (F := Ideal)) B0) B1) (ix2 p 0)
      = ((((Real.sqrt (((0 + ∑ k, b0 p k) + ∑ k, b1 p k) + 2))⁻¹ : ℝ)) : EReal) :=
  pay0_out_real (k0_pay2 (F := Ideal) (k0_pay2 (F := Ideal) (k0_pay1 (F := Ideal)) B0) B1)
    (fun p => (0 + ∑ k, b0 p k) + ∑ k, b1 p k)
    (fun p => pay0_acc_real (k0_pay2 (F := Ideal) (k0_pay1 (F := Ideal)) B0) B1 (fun p => 0 + ∑ k, b0 p k) b1
      (fun p => pay0_acc_real (k0_pay1 (F := Ideal)) B0 (fun _ => 0) b0
        (fun p => (pay0_zero p).trans EReal.coe_zero.symm) h0 p) h1 p)
    p hpos

section Region0

variable (V : (c : Dev nD) → (b : Ref sig .tc) → Buf (Elt Ideal) ((c : Thread nD τ).loc b)) (c : Dev nD)

/-! ## A block of the matrix, entry by entry -/

/-- The matrix window's block at position `t`, at (p, k), is the matrix's entry at row
    1024 (t / 2) + p, column 4096 (t % 2) + k. -/
theorem iblk0_apply (t : Fin cfg0.N) (x : S1024x4096.Idx) (i : S8192x8192.Idx)
    (hi0 : (i 0).val = 1024 * (t.val / 2) + (x 0).val) (hi1 : (i 1).val = 4096 * (t.val % 2) + (x 1).val) :
    (iblk0 V c 0 t : Vec Ideal S1024x4096 .f32) x = (V c main_arg1 : S8192x8192.Idx → Elt Ideal .f32) i := by
  obtain ⟨e0, e1, -, -⟩ := idx_facts0 t
  unfold iblk0
  rw [View.read_apply]
  show V c main_arg1 _ = V c main_arg1 _
  refine congrArg (V c main_arg1) ?_
  funext ax
  apply Fin.ext
  match ax with
  | ⟨0, _⟩ => show win0_0.index t (0 : Fin 2) * 1024 + 1 * (x 0).val = (i 0).val; rw [e0, hi0]; omega
  | ⟨1, _⟩ => show win0_0.index t (1 : Fin 2) * 4096 + 1 * (x 1).val = (i 1).val; rw [e1, hi1]; omega

variable (a : Fin 8192 → Fin 8192 → ℝ) (hA : ∀ i j, V c main_arg1 (ix2 i j) = ((a i j : ℝ) : EReal))
include hA

/-- The same when the matrix's entries are the reals `a`. -/
theorem iblk0_real (t : Fin cfg0.N) (p : Fin 1024) (k : Fin 4096) (r q : Fin 8192)
    (hr : r.val = 1024 * (t.val / 2) + p.val) (hq : q.val = 4096 * (t.val % 2) + k.val) :
    (iblk0 V c 0 t : Vec Ideal S1024x4096 .f32) (ix2 p k) = ((a r q : ℝ) : EReal) :=
  (iblk0_apply V c t (ix2 p k) (ix2 r q) hr hq).trans (hA r q)

omit hA in
/-- What the degree array ends holding: row `r` at `dis a r`. -/
def degG : S8192x1.Idx → Elt Ideal .f32 := fun i => ((Cert.Spec.dis a ⟨(i 0).val, idx2_lt0 i⟩ : ℝ) : EReal)

variable (hpos : ∀ i, 0 < Cert.Spec.deg a i)
include hpos

/-! ## What each write-back writes -/

/-- The write-back at an odd position writes its block of `degG`. -/
theorem flushed0_eq (t : Fin cfg0.N) (hf : (cfg0.win 1).flush t = true) :
    (dat0 (F := Ideal) V c).flushed 1 t = ((cfg0.win 1).blk t).view.read (Elt Ideal) (degG a) := by
  have h1 : t.val % 2 = 1 := (flush0_1 t).mp hf
  have hN : t.val < 16 := lt_of_lt_of_eq t.isLt (show cfg0.N = 16 from N_0)
  obtain ⟨-, -, e2, e3⟩ := idx_facts0 t
  show (cfg0.win 1).cut (grid0.coords t) ((dat0 (F := Ideal) V c).after 1 t) = _
  rw [after0_1_rowBlock V c t h1]
  funext j
  obtain ⟨p, z, rfl⟩ : ∃ (p : Fin 1024) (z : Fin 1), (j : S1024x1.Idx) = ix2 p z := ⟨j 0, j 1, eq_ix2 j⟩
  obtain rfl : z = 0 := Subsingleton.elim _ _
  rw [View.read_apply]
  -- the row of the array this entry of the block is
  have hrow : 1024 * (t.val / 2) + p.val < 8192 := by have := p.isLt; omega
  have hemb : ((cfg0.win 1).blk t).view.emb (ix2 p (0 : Fin 1)) = (ix2 (⟨1024 * (t.val / 2) + p.val, hrow⟩ : Fin 8192) (0 : Fin 1) : S8192x1.Idx) := by
    funext ax
    apply Fin.ext
    match ax with
    | ⟨0, _⟩ => show win0_1.index t (0 : Fin 2) * 1024 + 1 * p.val = 1024 * (t.val / 2) + p.val; rw [e2]; omega
    | ⟨1, _⟩ => show win0_1.index t (1 : Fin 2) * 1 + 1 * 0 = 0; rw [e3]
  show k0_pay3 (F := Ideal) _ (ix2 p 0) = degG a (((cfg0.win 1).blk t).view.emb (ix2 p (0 : Fin 1)))
  rw [hemb]
  -- the two blocks of the matrix, as reals
  have hprev2 : (t.val - 1) / 2 = t.val / 2 := by omega
  have hprevm : (t.val - 1) % 2 = 0 := by omega
  have hb0 : ∀ (p' : Fin 1024) (k : Fin 4096), (iblk0 V c 0 ⟨t.val - 1, Nat.lt_of_le_of_lt (Nat.sub_le _ _) t.isLt⟩ : Vec Ideal S1024x4096 .f32) (ix2 p' k)
      = ((a ⟨1024 * (t.val / 2) + p'.val, by have := p'.isLt; omega⟩ ⟨k.val, by have := k.isLt; omega⟩ : ℝ) : EReal) := fun p' k =>
    iblk0_real V c a hA ⟨t.val - 1, Nat.lt_of_le_of_lt (Nat.sub_le _ _) t.isLt⟩ p' k _ _
      (by show 1024 * (t.val / 2) + p'.val = 1024 * ((t.val - 1) / 2) + p'.val; rw [hprev2])
      (by show k.val = 4096 * ((t.val - 1) % 2) + k.val; rw [hprevm]; omega)
  have hb1 : ∀ (p' : Fin 1024) (k : Fin 4096), (iblk0 V c 0 t : Vec Ideal S1024x4096 .f32) (ix2 p' k)
      = ((a ⟨1024 * (t.val / 2) + p'.val, by have := p'.isLt; omega⟩ ⟨4096 + k.val, by have := k.isLt; omega⟩ : ℝ) : EReal) := fun p' k =>
    iblk0_real V c a hA t p' k _ _ rfl (by show 4096 + k.val = 4096 * (t.val % 2) + k.val; rw [h1])
  -- the degree of that row, from its two halves
  have hdeg : ((0 + ∑ k : Fin 4096, a ⟨1024 * (t.val / 2) + p.val, hrow⟩ ⟨k.val, by have := k.isLt; omega⟩)
        + ∑ k : Fin 4096, a ⟨1024 * (t.val / 2) + p.val, hrow⟩ ⟨4096 + k.val, by have := k.isLt; omega⟩) + 2
      = Cert.Spec.deg a ⟨1024 * (t.val / 2) + p.val, hrow⟩ := by
    unfold Cert.Spec.deg
    rw [sum_halves (fun j => a ⟨1024 * (t.val / 2) + p.val, hrow⟩ j), zero_add]
  refine (rowBlock_real _ _ _ _ hb0 hb1 p (by rw [hdeg]; exact hpos _)).trans ?_
  show _ = ((Cert.Spec.dis a _ : ℝ) : EReal)
  unfold Cert.Spec.dis
  rw [hdeg]

/-! ## The array after the region -/

omit hA hpos in
/-- An index of the degree array is in position `t`'s block iff each coordinate is in the block's range. -/
theorem mem_blk0 (t : Fin cfg0.N) (i : S8192x1.Idx) :
    i ∈ ((cfg0.win 1).blk t).view.set ↔ ∀ ax : Fin 2, win0_1.index t ax * S1024x1.size ax ≤ (i ax).val ∧ (i ax).val < win0_1.index t ax * S1024x1.size ax + S1024x1.size ax := by
  show i ∈ ((View.whole main_v0).slice (win0_1.rect t)).set ↔ _
  rw [View.set_slice_whole, Rect.mem_set_unit]
  exact Iff.rfl

omit hA hpos in
/-- Row `r` of the degree array is in the block written back at position 2 (r / 1024) + 1. -/
theorem cover0 (i : S8192x1.Idx) : ∃ t : Fin cfg0.N, (cfg0.win 1).flush t = true ∧ i ∈ ((cfg0.win 1).blk t).view.set := by
  have hi0 : (i 0).val < 8192 := idx2_lt0 i
  have hi1 : (i 1).val < 1 := (i 1).isLt
  have hlt : 2 * ((i 0).val / 1024) + 1 < cfg0.N := by rw [show cfg0.N = 16 from N_0]; omega
  refine ⟨⟨2 * ((i 0).val / 1024) + 1, hlt⟩, (flush0_1 _).mpr (by show (2 * ((i 0).val / 1024) + 1) % 2 = 1; omega), ?_⟩
  obtain ⟨-, -, e2, e3⟩ := idx_facts0 ⟨2 * ((i 0).val / 1024) + 1, hlt⟩
  rw [mem_blk0]
  intro ax
  match ax with
  | ⟨0, _⟩ =>
    show win0_1.index ⟨2 * ((i 0).val / 1024) + 1, hlt⟩ (0 : Fin 2) * 1024 ≤ (i 0).val ∧ (i 0).val < win0_1.index ⟨2 * ((i 0).val / 1024) + 1, hlt⟩ (0 : Fin 2) * 1024 + 1024
    rw [e2]; show (2 * ((i 0).val / 1024) + 1) / 2 * 1024 ≤ (i 0).val ∧ (i 0).val < (2 * ((i 0).val / 1024) + 1) / 2 * 1024 + 1024
    omega
  | ⟨1, _⟩ =>
    show win0_1.index ⟨2 * ((i 0).val / 1024) + 1, hlt⟩ (1 : Fin 2) * 1 ≤ (i 1).val ∧ (i 1).val < win0_1.index ⟨2 * ((i 0).val / 1024) + 1, hlt⟩ (1 : Fin 2) * 1 + 1
    rw [e3]; omega

/-- THE DEGREE ARRAY after the first kernel: `degG`. -/
theorem deg_array_eq : (dat0 (F := Ideal) V c).arrAt 1 cfg0.N = degG a :=
  (dat0 (F := Ideal) V c).arrAt_eq_of_cover 1 (degG a) (flushed0_eq V c a hA hpos) cover0

end Region0

/-- Row `r` of the degree array ends holding `dis a r`. -/
theorem deg_array (V : (c : Dev nD) → (b : Ref sig .tc) → Buf (Elt Ideal) ((c : Thread nD τ).loc b)) (c : Dev nD) (a : Fin 8192 → Fin 8192 → ℝ)
    (hA : ∀ i j, V c main_arg1 (ValueIdx.ix2 i j) = ((a i j : ℝ) : EReal)) (hpos : ∀ i, 0 < Cert.Spec.deg a i) (r : Fin 8192) :
    (Cert.KernelIdeal.Hand.dat0 (F := Ideal) V c).arrAt 1 cfg0.N (ValueIdx.ix2 r 0) = ((Cert.Spec.dis a r : ℝ) : EReal) :=
  congrFun (deg_array_eq V c a hA hpos) (ValueIdx.ix2 r 0)

end Cert.KVal

end
-- ==== Proof.R1Pieces.lean ====
/-
  Region 1: what each control case's stores leave, as values of the kernel's three payloads. At the first point of
  a sweep the accumulator becomes the update of the reset value by the first column block's product; at every
  later point the update of what it held; at the last point the output block is the third payload of the finished
  accumulator, the row block's scaling factors, the transposed weights and the bias.
-/
import proofs.«175491_j9534827397796_2_alg».proof.Proof.R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The found pieces as values -/

/-- The zero offsets of every whole-block access. -/
theorem hz2 : (![0, 0] : Fin 2 → Nat) = fun _ => 0 := funext fun a => by fin_cases a <;> rfl

/-- After a middle point of a sweep the accumulator holds the update of what it held before by this column
    block's product: the body's one store covers the accumulator and its loads read whole buffers. -/
theorem sout1_B_0_eq (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : ¬cond1_0 i) (hc1 : ¬cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) (xs0 : Vec F S1024x256 .f32) :
    sout1_B_0 c i arg2 harg2 arg3 harg3 arg4 harg4 arg5 harg5 arg6 harg6 arg7 harg7 arg8 harg8 arg9 harg9 arg10 harg10 hc0 hc1 x0 x1 x2 x3 x4 x5 x6 xs0 = k1_pay2 x3 x1 x0 xs0 := by
  unfold sout1_B_0
  rw [View.read_writes_eq_canon _ _ _ (scover1_B_0 c i arg2 harg2 arg3 harg3 arg4 harg4 arg5 harg5 arg6 harg6 arg7 harg7 arg8 harg8 arg9 harg9 arg10 harg10 hc0 hc1 x0 x1 x2 x3 x4 x5 x6 xs0)]
  unfold kernelRun1_B
  dsimp only
  rw [View.canon_unit_zero (S := S1024x256) hz2]
  simp only [View.readAt_eq_ld, harg2.read_unread, harg3.read_unread, harg5.read_unread, harg10.read_unread, View.ld_unit_zero (S := S2048x1) hz2, View.ld_unit_zero (S := S2048x256) hz2, View.ld_unit_zero (S := S1024x2048) hz2, View.ld_unit_zero (S := S1024x256) hz2]

/-- After the last point of a sweep the accumulator holds the same update, by the last column block's product. -/
theorem sout1_C_0_eq (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : ¬cond1_0 i) (hc1 : cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) (xs0 : Vec F S1024x256 .f32) :
    sout1_C_0 c i arg2 harg2 arg3 harg3 arg4 harg4 arg5 harg5 arg6 harg6 arg7 harg7 arg8 harg8 arg9 harg9 arg10 harg10 hc0 hc1 x0 x1 x2 x3 x4 x5 x6 xs0 = k1_pay2 x3 x1 x0 xs0 := by
  unfold sout1_C_0
  rw [View.read_writes_eq_canon _ _ _ (scover1_C_0 c i arg2 harg2 arg3 harg3 arg4 harg4 arg5 harg5 arg6 harg6 arg7 harg7 arg8 harg8 arg9 harg9 arg10 harg10 hc0 hc1 x0 x1 x2 x3 x4 x5 x6 xs0)]
  unfold kernelRun1_C
  dsimp only
  sl_unfold_words
  rw [View.canon_unit_zero (S := S1024x256) hz2]
  simp only [View.readAt_eq_ld, harg2.read_unread, harg3.read_unread, harg5.read_unread, harg10.read_unread, View.ld_unit_zero (S := S2048x1) hz2, View.ld_unit_zero (S := S2048x256) hz2, View.ld_unit_zero (S := S1024x2048) hz2, View.ld_unit_zero (S := S1024x256) hz2]

/-- After the first point of a sweep the accumulator holds the update, by the first column block's product, of
    the reset value (twice the scaled rows of the row block): the second store covers the accumulator, and the
    load between the two stores reads the reset value back. -/
theorem sout1_A_0_eq (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : cond1_0 i) (hc1 : ¬cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) :
    sout1_A_0 c i arg2 harg2 arg3 harg3 arg4 harg4 arg5 harg5 arg6 harg6 arg7 harg7 arg8 harg8 arg9 harg9 arg10 harg10 hc0 hc1 x0 x1 x2 x3 x4 x5 x6 = k1_pay2 x3 x1 x0 (k1_pay1 x4 x2) := by
  unfold sout1_A_0
  rw [View.read_writes_eq_canon _ _ _ (scover1_A_0 c i arg2 harg2 arg3 harg3 arg4 harg4 arg5 harg5 arg6 harg6 arg7 harg7 arg8 harg8 arg9 harg9 arg10 harg10 hc0 hc1 x0 x1 x2 x3 x4 x5 x6)]
  unfold kernelRun1_A
  dsimp only
  sl_unfold_words
  rw [View.canon_cons_unit_zero (S := S1024x256) hz2, View.readCov_unit_zero (S := S1024x256) _ hz2]
  simp only [View.readAt_eq_ld, harg2.read_unread, harg3.read_unread, harg4.read_unread, harg5.read_unread, harg6.read_unread, View.ld_unit_zero (S := S2048x1) hz2, View.ld_unit_zero (S := S2048x256) hz2, View.ld_unit_zero (S := S1024x2048) hz2, View.ld_unit_zero (S := S1024x1) hz2, View.ld_unit_zero (S := S1024x256) hz2]

/-- After the last point of a sweep the output buffer holds the finished accumulator scaled by the row block's
    factors, multiplied by the transposed weights, the bias added, clamped at zero: the one store covers the
    buffer, and the load of the accumulator after its update reads the update back. -/
theorem out1_C_7_eq (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S1024x256 .f32) (harg10 : arg10.IsWhole) (hc0 : ¬cond1_0 i) (hc1 : cond1_1 i)
    (x0 : Vec F S1024x2048 .f32) (x1 : Vec F S2048x256 .f32) (x2 : Vec F S1024x256 .f32) (x3 : Vec F S2048x1 .f32) (x4 : Vec F S1024x1 .f32) (x5 : Vec F S256x256 .f32) (x6 : Vec F S1x256 .f32) (xs0 : Vec F S1024x256 .f32) :
    out1_C_7 c i arg2 harg2 arg3 harg3 arg4 harg4 arg5 harg5 arg6 harg6 arg7 harg7 arg8 harg8 arg9 harg9 arg10 harg10 hc0 hc1 x0 x1 x2 x3 x4 x5 x6 xs0 = k1_pay3 (k1_pay2 x3 x1 x0 xs0) x4 x5 x6 := by
  unfold out1_C_7
  rw [View.read_writes_eq_canon _ _ _ (cover1_C_7 c i arg2 harg2 arg3 harg3 arg4 harg4 arg5 harg5 arg6 harg6 arg7 harg7 arg8 harg8 arg9 harg9 arg10 harg10 hc0 hc1 x0 x1 x2 x3 x4 x5 x6 xs0)]
  unfold kernelRun1_C
  dsimp only
  sl_unfold_words
  rw [View.canon_unit_zero (S := S1024x256) hz2, View.readCov_unit_zero (S := S1024x256) _ hz2]
  simp only [View.readAt_eq_ld, harg2.read_unread, harg3.read_unread, harg5.read_unread, harg6.read_unread, harg7.read_unread, harg8.read_unread, harg10.read_unread, View.ld_unit_zero (S := S2048x1) hz2, View.ld_unit_zero (S := S2048x256) hz2, View.ld_unit_zero (S := S1024x2048) hz2, View.ld_unit_zero (S := S1024x1) hz2, View.ld_unit_zero (S := S256x256) hz2, View.ld_unit_zero (S := S1x256) hz2, View.ld_unit_zero (S := S1024x256) hz2]

end Cert.KernelIdeal.Hand

end
-- ==== Proof.R1Value.lean ====
/-
  Region 1: the accumulation unrolled over one sweep of a row block. The accumulator after the first point of a
  sweep is the update of the reset value; after every later point the update of what the point before left; and at
  the last point of a sweep the output block is the third payload of the accumulator after four updates, each by
  one column block's product, over the reset value of the sweep's first point.
-/
import proofs.«175491_j9534827397796_2_alg».proof.Proof.R1Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (qL qR : PosShare TreeShare)
variable (V : (c : Dev nD) → (b : Ref sig .tc) → Buf (Elt F) ((c : Thread nD τ).loc b))

/-- The pair after a position does not depend on how the position is written. -/
theorem outsAt1_congr (c : Dev nD) {n n' : ℕ} (e : n = n') (h : n < cfg1.N) (h' : n' < cfg1.N) :
    outsAt1 V c n h = outsAt1 V c n' h' := by subst e; rfl

/-- After the first point of a sweep the accumulator is the update, by the first column block's product, of the
    reset value of the row block. -/
theorem acc1_first (c : Dev nD) (t : Fin cfg1.N) (h0 : t.val % 4 = 0) :
    (outsAt1 V c t.val t.isLt).2 = (k1_pay2 (iblk1 V c 3 t) (iblk1 V c 1 t) (iblk1 V c 0 t) (k1_pay1 (iblk1 V c 4 t) (iblk1 V c 2 t))) := by
  have h1 : ¬t.val % 4 = 3 := by omega
  rw [outsAt1_A V c t h0 h1]; dsimp only
  exact sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)

/-- After any later point of a sweep the accumulator is the update, by that column block's product, of what the
    point before left. -/
theorem acc1_next (c : Dev nD) (t : Fin cfg1.N) (h0 : ¬t.val % 4 = 0) :
    (outsAt1 V c t.val t.isLt).2 = (k1_pay2 (iblk1 V c 3 t) (iblk1 V c 1 t) (iblk1 V c 0 t) (outsAt1 V c (t.val - 1) (Nat.lt_of_le_of_lt (Nat.sub_le _ _) t.isLt)).2) := by
  by_cases h1 : t.val % 4 = 3
  · rw [outsAt1_C V c t h0 h1]; dsimp only
    exact sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2
  · rw [outsAt1_B V c t h0 h1]; dsimp only
    exact sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2

/-- The same with the point before named. -/
theorem acc1_step (c : Dev nD) (t t' : Fin cfg1.N) (h0 : ¬t.val % 4 = 0) (e : t'.val + 1 = t.val) :
    (outsAt1 V c t.val t.isLt).2 = (k1_pay2 (iblk1 V c 3 t) (iblk1 V c 1 t) (iblk1 V c 0 t) (outsAt1 V c t'.val t'.isLt).2) := by
  rw [acc1_next V c t h0, outsAt1_congr V c (show t.val - 1 = t'.val by omega) _ t'.isLt]

/-- At the last point of a sweep the output buffer is left at the third payload of the accumulator as this point
    leaves it, the row block's scaling factors, the transposed weights and the bias. -/
theorem out1_last (c : Dev nD) (t : Fin cfg1.N) (h1 : t.val % 4 = 3) :
    (outsAt1 V c t.val t.isLt).1 = k1_pay3 (outsAt1 V c t.val t.isLt).2 (iblk1 V c 4 t) (iblk1 V c 5 t) (iblk1 V c 6 t) := by
  have h0 : ¬t.val % 4 = 0 := by omega
  rw [acc1_next V c t h0, outsAt1_C V c t h0 h1]; dsimp only
  exact out1_C_7_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2

/-- THE SWEEP. At the last point t of a row block's sweep, with t1, t2, t3 the three points before it (t3 the
    sweep's first), the accumulator holds four updates over the reset value, in point order. -/
theorem acc1_sweep (c : Dev nD) (t t1 t2 t3 : Fin cfg1.N) (h : t.val % 4 = 3)
    (e1 : t1.val + 1 = t.val) (e2 : t2.val + 2 = t.val) (e3 : t3.val + 3 = t.val) :
    (outsAt1 V c t.val t.isLt).2 = (k1_pay2 (iblk1 V c 3 t) (iblk1 V c 1 t) (iblk1 V c 0 t) (k1_pay2 (iblk1 V c 3 t1) (iblk1 V c 1 t1) (iblk1 V c 0 t1) (k1_pay2 (iblk1 V c 3 t2) (iblk1 V c 1 t2) (iblk1 V c 0 t2) (k1_pay2 (iblk1 V c 3 t3) (iblk1 V c 1 t3) (iblk1 V c 0 t3) (k1_pay1 (iblk1 V c 4 t3) (iblk1 V c 2 t3)))))) := by
  rw [acc1_step V c t t1 (by omega) e1, acc1_step V c t1 t2 (by omega) (by omega),
    acc1_step V c t2 t3 (by omega) (by omega), acc1_first V c t3 (by omega)]

/-- And the output buffer holds the third payload of that. -/
theorem out1_sweep (c : Dev nD) (t t1 t2 t3 : Fin cfg1.N) (h : t.val % 4 = 3)
    (e1 : t1.val + 1 = t.val) (e2 : t2.val + 2 = t.val) (e3 : t3.val + 3 = t.val) :
    (outsAt1 V c t.val t.isLt).1
      = k1_pay3 (k1_pay2 (iblk1 V c 3 t) (iblk1 V c 1 t) (iblk1 V c 0 t) (k1_pay2 (iblk1 V c 3 t1) (iblk1 V c 1 t1) (iblk1 V c 0 t1) (k1_pay2 (iblk1 V c 3 t2) (iblk1 V c 1 t2) (iblk1 V c 0 t2) (k1_pay2 (iblk1 V c 3 t3) (iblk1 V c 1 t3) (iblk1 V c 0 t3) (k1_pay1 (iblk1 V c 4 t3) (iblk1 V c 2 t3)))))) (iblk1 V c 4 t) (iblk1 V c 5 t) (iblk1 V c 6 t) := by
  rw [out1_last V c t h, acc1_sweep V c t t1 t2 t3 h e1 e2 e3]

/-- The same as the proof data's contents of the output window after the body at t: what the write-back at t
    writes. -/
theorem after1_7_sweep (c : Dev nD) (t t1 t2 t3 : Fin cfg1.N) (h : t.val % 4 = 3)
    (e1 : t1.val + 1 = t.val) (e2 : t2.val + 2 = t.val) (e3 : t3.val + 3 = t.val) :
    (dat1 qL qR V c).after 7 t
      = k1_pay3 (k1_pay2 (iblk1 V c 3 t) (iblk1 V c 1 t) (iblk1 V c 0 t) (k1_pay2 (iblk1 V c 3 t1) (iblk1 V c 1 t1) (iblk1 V c 0 t1) (k1_pay2 (iblk1 V c 3 t2) (iblk1 V c 1 t2) (iblk1 V c 0 t2) (k1_pay2 (iblk1 V c 3 t3) (iblk1 V c 1 t3) (iblk1 V c 0 t3) (k1_pay1 (iblk1 V c 4 t3) (iblk1 V c 2 t3)))))) (iblk1 V c 4 t) (iblk1 V c 5 t) (iblk1 V c 6 t) := by
  rw [after1_7, out1_sweep V c t t1 t2 t3 h e1 e2 e3]

end Region1

end Cert.KernelIdeal.Hand

end
-- ==== Proof.KArr1a.lean ====
/-
  One row block's sweep of the layer kernel as real numbers. Row block I is rows 1024 I … 1024 I + 1023 and column
  block J is columns 2048 J … 2048 J + 2047 of the 8192-square matrix. A sum over the 8192 columns is the sum over
  the four column blocks of the sums inside each; so the accumulator after the four updates of a sweep, started at
  the diagonal term, holds 2 dis_r x_rk + Σ_j a_rj dis_j x_jk, and the stored output is the layer's output at the
  rows of the block.
-/
import proofs.«175491_j9534827397796_2_alg».proof.Proof.KPayReal
import proofs.«175491_j9534827397796_2_alg».proof.Proof.Spec

noncomputable section

namespace Cert.KVal

open Idealize.ShloMosaic Idealize.ShloMosaic.ValueIdx Cert.KernelIdeal Cert.KernelIdeal.Gen Cert.RefAlgebra

/-- Row p of row block I, as a row of the matrix. -/
def rowOf (I : Fin 8) (p : Fin 1024) : Fin 8192 := ⟨1024 * I.val + p.val, by have := I.isLt; have := p.isLt; omega⟩
/-- Column j of column block J, as a column (or a row of the feature matrix). -/
def colOf (J : Fin 4) (j : Fin 2048) : Fin 8192 := ⟨2048 * J.val + j.val, by have := J.isLt; have := j.isLt; omega⟩

theorem rowOf_val (I : Fin 8) (p : Fin 1024) : (rowOf I p).val = 1024 * I.val + p.val := rfl
theorem colOf_val (J : Fin 4) (j : Fin 2048) : (colOf J j).val = 2048 * J.val + j.val := rfl

/-- A sum over the 8192 columns is the sum over the four column blocks of the sums over each block's 2048. -/
theorem sum_col_tiles (f : Fin 8192 → ℝ) : ∑ j : Fin 8192, f j = ∑ J : Fin 4, ∑ jj : Fin 2048, f (colOf J jj) := by
  have key : ∀ g : Fin (4 * 2048) → ℝ, ∑ j, g j = ∑ J : Fin 4, ∑ jj : Fin 2048, g (finProdFinEquiv (J, jj)) := fun g => by
    rw [← Equiv.sum_comp finProdFinEquiv g, Fintype.sum_prod_type]
  refine (key f).trans ?_
  refine Finset.sum_congr rfl fun J _ => Finset.sum_congr rfl fun jj _ => congrArg f (Fin.ext ?_)
  show jj.val + 2048 * J.val = 2048 * J.val + jj.val
  omega

/-- The accumulator after a sweep, scaled by the row's factor, is the row of the normalized product. -/
theorem acc_sweep_real (a : Fin 8192 → Fin 8192 → ℝ) (x : Fin 8192 → Fin 256 → ℝ) (I : Fin 8) (p : Fin 1024) (k : Fin 256) :
    ((((((2 * Cert.Spec.dis a (rowOf I p)) * x (rowOf I p) k) + (∑ j : Fin 2048, a (rowOf I p) (colOf 0 j) * (Cert.Spec.dis a (colOf 0 j) * x (colOf 0 j) k))) + (∑ j : Fin 2048, a (rowOf I p) (colOf 1 j) * (Cert.Spec.dis a (colOf 1 j) * x (colOf 1 j) k))) + (∑ j : Fin 2048, a (rowOf I p) (colOf 2 j) * (Cert.Spec.dis a (colOf 2 j) * x (colOf 2 j) k))) + (∑ j : Fin 2048, a (rowOf I p) (colOf 3 j) * (Cert.Spec.dis a (colOf 3 j) * x (colOf 3 j) k))) * Cert.Spec.dis a (rowOf I p) = Cert.Spec.ax a x (rowOf I p) k := by
  unfold Cert.Spec.ax
  rw [sum_col_tiles (fun j => a (rowOf I p) j * (Cert.Spec.dis a j * x j k)), Fin.sum_univ_four]
  ring

/-- THE SWEEP OVER REALS. If the blocks a sweep of row block I reads are blocks of real matrices — the four column
    blocks of A's rows, of X's rows and of the scaling vector; the row block of X and of the scaling vector; the
    transposed weights; the bias row — then what the last point stores at (p, o) is the layer's output at row
    1024 I + p, column o. -/
theorem sweep_real (a : Fin 8192 → Fin 8192 → ℝ) (x : Fin 8192 → Fin 256 → ℝ) (w : Fin 256 → Fin 256 → ℝ) (bb : Fin 256 → ℝ) (I : Fin 8)
    (A0 A1 A2 A3 : Vec Ideal S1024x2048 .f32) (X0 X1 X2 X3 : Vec Ideal S2048x256 .f32) (D0 D1 D2 D3 : Vec Ideal S2048x1 .f32)
    (Xi : Vec Ideal S1024x256 .f32) (Di0 Di3 : Vec Ideal S1024x1 .f32) (Wt : Vec Ideal S256x256 .f32) (Bv : Vec Ideal S1x256 .f32)
    (hA0 : ∀ p j, A0 (ix2 p j) = ((a (rowOf I p) (colOf 0 j) : ℝ) : EReal)) (hX0 : ∀ j k, X0 (ix2 j k) = ((x (colOf 0 j) k : ℝ) : EReal)) (hD0 : ∀ j, D0 (ix2 j 0) = ((Cert.Spec.dis a (colOf 0 j) : ℝ) : EReal))
    (hA1 : ∀ p j, A1 (ix2 p j) = ((a (rowOf I p) (colOf 1 j) : ℝ) : EReal)) (hX1 : ∀ j k, X1 (ix2 j k) = ((x (colOf 1 j) k : ℝ) : EReal)) (hD1 : ∀ j, D1 (ix2 j 0) = ((Cert.Spec.dis a (colOf 1 j) : ℝ) : EReal))
    (hA2 : ∀ p j, A2 (ix2 p j) = ((a (rowOf I p) (colOf 2 j) : ℝ) : EReal)) (hX2 : ∀ j k, X2 (ix2 j k) = ((x (colOf 2 j) k : ℝ) : EReal)) (hD2 : ∀ j, D2 (ix2 j 0) = ((Cert.Spec.dis a (colOf 2 j) : ℝ) : EReal))
    (hA3 : ∀ p j, A3 (ix2 p j) = ((a (rowOf I p) (colOf 3 j) : ℝ) : EReal)) (hX3 : ∀ j k, X3 (ix2 j k) = ((x (colOf 3 j) k : ℝ) : EReal)) (hD3 : ∀ j, D3 (ix2 j 0) = ((Cert.Spec.dis a (colOf 3 j) : ℝ) : EReal))
    (hXi : ∀ p k, Xi (ix2 p k) = ((x (rowOf I p) k : ℝ) : EReal))
    (hDi0 : ∀ p, Di0 (ix2 p 0) = ((Cert.Spec.dis a (rowOf I p) : ℝ) : EReal)) (hDi3 : ∀ p, Di3 (ix2 p 0) = ((Cert.Spec.dis a (rowOf I p) : ℝ) : EReal))
    (hWt : ∀ k o, Wt (ix2 k o) = ((w o k : ℝ) : EReal)) (hBv : ∀ o, Bv (ix2 0 o) = ((bb o : ℝ) : EReal))
    (p : Fin 1024) (o : Fin 256) :
    k1_pay3 (F := Ideal) (k1_pay2 D3 X3 A3 (k1_pay2 D2 X2 A2 (k1_pay2 D1 X1 A1 (k1_pay2 D0 X0 A0 (k1_pay1 Di0 Xi))))) Di3 Wt Bv (ix2 p o)
      = ((Cert.Spec.out a x w bb (rowOf I p) o : ℝ) : EReal) := by
  have h0 : ∀ p k, k1_pay1 (F := Ideal) Di0 Xi (ix2 p k) = ((((2 * Cert.Spec.dis a (rowOf I p)) * x (rowOf I p) k) : ℝ) : EReal) :=
    fun p k => pay1_init_real Di0 Xi (fun p => Cert.Spec.dis a (rowOf I p)) (fun p k => x (rowOf I p) k) hDi0 hXi p k
  have h1 : ∀ p k, k1_pay2 (F := Ideal) D0 X0 A0 (k1_pay1 Di0 Xi) (ix2 p k) = (((((2 * Cert.Spec.dis a (rowOf I p)) * x (rowOf I p) k) + (∑ j : Fin 2048, a (rowOf I p) (colOf 0 j) * (Cert.Spec.dis a (colOf 0 j) * x (colOf 0 j) k))) : ℝ) : EReal) :=
    fun p k => pay1_acc_real D0 X0 A0 _ (fun j => Cert.Spec.dis a (colOf 0 j)) (fun j k => x (colOf 0 j) k) (fun p j => a (rowOf I p) (colOf 0 j))
      (fun p k => ((2 * Cert.Spec.dis a (rowOf I p)) * x (rowOf I p) k)) hD0 hX0 hA0 h0 p k
  have h2 : ∀ p k, k1_pay2 (F := Ideal) D1 X1 A1 (k1_pay2 D0 X0 A0 (k1_pay1 Di0 Xi)) (ix2 p k) = ((((((2 * Cert.Spec.dis a (rowOf I p)) * x (rowOf I p) k) + (∑ j : Fin 2048, a (rowOf I p) (colOf 0 j) * (Cert.Spec.dis a (colOf 0 j) * x (colOf 0 j) k))) + (∑ j : Fin 2048, a (rowOf I p) (colOf 1 j) * (Cert.Spec.dis a (colOf 1 j) * x (colOf 1 j) k))) : ℝ) : EReal) :=
    fun p k => pay1_acc_real D1 X1 A1 _ (fun j => Cert.Spec.dis a (colOf 1 j)) (fun j k => x (colOf 1 j) k) (fun p j => a (rowOf I p) (colOf 1 j))
      (fun p k => (((2 * Cert.Spec.dis a (rowOf I p)) * x (rowOf I p) k) + (∑ j : Fin 2048, a (rowOf I p) (colOf 0 j) * (Cert.Spec.dis a (colOf 0 j) * x (colOf 0 j) k)))) hD1 hX1 hA1 h1 p k
  have h3 : ∀ p k, k1_pay2 (F := Ideal) D2 X2 A2 (k1_pay2 D1 X1 A1 (k1_pay2 D0 X0 A0 (k1_pay1 Di0 Xi))) (ix2 p k) = (((((((2 * Cert.Spec.dis a (rowOf I p)) * x (rowOf I p) k) + (∑ j : Fin 2048, a (rowOf I p) (colOf 0 j) * (Cert.Spec.dis a (colOf 0 j) * x (colOf 0 j) k))) + (∑ j : Fin 2048, a (rowOf I p) (colOf 1 j) * (Cert.Spec.dis a (colOf 1 j) * x (colOf 1 j) k))) + (∑ j : Fin 2048, a (rowOf I p) (colOf 2 j) * (Cert.Spec.dis a (colOf 2 j) * x (colOf 2 j) k))) : ℝ) : EReal) :=
    fun p k => pay1_acc_real D2 X2 A2 _ (fun j => Cert.Spec.dis a (colOf 2 j)) (fun j k => x (colOf 2 j) k) (fun p j => a (rowOf I p) (colOf 2 j))
      (fun p k => ((((2 * Cert.Spec.dis a (rowOf I p)) * x (rowOf I p) k) + (∑ j : Fin 2048, a (rowOf I p) (colOf 0 j) * (Cert.Spec.dis a (colOf 0 j) * x (colOf 0 j) k))) + (∑ j : Fin 2048, a (rowOf I p) (colOf 1 j) * (Cert.Spec.dis a (colOf 1 j) * x (colOf 1 j) k)))) hD2 hX2 hA2 h2 p k
  have h4 : ∀ p k, k1_pay2 (F := Ideal) D3 X3 A3 (k1_pay2 D2 X2 A2 (k1_pay2 D1 X1 A1 (k1_pay2 D0 X0 A0 (k1_pay1 Di0 Xi)))) (ix2 p k) = ((((((((2 * Cert.Spec.dis a (rowOf I p)) * x (rowOf I p) k) + (∑ j : Fin 2048, a (rowOf I p) (colOf 0 j) * (Cert.Spec.dis a (colOf 0 j) * x (colOf 0 j) k))) + (∑ j : Fin 2048, a (rowOf I p) (colOf 1 j) * (Cert.Spec.dis a (colOf 1 j) * x (colOf 1 j) k))) + (∑ j : Fin 2048, a (rowOf I p) (colOf 2 j) * (Cert.Spec.dis a (colOf 2 j) * x (colOf 2 j) k))) + (∑ j : Fin 2048, a (rowOf I p) (colOf 3 j) * (Cert.Spec.dis a (colOf 3 j) * x (colOf 3 j) k))) : ℝ) : EReal) :=
    fun p k => pay1_acc_real D3 X3 A3 _ (fun j => Cert.Spec.dis a (colOf 3 j)) (fun j k => x (colOf 3 j) k) (fun p j => a (rowOf I p) (colOf 3 j))
      (fun p k => (((((2 * Cert.Spec.dis a (rowOf I p)) * x (rowOf I p) k) + (∑ j : Fin 2048, a (rowOf I p) (colOf 0 j) * (Cert.Spec.dis a (colOf 0 j) * x (colOf 0 j) k))) + (∑ j : Fin 2048, a (rowOf I p) (colOf 1 j) * (Cert.Spec.dis a (colOf 1 j) * x (colOf 1 j) k))) + (∑ j : Fin 2048, a (rowOf I p) (colOf 2 j) * (Cert.Spec.dis a (colOf 2 j) * x (colOf 2 j) k)))) hD3 hX3 hA3 h3 p k
  rw [pay1_out_real _ Di3 Wt Bv (fun p k => ((((((2 * Cert.Spec.dis a (rowOf I p)) * x (rowOf I p) k) + (∑ j : Fin 2048, a (rowOf I p) (colOf 0 j) * (Cert.Spec.dis a (colOf 0 j) * x (colOf 0 j) k))) + (∑ j : Fin 2048, a (rowOf I p) (colOf 1 j) * (Cert.Spec.dis a (colOf 1 j) * x (colOf 1 j) k))) + (∑ j : Fin 2048, a (rowOf I p) (colOf 2 j) * (Cert.Spec.dis a (colOf 2 j) * x (colOf 2 j) k))) + (∑ j : Fin 2048, a (rowOf I p) (colOf 3 j) * (Cert.Spec.dis a (colOf 3 j) * x (colOf 3 j) k)))) (fun p => Cert.Spec.dis a (rowOf I p)) (fun k o => w o k) bb h4 hDi3 hWt hBv p o]
  unfold Cert.Spec.out
  simp only [acc_sweep_real a x I p]

end Cert.KVal

end
-- ==== Proof.KArr1.lean ====
/-
  The layer's output array after region 1, at real inputs. Each window's block at a point is a rectangle of its
  array: at point 4 I + J the block of A is rows of row block I and columns of column block J; the feature and
  scaling blocks are the rows of column block J, respectively of row block I; the weights and the bias are whole.
  The output block of row block I is written back at the last point of its sweep, where it holds the layer's
  output at the block's rows; the eight row blocks cover the array.
-/
import proofs.«175491_j9534827397796_2_alg».proof.Proof.R1Value
import proofs.«175491_j9534827397796_2_alg».proof.Proof.KArr1a
import Idealize.ShloMosaic.Lib.Pipeline.Value

noncomputable section

namespace Cert.KVal

open Idealize.ShloMosaic Idealize.ShloMosaic.TcCoe Idealize.ShloMosaic.ValueIdx Idealize.SL.Sem
open Idealize.SL Idealize.SL.RA
open Idealize.ShloMosaic.Pipeline (Dat)
open Cert.KernelIdeal Cert.KernelIdeal.Gen Cert.KernelIdeal.Hand Cert.RefAlgebra

set_option maxRecDepth 16384

/-! ## The index maps over the grid -/

/-- The printed index maps, decided over the 32 points: the row-block coordinate is the position divided by 4,
    the column-block coordinate the position modulo 4; the weights' and the bias's block index is always zero. -/
theorem idx1_facts : ∀ t : Fin cfg1.N, win1_0.index t (0 : Fin 2) = t.val / 4
    ∧ win1_0.index t (1 : Fin 2) = t.val % 4
    ∧ win1_1.index t (0 : Fin 2) = t.val % 4
    ∧ win1_1.index t (1 : Fin 2) = 0
    ∧ win1_2.index t (0 : Fin 2) = t.val / 4
    ∧ win1_2.index t (1 : Fin 2) = 0
    ∧ win1_3.index t (0 : Fin 2) = t.val % 4
    ∧ win1_3.index t (1 : Fin 2) = 0
    ∧ win1_4.index t (0 : Fin 2) = t.val / 4
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val / 4
    ∧ win1_7.index t (1 : Fin 2) = 0 :=
  (by decide +kernel : ∀ t : Fin grid1.N, _)

section Blocks
variable (V : (c : Dev nD) → (b : Ref sig .tc) → Buf (Elt Ideal) ((c : Thread nD τ).loc b))

/-! ## Each window's block as a rectangle of its array -/

/-- Window 0's block at point t is the rectangle of its array at block row t.val / 4, block column t.val % 4. -/
theorem blk1_0_apply (c : Dev nD) (t : Fin cfg1.N) (y : S1024x2048.Idx) (k : S8192x8192.Idx)
    (hk0 : (k 0).val = 1024 * (t.val / 4) + (y 0).val) (hk1 : (k 1).val = 2048 * (t.val % 4) + (y 1).val) :
    (iblk1 V c 0 t : Vec Ideal S1024x2048 .f32) y = (V c main_arg1 : Vec Ideal S8192x8192 .f32) k := by
  obtain ⟨e00, e01, e10, e11, e20, e21, e30, e31, e40, e41, e50, e51, e60, e61, e70, e71⟩ := idx1_facts t
  unfold iblk1
  rw [View.read_apply]
  show V c main_arg1 _ = V c main_arg1 _
  congr 1
  funext a
  apply Fin.ext
  match a with
  | ⟨0, _⟩ => show win1_0.index t (0 : Fin 2) * 1024 + 1 * (y 0).val = (k 0).val; rw [e00, hk0]; omega
  | ⟨1, _⟩ => show win1_0.index t (1 : Fin 2) * 2048 + 1 * (y 1).val = (k 1).val; rw [e01, hk1]; omega

/-- Window 1's block at point t is the rectangle of its array at block row t.val % 4. -/
theorem blk1_1_apply (c : Dev nD) (t : Fin cfg1.N) (y : S2048x256.Idx) (k : S8192x256.Idx)
    (hk0 : (k 0).val = 2048 * (t.val % 4) + (y 0).val) (hk1 : (k 1).val = (y 1).val) :
    (iblk1 V c 1 t : Vec Ideal S2048x256 .f32) y = (V c main_arg0 : Vec Ideal S8192x256 .f32) k := by
  obtain ⟨e00, e01, e10, e11, e20, e21, e30, e31, e40, e41, e50, e51, e60, e61, e70, e71⟩ := idx1_facts t
  unfold iblk1
  rw [View.read_apply]
  show V c main_arg0 _ = V c main_arg0 _
  congr 1
  funext a
  apply Fin.ext
  match a with
  | ⟨0, _⟩ => show win1_1.index t (0 : Fin 2) * 2048 + 1 * (y 0).val = (k 0).val; rw [e10, hk0]; omega
  | ⟨1, _⟩ => show win1_1.index t (1 : Fin 2) * 256 + 1 * (y 1).val = (k 1).val; rw [e11, hk1]; omega

/-- Window 2's block at point t is the rectangle of its array at block row t.val / 4. -/
theorem blk1_2_apply (c : Dev nD) (t : Fin cfg1.N) (y : S1024x256.Idx) (k : S8192x256.Idx)
    (hk0 : (k 0).val = 1024 * (t.val / 4) + (y 0).val) (hk1 : (k 1).val = (y 1).val) :
    (iblk1 V c 2 t : Vec Ideal S1024x256 .f32) y = (V c main_arg0 : Vec Ideal S8192x256 .f32) k := by
  obtain ⟨e00, e01, e10, e11, e20, e21, e30, e31, e40, e41, e50, e51, e60, e61, e70, e71⟩ := idx1_facts t
  unfold iblk1
  rw [View.read_apply]
  show V c main_arg0 _ = V c main_arg0 _
  congr 1
  funext a
  apply Fin.ext
  match a with
  | ⟨0, _⟩ => show win1_2.index t (0 : Fin 2) * 1024 + 1 * (y 0).val = (k 0).val; rw [e20, hk0]; omega
  | ⟨1, _⟩ => show win1_2.index t (1 : Fin 2) * 256 + 1 * (y 1).val = (k 1).val; rw [e21, hk1]; omega

/-- Window 3's block at point t is the rectangle of its array at block row t.val % 4. -/
theorem blk1_3_apply (c : Dev nD) (t : Fin cfg1.N) (y : S2048x1.Idx) (k : S8192x1.Idx)
    (hk0 : (k 0).val = 2048 * (t.val % 4) + (y 0).val) (hk1 : (k 1).val = (y 1).val) :
    (iblk1 V c 3 t : Vec Ideal S2048x1 .f32) y = (V c main_v0 : Vec Ideal S8192x1 .f32) k := by
  obtain ⟨e00, e01, e10, e11, e20, e21, e30, e31, e40, e41, e50, e51, e60, e61, e70, e71⟩ := idx1_facts t
  unfold iblk1
  rw [View.read_apply]
  show V c main_v0 _ = V c main_v0 _
  congr 1
  funext a
  apply Fin.ext
  match a with
  | ⟨0, _⟩ => show win1_3.index t (0 : Fin 2) * 2048 + 1 * (y 0).val = (k 0).val; rw [e30, hk0]; omega
  | ⟨1, _⟩ => show win1_3.index t (1 : Fin 2) * 1 + 1 * (y 1).val = (k 1).val; rw [e31, hk1]; omega

/-- Window 4's block at point t is the rectangle of its array at block row t.val / 4. -/
theorem blk1_4_apply (c : Dev nD) (t : Fin cfg1.N) (y : S1024x1.Idx) (k : S8192x1.Idx)
    (hk0 : (k 0).val = 1024 * (t.val / 4) + (y 0).val) (hk1 : (k 1).val = (y 1).val) :
    (iblk1 V c 4 t : Vec Ideal S1024x1 .f32) y = (V c main_v0 : Vec Ideal S8192x1 .f32) k := by
  obtain ⟨e00, e01, e10, e11, e20, e21, e30, e31, e40, e41, e50, e51, e60, e61, e70, e71⟩ := idx1_facts t
  unfold iblk1
  rw [View.read_apply]
  show V c main_v0 _ = V c main_v0 _
  congr 1
  funext a
  apply Fin.ext
  match a with
  | ⟨0, _⟩ => show win1_4.index t (0 : Fin 2) * 1024 + 1 * (y 0).val = (k 0).val; rw [e40, hk0]; omega
  | ⟨1, _⟩ => show win1_4.index t (1 : Fin 2) * 1 + 1 * (y 1).val = (k 1).val; rw [e41, hk1]; omega

/-- Window 5's block at point t is the rectangle of its array at block row 0. -/
theorem blk1_5_apply (c : Dev nD) (t : Fin cfg1.N) (y : S256x256.Idx) (k : S256x256.Idx)
    (hk0 : (k 0).val = (y 0).val) (hk1 : (k 1).val = (y 1).val) :
    (iblk1 V c 5 t : Vec Ideal S256x256 .f32) y = (V c main_v1 : Vec Ideal S256x256 .f32) k := by
  obtain ⟨e00, e01, e10, e11, e20, e21, e30, e31, e40, e41, e50, e51, e60, e61, e70, e71⟩ := idx1_facts t
  unfold iblk1
  rw [View.read_apply]
  show V c main_v1 _ = V c main_v1 _
  congr 1
  funext a
  apply Fin.ext
  match a with
  | ⟨0, _⟩ => show win1_5.index t (0 : Fin 2) * 256 + 1 * (y 0).val = (k 0).val; rw [e50, hk0]; omega
  | ⟨1, _⟩ => show win1_5.index t (1 : Fin 2) * 256 + 1 * (y 1).val = (k 1).val; rw [e51, hk1]; omega

/-- Window 6's block at point t is the rectangle of its array at block row 0. -/
theorem blk1_6_apply (c : Dev nD) (t : Fin cfg1.N) (y : S1x256.Idx) (k : S1x256.Idx)
    (hk0 : (k 0).val = (y 0).val) (hk1 : (k 1).val = (y 1).val) :
    (iblk1 V c 6 t : Vec Ideal S1x256 .f32) y = (V c main_v2 : Vec Ideal S1x256 .f32) k := by
  obtain ⟨e00, e01, e10, e11, e20, e21, e30, e31, e40, e41, e50, e51, e60, e61, e70, e71⟩ := idx1_facts t
  unfold iblk1
  rw [View.read_apply]
  show V c main_v2 _ = V c main_v2 _
  congr 1
  funext a
  apply Fin.ext
  match a with
  | ⟨0, _⟩ => show win1_6.index t (0 : Fin 2) * 1 + 1 * (y 0).val = (k 0).val; rw [e60, hk0]; omega
  | ⟨1, _⟩ => show win1_6.index t (1 : Fin 2) * 256 + 1 * (y 1).val = (k 1).val; rw [e61, hk1]; omega

/-- Reading any contents of the output array through the output window's block at point t. -/
theorem read1_7_apply (Gf : Vec Ideal S8192x256 .f32) (t : Fin cfg1.N) (y : S1024x256.Idx) (k : S8192x256.Idx)
    (hk0 : (k 0).val = 1024 * (t.val / 4) + (y 0).val) (hk1 : (k 1).val = (y 1).val) :
    (((cfg1.win 7).blk t).view.read (Elt Ideal) Gf : Vec Ideal S1024x256 .f32) y = Gf k := by
  obtain ⟨e00, e01, e10, e11, e20, e21, e30, e31, e40, e41, e50, e51, e60, e61, e70, e71⟩ := idx1_facts t
  rw [View.read_apply]
  show Gf _ = Gf _
  congr 1
  funext a
  apply Fin.ext
  match a with
  | ⟨0, _⟩ => show win1_7.index t (0 : Fin 2) * 1024 + 1 * (y 0).val = (k 0).val; rw [e70, hk0]; omega
  | ⟨1, _⟩ => show win1_7.index t (1 : Fin 2) * 256 + 1 * (y 1).val = (k 1).val; rw [e71, hk1]; omega

/-! ## The blocks of real inputs -/

section Real
variable (c : Dev nD) (a : Fin 8192 → Fin 8192 → ℝ) (x : Fin 8192 → Fin 256 → ℝ) (w : Fin 256 → Fin 256 → ℝ) (bb : Fin 256 → ℝ)
variable (hA : ∀ i j, (V c main_arg1 : Vec Ideal S8192x8192 .f32) (ix2 i j) = ((a i j : ℝ) : EReal))
    (hX : ∀ i k, (V c main_arg0 : Vec Ideal S8192x256 .f32) (ix2 i k) = ((x i k : ℝ) : EReal))
    (hD : ∀ i, (V c main_v0 : Vec Ideal S8192x1 .f32) (ix2 i 0) = ((Cert.Spec.dis a i : ℝ) : EReal))
    (hWt : ∀ k o, (V c main_v1 : Vec Ideal S256x256 .f32) (ix2 k o) = ((w o k : ℝ) : EReal))
    (hB : ∀ o, (V c main_v2 : Vec Ideal S1x256 .f32) (ix2 0 o) = ((bb o : ℝ) : EReal))
include hA hX hD hWt hB

/-- At point 4 I + J the block of A holds the entries of row block I, column block J. -/
theorem blkA_real (t : Fin cfg1.N) (I : Fin 8) (J : Fin 4) (ht : t.val = 4 * I.val + J.val) (p : Fin 1024) (j : Fin 2048) :
    (iblk1 V c 0 t : Vec Ideal S1024x2048 .f32) (ix2 p j) = ((a (rowOf I p) (colOf J j) : ℝ) : EReal) :=
  (blk1_0_apply V c t (ix2 p j) (ix2 (rowOf I p) (colOf J j)) (by show (rowOf I p).val = 1024 * (t.val / 4) + p.val; rw [rowOf_val, ht]; have := J.isLt; omega) (by show (colOf J j).val = 2048 * (t.val % 4) + j.val; rw [colOf_val, ht]; have := J.isLt; omega)).trans (hA _ _)

/-- There the column-side feature block holds the feature rows of column block J, -/
theorem blkXj_real (t : Fin cfg1.N) (I : Fin 8) (J : Fin 4) (ht : t.val = 4 * I.val + J.val) (j : Fin 2048) (k : Fin 256) :
    (iblk1 V c 1 t : Vec Ideal S2048x256 .f32) (ix2 j k) = ((x (colOf J j) k : ℝ) : EReal) :=
  (blk1_1_apply V c t (ix2 j k) (ix2 (colOf J j) k) (by show (colOf J j).val = 2048 * (t.val % 4) + j.val; rw [colOf_val, ht]; have := J.isLt; omega) rfl).trans (hX _ _)

/-- the row-side feature block the feature rows of row block I, -/
theorem blkXi_real (t : Fin cfg1.N) (I : Fin 8) (J : Fin 4) (ht : t.val = 4 * I.val + J.val) (p : Fin 1024) (k : Fin 256) :
    (iblk1 V c 2 t : Vec Ideal S1024x256 .f32) (ix2 p k) = ((x (rowOf I p) k : ℝ) : EReal) :=
  (blk1_2_apply V c t (ix2 p k) (ix2 (rowOf I p) k) (by show (rowOf I p).val = 1024 * (t.val / 4) + p.val; rw [rowOf_val, ht]; have := J.isLt; omega) rfl).trans (hX _ _)

/-- the column-side scaling block the scaling factors of column block J, -/
theorem blkDj_real (t : Fin cfg1.N) (I : Fin 8) (J : Fin 4) (ht : t.val = 4 * I.val + J.val) (j : Fin 2048) :
    (iblk1 V c 3 t : Vec Ideal S2048x1 .f32) (ix2 j 0) = ((Cert.Spec.dis a (colOf J j) : ℝ) : EReal) :=
  (blk1_3_apply V c t (ix2 j 0) (ix2 (colOf J j) 0) (by show (colOf J j).val = 2048 * (t.val % 4) + j.val; rw [colOf_val, ht]; have := J.isLt; omega) rfl).trans (hD _)

/-- the row-side scaling block the scaling factors of row block I, -/
theorem blkDi_real (t : Fin cfg1.N) (I : Fin 8) (J : Fin 4) (ht : t.val = 4 * I.val + J.val) (p : Fin 1024) :
    (iblk1 V c 4 t : Vec Ideal S1024x1 .f32) (ix2 p 0) = ((Cert.Spec.dis a (rowOf I p) : ℝ) : EReal) :=
  (blk1_4_apply V c t (ix2 p 0) (ix2 (rowOf I p) 0) (by show (rowOf I p).val = 1024 * (t.val / 4) + p.val; rw [rowOf_val, ht]; have := J.isLt; omega) rfl).trans (hD _)

/-- the weights' block the whole transposed weight matrix, -/
theorem blkW_real (t : Fin cfg1.N) (k o : Fin 256) :
    (iblk1 V c 5 t : Vec Ideal S256x256 .f32) (ix2 k o) = ((w o k : ℝ) : EReal) :=
  (blk1_5_apply V c t (ix2 k o) (ix2 k o) rfl rfl).trans (hWt _ _)

/-- and the bias's block the whole bias row. -/
theorem blkB_real (t : Fin cfg1.N) (o : Fin 256) :
    (iblk1 V c 6 t : Vec Ideal S1x256 .f32) (ix2 0 o) = ((bb o : ℝ) : EReal) :=
  (blk1_6_apply V c t (ix2 0 o) (ix2 0 o) rfl rfl).trans (hB _)

/-! ## The output array -/

/-- The layer's output as contents of the output array. -/
def outArr : Vec Ideal S8192x256 .f32 :=
  fun i => ((Cert.Spec.out a x w bb ⟨(i 0).val, idx2_lt0 i⟩ ⟨(i 1).val, idx2_lt1 i⟩ : ℝ) : EReal)

omit hA hX hD hWt hB in
/-- Two contents of a 1024-by-256 block agree when they agree at every pair of coordinates. -/
theorem blk_ext (f g : Vec Ideal S1024x256 .f32) (h : ∀ (p : Fin 1024) (o : Fin 256), f (ix2 p o) = g (ix2 p o)) : f = g :=
  funext fun y => by rw [eq_ix2 y]; exact h _ _

/-- WHAT A WRITE-BACK WRITES. The output window is written back at the last point of each sweep, and what is
    written is the block of the layer's output at the rows of the sweep's row block. -/
theorem flushed1_7_eq (qL qR : PosShare TreeShare) (t : Fin cfg1.N) (hf : (cfg1.win 7).flush t = true) :
    (dat1 (F := Ideal) qL qR V c).flushed 7 t = ((cfg1.win 7).blk t).view.read (Elt Ideal) (outArr a x w bb) := by
  have h3 : t.val % 4 = 3 := (flush1_7 t).mp hf
  have hN : t.val < 32 := lt_of_lt_of_eq t.isLt (show cfg1.N = 32 from N_1)
  obtain ⟨I, hI⟩ : ∃ I : Fin 8, t.val = 4 * I.val + 3 := ⟨⟨t.val / 4, by omega⟩, by show t.val = 4 * (t.val / 4) + 3; omega⟩
  obtain ⟨t1, e1⟩ : ∃ t1 : Fin cfg1.N, t1.val + 1 = t.val := ⟨⟨t.val - 1, Nat.lt_of_le_of_lt (Nat.sub_le _ _) t.isLt⟩, by show t.val - 1 + 1 = t.val; omega⟩
  obtain ⟨t2, e2⟩ : ∃ t2 : Fin cfg1.N, t2.val + 2 = t.val := ⟨⟨t.val - 2, Nat.lt_of_le_of_lt (Nat.sub_le _ _) t.isLt⟩, by show t.val - 2 + 2 = t.val; omega⟩
  obtain ⟨t3, e3⟩ : ∃ t3 : Fin cfg1.N, t3.val + 3 = t.val := ⟨⟨t.val - 3, Nat.lt_of_le_of_lt (Nat.sub_le _ _) t.isLt⟩, by show t.val - 3 + 3 = t.val; omega⟩
  have ht : t.val = 4 * I.val + (3 : Fin 4).val := hI
  have ht1 : t1.val = 4 * I.val + (2 : Fin 4).val := by show t1.val = 4 * I.val + 2; omega
  have ht2 : t2.val = 4 * I.val + (1 : Fin 4).val := by show t2.val = 4 * I.val + 1; omega
  have ht3 : t3.val = 4 * I.val + (0 : Fin 4).val := by show t3.val = 4 * I.val + 0; omega
  show (cfg1.win 7).cut (grid1.coords t) ((dat1 (F := Ideal) qL qR V c).after 7 t) = _
  rw [after1_7_sweep qL qR V c t t1 t2 t3 h3 e1 e2 e3]
  refine blk_ext _ _ fun p o => ?_
  refine (sweep_real a x w bb I
    (iblk1 V c 0 t3) (iblk1 V c 0 t2) (iblk1 V c 0 t1) (iblk1 V c 0 t)
    (iblk1 V c 1 t3) (iblk1 V c 1 t2) (iblk1 V c 1 t1) (iblk1 V c 1 t)
    (iblk1 V c 3 t3) (iblk1 V c 3 t2) (iblk1 V c 3 t1) (iblk1 V c 3 t)
    (iblk1 V c 2 t3) (iblk1 V c 4 t3) (iblk1 V c 4 t) (iblk1 V c 5 t) (iblk1 V c 6 t)
    (blkA_real V c a x w bb hA hX hD hWt hB t3 I 0 ht3) (blkXj_real V c a x w bb hA hX hD hWt hB t3 I 0 ht3) (blkDj_real V c a x w bb hA hX hD hWt hB t3 I 0 ht3)
    (blkA_real V c a x w bb hA hX hD hWt hB t2 I 1 ht2) (blkXj_real V c a x w bb hA hX hD hWt hB t2 I 1 ht2) (blkDj_real V c a x w bb hA hX hD hWt hB t2 I 1 ht2)
    (blkA_real V c a x w bb hA hX hD hWt hB t1 I 2 ht1) (blkXj_real V c a x w bb hA hX hD hWt hB t1 I 2 ht1) (blkDj_real V c a x w bb hA hX hD hWt hB t1 I 2 ht1)
    (blkA_real V c a x w bb hA hX hD hWt hB t I 3 ht) (blkXj_real V c a x w bb hA hX hD hWt hB t I 3 ht) (blkDj_real V c a x w bb hA hX hD hWt hB t I 3 ht)
    (blkXi_real V c a x w bb hA hX hD hWt hB t3 I 0 ht3)
    (blkDi_real V c a x w bb hA hX hD hWt hB t3 I 0 ht3) (blkDi_real V c a x w bb hA hX hD hWt hB t I 3 ht)
    (blkW_real V c a x w bb hA hX hD hWt hB t) (blkB_real V c a x w bb hA hX hD hWt hB t) p o).trans ?_
  refine (read1_7_apply (outArr a x w bb) t (ix2 p o) (ix2 (rowOf I p) o)
    (by show (rowOf I p).val = 1024 * (t.val / 4) + p.val; rw [rowOf_val, hI]; omega) rfl).symm

omit hA hX hD hWt hB in
/-- An index of the output array lies in the block written back at the last point of its row block's sweep. -/
theorem cover1_7 (i : S8192x256.Idx) :
    ∃ t : Fin cfg1.N, (cfg1.win 7).flush t = true ∧ i ∈ ((cfg1.win 7).blk t).view.set := by
  have hi0 : (i 0).val < 8192 := idx2_lt0 i
  have hi1 : (i 1).val < 256 := idx2_lt1 i
  have hN : cfg1.N = 32 := N_1
  let t : Fin cfg1.N := ⟨4 * ((i 0).val / 1024) + 3, by rw [hN]; omega⟩
  have htv : t.val = 4 * ((i 0).val / 1024) + 3 := rfl
  obtain ⟨e00, e01, e10, e11, e20, e21, e30, e31, e40, e41, e50, e51, e60, e61, e70, e71⟩ := idx1_facts t
  refine ⟨t, (flush1_7 t).mpr (by rw [htv]; omega), ?_⟩
  show i ∈ ((View.whole main_v3).slice (win1_7.rect t)).set
  rw [View.set_slice_whole, Rect.mem_set_unit]
  intro a
  match a with
  | ⟨0, _⟩ => show win1_7.index t (0 : Fin 2) * 1024 ≤ (i 0).val ∧ (i 0).val < win1_7.index t (0 : Fin 2) * 1024 + 1024; rw [e70, htv]; omega
  | ⟨1, _⟩ => show win1_7.index t (1 : Fin 2) * 256 ≤ (i 1).val ∧ (i 1).val < win1_7.index t (1 : Fin 2) * 256 + 256; rw [e71]; omega

/-- THE OUTPUT ARRAY after region 1: the layer's output, entry by entry. -/
theorem out_array_at (qL qR : PosShare TreeShare) (r : Fin 8192) (o : Fin 256) :
    ((dat1 (F := Ideal) qL qR V c).arrAt 7 cfg1.N : Vec Ideal S8192x256 .f32) (ix2 r o)
      = ((Cert.Spec.out a x w bb r o : ℝ) : EReal) := by
  rw [(dat1 (F := Ideal) qL qR V c).arrAt_eq_of_cover 7 (outArr a x w bb)
    (fun t hf => flushed1_7_eq V c a x w bb hA hX hD hWt hB qL qR t hf) (fun i => cover1_7 i)]
  rfl

end Real
end Blocks

/-- THE OUTPUT ARRAY after region 1, the hypotheses in one list: if on core c the region finds A, X, the scaling
    vector, the transposed weights and the bias row holding reals (the scaling vector the inverse square roots of
    the degrees), then its output array ends holding the layer's output. -/
theorem out_array (qL qR : PosShare TreeShare) (V : (c : Dev nD) → (b : Ref sig .tc) → Buf (Elt Ideal) ((c : Thread nD τ).loc b)) (c : Dev nD)
    (a : Fin 8192 → Fin 8192 → ℝ) (x : Fin 8192 → Fin 256 → ℝ) (w : Fin 256 → Fin 256 → ℝ) (bb : Fin 256 → ℝ)
    (hA : ∀ i j, (V c main_arg1 : Vec Ideal S8192x8192 .f32) (ix2 i j) = ((a i j : ℝ) : EReal))
    (hX : ∀ i k, (V c main_arg0 : Vec Ideal S8192x256 .f32) (ix2 i k) = ((x i k : ℝ) : EReal))
    (hD : ∀ i, (V c main_v0 : Vec Ideal S8192x1 .f32) (ix2 i 0) = ((Cert.Spec.dis a i : ℝ) : EReal))
    (hWt : ∀ k o, (V c main_v1 : Vec Ideal S256x256 .f32) (ix2 k o) = ((w o k : ℝ) : EReal))
    (hB : ∀ o, (V c main_v2 : Vec Ideal S1x256 .f32) (ix2 0 o) = ((bb o : ℝ) : EReal))
    (r : Fin 8192) (o : Fin 256) :
    ((dat1 (F := Ideal) qL qR V c).arrAt 7 cfg1.N : Vec Ideal S8192x256 .f32) (ix2 r o)
      = ((Cert.Spec.out a x w bb r o : ℝ) : EReal) :=
  out_array_at V c a x w bb hA hX hD hWt hB qL qR r o

end Cert.KVal

end
-- ==== Proof.PreFacts.lean ====
/-
  What the precondition says of the inputs. It is a conjunction of five "all" tests: each of the four
  arrays has every entry of absolute value below +∞, and every row sum of A, plus 2, is above zero.
  An extended real whose absolute value is below +∞ is a real, so the four arrays are arrays of reals;
  and then the row sum is the real row sum, so the last test says that every degree is positive.
-/
import proofs.«175491_j9534827397796_2_alg».proof.Pre_finite_inputs
import proofs.«175491_j9534827397796_2_alg».proof.Proof.Gen.Pre_finite_inputs
import Idealize.ShloMosaic.Lib.ReduceAll
import Idealize.ShloMosaic.Lib.ValueIdx
import Idealize.ShloMosaic.Lib.IdealHost
import Idealize.ShloMosaic.PureOps.Ideal.Laws
import proofs.«175491_j9534827397796_2_alg».proof.Proof.Spec
import proofs.«175491_j9534827397796_2_alg».proof.Proof.RefAlgebra

noncomputable section

namespace Cert.PreFacts

open Idealize.ShloMosaic Cert.Pre_finite_inputs Cert.Pre_finite_inputs.Gen Cert.RefAlgebra

/-- A rank-0 array has one index. -/
instance : Subsingleton S_.Idx := ⟨fun _ _ => funext fun d => d.elim0⟩

/-! ## Comparisons of extended reals read back -/

theorem lt_of_cmp_olt {u v : EReal} (e : Ideal.cmp .olt u v = 1#1) : u < v := by
  by_contra hn
  have h0 : Ideal.cmp .olt u v = 0#1 := by simp [Ideal.cmp, hn]
  rw [h0] at e
  exact absurd e (by decide)

theorem lt_of_cmp_ogt {u v : EReal} (e : Ideal.cmp .ogt u v = 1#1) : v < u := by
  by_contra hn
  have h0 : Ideal.cmp .ogt u v = 0#1 := by simp [Ideal.cmp, hn]
  rw [h0] at e
  exact absurd e (by decide)

/-- The pattern of +∞. -/
theorem ofBits_inf : Ideal.ofBits .f32 0x7F800000#32 = ⊤ := by simp [Ideal.ofBits, Ideal.ieee]

/-- An extended real whose absolute value is below +∞ is a real. -/
theorem real_of_abs_lt_top (y : EReal) (h : max y (-y) < ⊤) : ∃ r : ℝ, y = ((r : ℝ) : EReal) := by
  induction y using EReal.rec with
  | bot => simp at h
  | coe r => exact ⟨r, rfl⟩
  | top => simp at h

/-- One entry of a finiteness test: the entry is a real. -/
theorem real_of_test {T : Shape} (hb : S_.BroadcastsInDim T ![]) (Y : FVec Ideal T .f32) (i : T.Idx)
    (e : cmpf .olt (Host.absf Y) (broadcastInDim T ![] hb (constant (F := Ideal) S_ .f32 0x7F800000#32)) i = 1#1) :
    ∃ r : ℝ, Y i = ((r : ℝ) : EReal) := by
  rw [ValueIdx.cmpf_apply, Ideal.cmpf_def, ValueIdx.broadcastInDim_scalar_apply, ValueIdx.constant_apply, ofBits_inf] at e
  exact real_of_abs_lt_top (Y i) (lt_of_cmp_olt e)

/-- A whole finiteness test: every entry is a real. -/
theorem reals_of_all {T : Shape} {axes : List (Fin T.rank)} (hb : S_.BroadcastsInDim T ![]) (hr : T.ReducesTo axes S_)
    (hu : 0 < S_.numel) (Y : FVec Ideal T .f32)
    (e : Host.reduce IntOp.andi
        (cmpf .olt (Host.absf Y) (broadcastInDim T ![] hb (constant (F := Ideal) S_ .f32 0x7F800000#32)))
        (constantI S_ 1 1#1) hr hu ValueIdx.ix0 = 1#1) (i : T.Idx) :
    ∃ r : ℝ, Y i = ((r : ℝ) : EReal) :=
  real_of_test hb Y i (Host.reduce_andi_all _ _ hr hu ValueIdx.ix0 e i)

/-! ## The row sum of A at a row -/

/-- The host's sum of A along its second axis, started from the zero word, at row `i`. -/
theorem rowsum_apply (hr : S8192x8192.ReducesTo [1] S8192) (hu : 0 < S_.numel) (A : FVec Ideal S8192x8192 .f32)
    (i : Fin 8192) :
    Host.reduceAdd A (constant (F := Ideal) S_ .f32 0x00000000#32) hr hu (ValueIdx.ix1 i)
      = 0 + ∑ k : Fin 8192, A (ValueIdx.ix2 i k) := by
  rw [ValueIdx.hostReduceAdd_apply, Ideal.hostReduceAdd_single hr (by decide)]
  refine congrArg₂ (· + ·) ?_ (Finset.sum_congr rfl fun k _ => ?_)
  · exact Ideal.ofBits_zero_f32
  · exact congrArg A (funext fun a => Fin.ext (by match a with | ⟨0, _⟩ => rfl | ⟨1, _⟩ => rfl))

/-- One entry of the degree test, for an array of reals: the degree is positive. -/
theorem deg_pos_of_test (hr : S8192x8192.ReducesTo [1] S8192) (hu : 0 < S_.numel) (hb : S_.BroadcastsInDim S8192 ![])
    (A : FVec Ideal S8192x8192 .f32) (a : Fin 8192 → Fin 8192 → ℝ)
    (hA : ∀ i j, A (ValueIdx.ix2 i j) = ((a i j : ℝ) : EReal)) (i : Fin 8192)
    (e : cmpf .ogt
        (addf (Host.reduceAdd A (constant (F := Ideal) S_ .f32 0x00000000#32) hr hu)
          (broadcastInDim S8192 ![] hb (constant (F := Ideal) S_ .f32 0x40000000#32)))
        (broadcastInDim S8192 ![] hb (constant (F := Ideal) S_ .f32 0x00000000#32)) (ValueIdx.ix1 i) = 1#1) :
    0 < Cert.Spec.deg a i := by
  rw [ValueIdx.cmpf_apply, Ideal.cmpf_def, ValueIdx.addf_apply, rowsum_apply,
    ValueIdx.broadcastInDim_scalar_apply, ValueIdx.broadcastInDim_scalar_apply, ValueIdx.constant_apply,
    ValueIdx.constant_apply, ofBits_two, Ideal.ofBits_zero_f32] at e
  have h := lt_of_cmp_ogt e
  simp only [hA] at h
  rw [← coe_sum, ← EReal.coe_zero, ← EReal.coe_add, ← EReal.coe_add, EReal.coe_lt_coe_iff, zero_add] at h
  exact h

/-! ## The precondition decoded -/

/-- Under the precondition the four inputs are arrays of reals and every degree is positive. -/
theorem reals_of_pre (X : FVec Ideal S8192x256 .f32) (A : FVec Ideal S8192x8192 .f32) (W : FVec Ideal S256x256 .f32)
    (b : FVec Ideal S256 .f32) (h : Cert.Pre_finite_inputs.fn (F := Ideal) X A W b = fun _ => 1#1) :
    ∃ (a : Fin 8192 → Fin 8192 → ℝ) (x : Fin 8192 → Fin 256 → ℝ) (w : Fin 256 → Fin 256 → ℝ) (bb : Fin 256 → ℝ),
      (∀ i j, A (ValueIdx.ix2 i j) = ((a i j : ℝ) : EReal)) ∧ (∀ i k, X (ValueIdx.ix2 i k) = ((x i k : ℝ) : EReal))
      ∧ (∀ o k, W (ValueIdx.ix2 o k) = ((w o k : ℝ) : EReal)) ∧ (∀ o, b (ValueIdx.ix1 o) = ((bb o : ℝ) : EReal))
      ∧ (∀ i, 0 < Cert.Spec.deg a i) := by
  have h0 := congrFun h ValueIdx.ix0
  dsimp only [Cert.Pre_finite_inputs.fn, Cert.Pre_finite_inputs.fn_part1] at h0
  obtain ⟨h1, hdeg⟩ := IntOp.andi_eq_one.mp h0
  obtain ⟨h2, hb⟩ := IntOp.andi_eq_one.mp h1
  obtain ⟨h3, hW⟩ := IntOp.andi_eq_one.mp h2
  obtain ⟨hX, hA⟩ := IntOp.andi_eq_one.mp h3
  choose fa hfa using reals_of_all _ _ _ A hA
  choose fx hfx using reals_of_all _ _ _ X hX
  choose fw hfw using reals_of_all _ _ _ W hW
  choose fb hfb using reals_of_all _ _ _ b hb
  refine ⟨fun i j => fa (ValueIdx.ix2 i j), fun i k => fx (ValueIdx.ix2 i k), fun o k => fw (ValueIdx.ix2 o k),
    fun o => fb (ValueIdx.ix1 o), fun i j => hfa _, fun i k => hfx _, fun o k => hfw _, fun o => hfb _, fun i => ?_⟩
  exact deg_pos_of_test _ _ _ A _ (fun i j => hfa _) i (Host.reduce_andi_all _ _ _ _ ValueIdx.ix0 hdeg (ValueIdx.ix1 i))

end Cert.PreFacts

end
-- ==== Proof.RefValue.lean ====
/-
  The reference layer read as real numbers. With every input entry a finite real and every degree
  positive, each stage of the reference is a real: the entry of A + 2I is a_ij + 2[i = j], its row sum
  is the degree, the inverse square root of the degree is dis, the doubly scaled matrix times X is the
  specification's row with the diagonal term split off, and the last product with Wᵀ plus the bias,
  clipped below at zero, is the specification's output.
-/
import proofs.«175491_j9534827397796_2_alg».proof.Proof.Gen.ReferenceIdeal.Read
import proofs.«175491_j9534827397796_2_alg».proof.Proof.Spec
import proofs.«175491_j9534827397796_2_alg».proof.Proof.RefAlgebra

noncomputable section

namespace Cert.RefValue

open Idealize.ShloMosaic Cert.ReferenceIdeal Cert.ReferenceIdeal.Gen Cert.ReferenceIdeal.Read Cert.RefAlgebra

/-! ## The stages' index maps at indices built from coordinates -/

theorem idx_v9 (i k : Fin 8192) : idx_main_v9 (ValueIdx.ix1 i) k = ValueIdx.ix2 i k :=
  funext fun a => Fin.ext (by match a with | ⟨0, _⟩ => rfl | ⟨1, _⟩ => rfl)

theorem idx_v12 (i j : Fin 8192) : idx_main_v11 (idx_main_v12 (ValueIdx.ix2 i j)) = ValueIdx.ix1 i :=
  funext fun a => Fin.ext (by match a with | ⟨0, _⟩ => rfl)

theorem idx_v15 (i j : Fin 8192) : idx_main_v14 (idx_main_v15 (ValueIdx.ix2 i j)) = ValueIdx.ix1 j :=
  funext fun a => Fin.ext (by match a with | ⟨0, _⟩ => rfl)

theorem lidx_v17 (i : Fin 8192) (k : Fin 256) (j : Fin 8192) :
    lidx_main_v17 (ValueIdx.ix2 i k) j = ValueIdx.ix2 i j :=
  funext fun a => Fin.ext (by match a with | ⟨0, _⟩ => rfl | ⟨1, _⟩ => rfl)

theorem ridx_v17 (i : Fin 8192) (k : Fin 256) (j : Fin 8192) :
    ridx_main_v17 (ValueIdx.ix2 i k) j = ValueIdx.ix2 j k :=
  funext fun a => Fin.ext (by match a with | ⟨0, _⟩ => rfl | ⟨1, _⟩ => rfl)

theorem lidx_v19 (i : Fin 8192) (o k : Fin 256) :
    lidx_main_v19 (ValueIdx.ix2 i o) k = ValueIdx.ix2 i k :=
  funext fun a => Fin.ext (by match a with | ⟨0, _⟩ => rfl | ⟨1, _⟩ => rfl)

theorem ridx_v19 (i : Fin 8192) (o k : Fin 256) :
    idx_main_v18 (ridx_main_v19 (ValueIdx.ix2 i o) k) = ValueIdx.ix2 o k :=
  funext fun a => Fin.ext (by match a with | ⟨0, _⟩ => rfl | ⟨1, _⟩ => rfl)

theorem idx_v21 (i : Fin 8192) (o : Fin 256) :
    idx_main_v20 (idx_main_v21 (ValueIdx.ix2 i o)) = ValueIdx.ix1 o :=
  funext fun a => Fin.ext (by match a with | ⟨0, _⟩ => rfl)

/-! ## The stages as reals -/

section
variable (A : (⟨S8192x8192, .f32⟩ : BufTy).Contents (Elt Ideal)) (a : Fin 8192 → Fin 8192 → ℝ)
  (hA : ∀ i j, A (ValueIdx.ix2 i j) = ((a i j : ℝ) : EReal))
include hA

/-- An entry of `A + 2I`. -/
theorem v8_real (i j : Fin 8192) :
    val_main_v8 (F := Ideal) A (ValueIdx.ix2 i j) = ((a i j + 2 * (if i = j then (1 : ℝ) else 0) : ℝ) : EReal) := by
  rw [val_main_v8_apply, val_main_v7_apply, val_main_v6_apply, val_main_cst_apply, val_main_v5_apply,
    val_main_v4_apply, val_main_v3_apply, val_main_v0_apply, val_main_v2_apply, val_main_c_apply,
    val_main_v1_apply, hA]
  show ((a i j : ℝ) : EReal) + Ideal.ofBits .f32 0x40000000#32
      * FloatOps.uitofp (F := Ideal) .f32
          (IntOp.cmpi .eq (IntOp.addi (BitVec.ofNat 32 i.val) 0#32) (BitVec.ofNat 32 j.val)) = _
  rw [ofBits_two, eye_real, ← EReal.coe_mul, ← EReal.coe_add]

/-- The row sum of `A + 2I` is the degree. -/
theorem v9_real (i : Fin 8192) :
    val_main_v9 (F := Ideal) A (ValueIdx.ix1 i) = ((Cert.Spec.deg a i : ℝ) : EReal) := by
  rw [val_main_v9_apply, val_main_cst_0_apply]
  simp only [idx_v9, v8_real A a hA]
  rw [Ideal.ofBits_def, Ideal.ofBits_zero_f32, ← coe_sum, ← EReal.coe_zero, ← EReal.coe_add, deg_alg]
  rfl

variable (hpos : ∀ i, 0 < Cert.Spec.deg a i)
include hpos

/-- The inverse square root of the degree. -/
theorem v10_real (i : Fin 8192) :
    val_main_v10 (F := Ideal) A (ValueIdx.ix1 i) = ((Cert.Spec.dis a i : ℝ) : EReal) := by
  rw [val_main_v10_apply, v9_real A a hA, Ideal.hostUnary_rsqrt_def, rsqrt_of_pos (hpos i)]
  rfl

/-- An entry of `D^{-1/2} (A + 2I) D^{-1/2}`. -/
theorem v16_real (i j : Fin 8192) :
    val_main_v16 (F := Ideal) A (ValueIdx.ix2 i j)
      = ((((a i j + 2 * (if i = j then (1 : ℝ) else 0)) * Cert.Spec.dis a i) * Cert.Spec.dis a j : ℝ) : EReal) := by
  rw [val_main_v16_apply, val_main_v13_apply, val_main_v12_apply, val_main_v11_apply, idx_v12,
    val_main_v15_apply, val_main_v14_apply, idx_v15, v8_real A a hA, v10_real A a hA hpos, v10_real A a hA hpos,
    Ideal.mulf_def, Ideal.mulf_def, ← EReal.coe_mul, ← EReal.coe_mul]

variable (X : (⟨S8192x256, .f32⟩ : BufTy).Contents (Elt Ideal)) (x : Fin 8192 → Fin 256 → ℝ)
  (hX : ∀ i k, X (ValueIdx.ix2 i k) = ((x i k : ℝ) : EReal))
include hX

/-- A row of the normalized adjacency times `X`. -/
theorem v17_real (i : Fin 8192) (k : Fin 256) :
    val_main_v17 (F := Ideal) X A (ValueIdx.ix2 i k) = ((Cert.Spec.ax a x i k : ℝ) : EReal) := by
  rw [val_main_v17_apply]
  simp only [lidx_v17, ridx_v17, v16_real A a hA hpos, hX, ← EReal.coe_mul]
  rw [← coe_sum, ax_alg]
  rfl

variable (W : (⟨S256x256, .f32⟩ : BufTy).Contents (Elt Ideal)) (w : Fin 256 → Fin 256 → ℝ)
  (hW : ∀ o k, W (ValueIdx.ix2 o k) = ((w o k : ℝ) : EReal))
include hW

/-- The product with `Wᵀ`. -/
theorem v19_real (i : Fin 8192) (o : Fin 256) :
    val_main_v19 (F := Ideal) X A W (ValueIdx.ix2 i o)
      = ((∑ k, Cert.Spec.ax a x i k * w o k : ℝ) : EReal) := by
  rw [val_main_v19_apply]
  simp only [lidx_v19, val_main_v18_apply, ridx_v19, v17_real A a hA hpos X x hX, hW, ← EReal.coe_mul]
  rw [← coe_sum]

end

/-- The larger of two reals, read in the extended reals, is the larger of the two read there. -/
theorem coe_max (p q : ℝ) : max ((p : ℝ) : EReal) ((q : ℝ) : EReal) = ((max p q : ℝ) : EReal) :=
  (EReal.coe_strictMono.monotone.map_max).symm

/-- The reference's result at row `i`, column `o`, is the specification's output there. -/
theorem ref_eq
    (X : (⟨S8192x256, .f32⟩ : BufTy).Contents (Elt Ideal)) (A : (⟨S8192x8192, .f32⟩ : BufTy).Contents (Elt Ideal))
    (W : (⟨S256x256, .f32⟩ : BufTy).Contents (Elt Ideal)) (b : (⟨S256, .f32⟩ : BufTy).Contents (Elt Ideal))
    (a : Fin 8192 → Fin 8192 → ℝ) (x : Fin 8192 → Fin 256 → ℝ) (w : Fin 256 → Fin 256 → ℝ) (bb : Fin 256 → ℝ)
    (hA : ∀ i j, A (ValueIdx.ix2 i j) = ((a i j : ℝ) : EReal)) (hX : ∀ i k, X (ValueIdx.ix2 i k) = ((x i k : ℝ) : EReal))
    (hW : ∀ o k, W (ValueIdx.ix2 o k) = ((w o k : ℝ) : EReal)) (hb : ∀ o, b (ValueIdx.ix1 o) = ((bb o : ℝ) : EReal))
    (hpos : ∀ i, 0 < Cert.Spec.deg a i) (i : Fin 8192) (o : Fin 256) :
    val_main_v23 (F := Ideal) X A W b (ValueIdx.ix2 i o) = ((Cert.Spec.out a x w bb i o : ℝ) : EReal) := by
  rw [val_main_v23_apply, val_main_v22_apply, val_main_call0_v0_apply, val_main_call0_cst_apply,
    val_main_v21_apply, val_main_v20_apply, idx_v21, hb, v19_real A a hA hpos X x hX W w hW,
    Ideal.maximumf_def, Ideal.addf_def, Ideal.ofBits_def, Ideal.ofBits_zero_f32, ← EReal.coe_add,
    ← EReal.coe_zero, coe_max]
  rfl

end Cert.RefValue

end
-- ==== Proof.KFinal.lean ====
/-
  The kernel's result array under the precondition, and the claim that the idealized kernel and the idealized
  reference end with equal results. With every input a finite real and every degree positive, the degree pass leaves
  the inverse square roots of the degrees, the host lines lay out the transposed weights and the bias as a row, and
  the aggregation pass leaves relu((D^{-1/2}(A + 2I)D^{-1/2} X) Wᵀ + b) — the reals the reference computes.
-/
import proofs.«175491_j9534827397796_2_alg».proof.Defs
import proofs.«175491_j9534827397796_2_alg».proof.Proof.Gen.KernelIdeal
import proofs.«175491_j9534827397796_2_alg».proof.Proof.Gen.ReferenceIdeal
import proofs.«175491_j9534827397796_2_alg».proof.Proof.Gen.Pre_finite_inputs
import proofs.«175491_j9534827397796_2_alg».proof.Proof.Gen.ReferenceIdeal.Run
import proofs.«175491_j9534827397796_2_alg».proof.Proof.Gen.ReferenceIdeal.Read
import proofs.«175491_j9534827397796_2_alg».proof.Proof.KHost
import proofs.«175491_j9534827397796_2_alg».proof.Proof.KArr0
import proofs.«175491_j9534827397796_2_alg».proof.Proof.KArr1
import proofs.«175491_j9534827397796_2_alg».proof.Proof.PreFacts
import proofs.«175491_j9534827397796_2_alg».proof.Proof.RefValue

set_option maxRecDepth 16384

noncomputable section

namespace Cert.KVal

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- THE KERNEL'S VALUE. If the arguments are the real matrices `a`, `x`, `w`, `bb` and every degree is positive, the
    result array the aggregation pass leaves is the specification's output at every index. -/
theorem kernel_out (c : Dev nD)
    (a : Fin 8192 → Fin 8192 → ℝ) (x : Fin 8192 → Fin 256 → ℝ) (w : Fin 256 → Fin 256 → ℝ) (bb : Fin 256 → ℝ)
    (hA : ∀ i j, m ((c : Thread nD τ).loc main_arg1) (ix2 i j) = ((a i j : ℝ) : EReal))
    (hX : ∀ i k, m ((c : Thread nD τ).loc main_arg0) (ix2 i k) = ((x i k : ℝ) : EReal))
    (hW : ∀ o k, m ((c : Thread nD τ).loc main_arg2) (ix2 o k) = ((w o k : ℝ) : EReal))
    (hb : ∀ o, m ((c : Thread nD τ).loc main_arg3) (ix1 o) = ((bb o : ℝ) : EReal))
    (hpos : ∀ i, 0 < Cert.Spec.deg a i) (r : Fin 8192) (o : Fin 256) :
    (dat1 (F := Ideal) qL qR (V2 m ρ (P0m m ρ)) c).arrAt 7 cfg1.N (ix2 r o) = ((Cert.Spec.out a x w bb r o : ℝ) : EReal) := by
  refine out_array qL qR (V2 m ρ (P0m m ρ)) c a x w bb ?_ ?_ ?_ ?_ ?_ r o
  · intro i j; rw [V2_main_arg1 m ρ c]; exact hA i j
  · intro i k; rw [V2_main_arg0 m ρ c]; exact hX i k
  · intro i; rw [V2_main_v0 m ρ c]
    exact deg_array (V0 m ρ) c a (fun i j => hA i j) hpos i
  · intro k o; rw [V2_main_v1_apply m ρ c k o]; exact hW o k
  · intro o; rw [V2_main_v2_apply m ρ c o]; exact hb o

end Cert.KVal

namespace Cert.Proof.Claims

open Idealize.ShloMosaic Idealize.ShloMosaic.TcCoe Idealize.ShloMosaic.ValueIdx Idealize.SL.Sem

theorem frame_ri : Cert.frame_ReferenceIdeal := fun m ρ _ =>
  (θ_run Cert.ReferenceIdeal.defs _ _).mono (fun _ h c => (h c).2) (Cert.ReferenceIdeal.Value.run (F := Ideal) m ρ)

/-- At the ideal instance, from memories agreeing on the arguments and under the precondition, the kernel's result
    array (the aggregation pass's write-backs) and the reference's result (its operations' composed term) are the
    specification's output, index by index. -/
theorem algebraic : Cert.algebraic_KernelIdeal_ReferenceIdeal := by
  intro m ρ m' ρ' hpre hagree
  refine ⟨fun c => (Cert.KernelIdeal.Hand.dat1 (F := Ideal) Cert.KernelIdeal.Hand.qL Cert.KernelIdeal.Hand.qR
      (Cert.KernelIdeal.Hand.V2 m ρ (Cert.KernelIdeal.Hand.P0m m ρ)) c).arrAt 7 Cert.KernelIdeal.cfg1.N,
    Cert.KernelIdeal.Hand.run_named m ρ, ?_⟩
  refine (θ_run Cert.ReferenceIdeal.defs _ _).mono (fun _ h c => ⟨(h c).1.trans ?_, (h c).2⟩)
    (Cert.ReferenceIdeal.Value.run (F := Ideal) m' ρ')
  obtain ⟨a, x, w, bb, hA, hX, hW, hb, hpos⟩ := Cert.PreFacts.reals_of_pre _ _ _ _ (hpre c)
  rw [Cert.ReferenceIdeal.Read.val_main_v23_eq, (hagree c).1, (hagree c).2.1, (hagree c).2.2.1, (hagree c).2.2.2]
  funext i
  obtain ⟨r, o, rfl⟩ : ∃ (r : Fin 8192) (o : Fin 256), i = ix2 r o := ⟨i 0, i 1, eq_ix2 i⟩
  rw [Cert.RefValue.ref_eq _ _ _ _ a x w bb hA hX hW hb hpos r o]
  exact (Cert.KVal.kernel_out m ρ c a x w bb hA hX hW hb hpos r o).symm

end Cert.Proof.Claims

end
-- ==== Proof.lean ====
/-
  The certificate of the two-pass graph-convolution layer: a degree pass (row sums of the adjacency matrix, plus two,
  inverse square root) and an aggregation pass (the normalised adjacency applied to the node features, block by
  block over the columns, then the linear layer and relu), against relu((D^{-1/2}(A + 2I)D^{-1/2} X) Wᵀ + b).

  The three frames: the kernel's, at the word-level instance and at the ideal one, is the run of its two passes as a
  chain of segments, each pass carrying its accumulator from grid point to grid point; the reference's is its
  operations' run. No operation of the kernel was rewritten for the ideal reading, so that claim is trivial. The
  value claim: under the precondition (finite inputs, positive degrees) everything is a real number, the inverse
  square roots are finite and positive, and both programs compute the same reals — the diagonal term 2·I of the
  reference is the kernel's separate 2·dis·x start of the accumulator, and a sum over a row is the sum of its
  column blocks' sums.
-/
import proofs.«175491_j9534827397796_2_alg».proof.Defs
import proofs.«175491_j9534827397796_2_alg».proof.Proof.Gen.Kernel
import proofs.«175491_j9534827397796_2_alg».proof.Proof.Gen.KernelIdeal
import proofs.«175491_j9534827397796_2_alg».proof.Proof.Gen.ReferenceIdeal
import proofs.«175491_j9534827397796_2_alg».proof.Proof.Gen.Pre_finite_inputs
import proofs.«175491_j9534827397796_2_alg».proof.Proof.Inst
import proofs.«175491_j9534827397796_2_alg».proof.Proof.Bits.Inst
import proofs.«175491_j9534827397796_2_alg».proof.Proof.KFinal

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Cert.Proof.Claims.frame_ri,
  trivial,
  Cert.Proof.Claims.algebraic⟩

end Cert.Proof

end
